-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x24x6x2048 : Shape := ⟨4, ![64, 24, 6, 2048]⟩
abbrev S64x24x3x2048 : Shape := ⟨4, ![64, 24, 3, 2048]⟩
abbrev S_ : Shape := ⟨0, ![]⟩

class Facts : Prop where
  bcast_S_S64x24x6x2048 : S_.BroadcastsInDim S64x24x6x2048 (![] : Fin 0 → Fin S64x24x6x2048.rank)
  reducesTo_S64x24x6x2048_S_d0_1_2_3 : S64x24x6x2048.ReducesTo [0, 1, 2, 3] S_
  h_S_ : 0 < S_.numel
  bcast_S_S64x24x3x2048 : S_.BroadcastsInDim S64x24x3x2048 (![] : Fin 0 → Fin S64x24x3x2048.rank)
  reducesTo_S64x24x3x2048_S_d0_1_2_3 : S64x24x3x2048.ReducesTo [0, 1, 2, 3] S_

variable [Facts]

def fn {F : FTy → Type} [FloatOps F] (main_arg0 : FVec F S64x24x6x2048 .f32) (main_arg1 : FVec F S64x24x6x2048 .f32) (main_arg2 : FVec F S64x24x3x2048 .f32) : IVec S_ 1 :=
  let main_v0 : FVec F S64x24x6x2048 .f32 := Host.absf main_arg0
  let main_cst : FVec F S_ .f32 := constant S_ .f32 0x7F800000#32
  let main_v1 : FVec F S64x24x6x2048 .f32 := broadcastInDim S64x24x6x2048 ![] bcast_S_S64x24x6x2048 main_cst
  let main_v2 : IVec S64x24x6x2048 1 := cmpf .olt main_v0 main_v1
  let main_c : IVec S_ 1 := constantI S_ 1 1#1
  let main_v3 : IVec S_ 1 := (fun x v => Host.reduce IntOp.andi x v reducesTo_S64x24x6x2048_S_d0_1_2_3 h_S_) main_v2 main_c
  let main_v4 : FVec F S64x24x6x2048 .f32 := Host.absf main_arg1
  let main_cst_0 : FVec F S_ .f32 := constant S_ .f32 0x7F800000#32
  let main_v5 : FVec F S64x24x6x2048 .f32 := broadcastInDim S64x24x6x2048 ![] bcast_S_S64x24x6x2048 main_cst_0
  let main_v6 : IVec S64x24x6x2048 1 := cmpf .olt main_v4 main_v5
  let main_c_1 : IVec S_ 1 := constantI S_ 1 1#1
  let main_v7 : IVec S_ 1 := (fun x v => Host.reduce IntOp.andi x v reducesTo_S64x24x6x2048_S_d0_1_2_3 h_S_) main_v6 main_c_1
  let main_v8 : IVec S_ 1 := andi main_v3 main_v7
  let main_v9 : FVec F S64x24x3x2048 .f32 := Host.absf main_arg2
  let main_cst_2 : FVec F S_ .f32 := constant S_ .f32 0x7F800000#32
  let main_v10 : FVec F S64x24x3x2048 .f32 := broadcastInDim S64x24x3x2048 ![] bcast_S_S64x24x3x2048 main_cst_2
  let main_v11 : IVec S64x24x3x2048 1 := cmpf .olt main_v9 main_v10
  let main_c_3 : IVec S_ 1 := constantI S_ 1 1#1
  let main_v12 : IVec S_ 1 := (fun x v => Host.reduce IntOp.andi x v reducesTo_S64x24x3x2048_S_d0_1_2_3 h_S_) main_v11 main_c_3
  let main_v13 : IVec S_ 1 := andi main_v8 main_v12
  main_v13
-- ==== Kernel.lean ====
abbrev S64x24x6x2048 : Shape := ⟨4, ![64, 24, 6, 2048]⟩
abbrev S64x24x3x2048 : Shape := ⟨4, ![64, 24, 3, 2048]⟩
abbrev S4 : Shape := ⟨1, ![4]⟩
abbrev S64x144x2048 : Shape := ⟨3, ![64, 144, 2048]⟩
abbrev S64x128 : Shape := ⟨2, ![64, 128]⟩
abbrev S8x144x2048 : Shape := ⟨3, ![8, 144, 2048]⟩
abbrev S8x128 : Shape := ⟨2, ![8, 128]⟩
abbrev S1x8x144x2048 : Shape := ⟨4, ![1, 8, 144, 2048]⟩
abbrev S1 : Shape := ⟨1, ![1]⟩
abbrev S1x1x1x1 : Shape := ⟨4, ![1, 1, 1, 1]⟩
abbrev S8x144x2047 : Shape := ⟨3, ![8, 144, 2047]⟩
abbrev S1x8x144x2047 : Shape := ⟨4, ![1, 8, 144, 2047]⟩
abbrev S_ : Shape := ⟨0, ![]⟩
abbrev S32x128 : Shape := ⟨2, ![32, 128]⟩
abbrev S16x1x3x2048 : Shape := ⟨4, ![16, 1, 3, 2048]⟩
abbrev S16x3x2048 : Shape := ⟨3, ![16, 3, 2048]⟩
abbrev S16x1x2048 : Shape := ⟨3, ![16, 1, 2048]⟩
abbrev S16x2048 : Shape := ⟨2, ![16, 2048]⟩
abbrev S16x1x2047 : Shape := ⟨3, ![16, 1, 2047]⟩
abbrev S16x2047 : Shape := ⟨2, ![16, 2047]⟩
abbrev S1x16x2047 : Shape := ⟨3, ![1, 16, 2047]⟩
abbrev S1x1x1 : Shape := ⟨3, ![1, 1, 1]⟩

abbrev nBuf : Space → Nat
  | .hbm => 38
  | .vmem => 16
  | .smem => 1
  | _ => 0

abbrev bufTy : (tb : Table) → Fin (tcTables nBuf tb) → BufTy
  | .hbm, ⟨0, _⟩ => ⟨S64x24x6x2048, .f32⟩
  | .hbm, ⟨1, _⟩ => ⟨S64x24x6x2048, .f32⟩
  | .hbm, ⟨2, _⟩ => ⟨S64x24x3x2048, .f32⟩
  | .hbm, ⟨3, _⟩ => ⟨S64x144x2048, .f32⟩
  | .hbm, ⟨4, _⟩ => ⟨S64x144x2048, .f32⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8x144x2048, .f32⟩
  | .local _ .vmem, ⟨1, _⟩ => ⟨S8x144x2048, .f32⟩
  | .local _ .vmem, ⟨2, _⟩ => ⟨S8x144x2048, .f32⟩
  | .local _ .vmem, ⟨3, _⟩ => ⟨S8x144x2048, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S16x1x3x2048, .f32⟩
  | .local _ .vmem, ⟨9, _⟩ => ⟨S16x1x3x2048, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .smem, ⟨0, _⟩ => ⟨S4, .i32⟩
  | _, _ => ⟨S64x24x6x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_cst_5 : Ref sig .tc := ⟨.hbm, 21, rfl⟩
abbrev main_v10 : Ref sig .tc := ⟨.hbm, 22, rfl⟩
abbrev main_cst_6 : Ref sig .tc := ⟨.hbm, 23, rfl⟩
abbrev main_v11 : Ref sig .tc := ⟨.hbm, 24, rfl⟩
abbrev main_cst_7 : Ref sig .tc := ⟨.hbm, 25, rfl⟩
abbrev main_v12 : Ref sig .tc := ⟨.hbm, 26, rfl⟩
abbrev main_cst_8 : Ref sig .tc := ⟨.hbm, 27, rfl⟩
abbrev main_v13 : Ref sig .tc := ⟨.hbm, 28, rfl⟩
abbrev main_cst_9 : Ref sig .tc := ⟨.hbm, 29, rfl⟩
abbrev main_v14 : Ref sig .tc := ⟨.hbm, 30, rfl⟩
abbrev main_v15 : Ref sig .tc := ⟨.hbm, 31, rfl⟩
abbrev main_cst_10 : Ref sig .tc := ⟨.hbm, 32, rfl⟩
abbrev main_v16 : Ref sig .tc := ⟨.hbm, 33, rfl⟩
abbrev main_v17 : Ref sig .tc := ⟨.hbm, 34, rfl⟩
abbrev main_cst_11 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x144x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x144x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

abbrev pre1 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (i : grid1.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_16 : BitVec 32 := 0#32
  let v53 : BitVec 1 := Scalar.cmpi .ne v52 c0_i32_16
  v53

def cc1_transform_0 (k1_off1_inb : ∀ i : grid1.Coords, ∀ a, (k1_off1 i) a + S1.size a ≤ S4.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k1_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x1x3x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S64x24x6x2048_S64x144x2048 : S64x24x6x2048.ShapeCasts S64x144x2048
  inb_S8x144x2048_S8x144x2048_0_0_0 : ∀ a, (![0, 0, 0] : Fin 3 → Nat) a + S8x144x2048.size a ≤ S8x144x2048.size a
  h_S8x144x2048 : 0 < S8x144x2048.numel
  shapeCasts_S8x144x2048_S8x144x2048 : S8x144x2048.ShapeCasts S8x144x2048
  shapeCasts_S8x144x2048_S1x8x144x2048 : S8x144x2048.ShapeCasts S1x8x144x2048
  reduces_S1x8x144x2048_S1 : S1x8x144x2048.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S8x144x2048_o0_0_1_S8x144x2047 : S8x144x2048.Slices ![0, 0, 1] S8x144x2047
  slices_S8x144x2048_o0_0_0_S8x144x2047 : S8x144x2048.Slices ![0, 0, 0] S8x144x2047
  shapeCasts_S8x144x2047_S1x8x144x2047 : S8x144x2047.ShapeCasts S1x8x144x2047
  reduces_S1x8x144x2047_S1 : S1x8x144x2047.Reduces [1, 2, 3] S1
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  numel1_S1 : S1.numel = 1
  shapeCasts_S8x128_S8x128 : S8x128.ShapeCasts S8x128
  inb_S16x1x3x2048_S16x1x3x2048_0_0_0_0 : ∀ a, (![0, 0, 0, 0] : Fin 4 → Nat) a + S16x1x3x2048.size a ≤ S16x1x3x2048.size a
  h_S16x1x3x2048 : 0 < S16x1x3x2048.numel
  shapeCasts_S16x1x3x2048_S16x3x2048 : S16x1x3x2048.ShapeCasts S16x3x2048
  slices_S16x3x2048_o0_1_0_S16x1x2048 : S16x3x2048.Slices ![0, 1, 0] S16x1x2048
  shapeCasts_S16x1x2048_S16x2048 : S16x1x2048.ShapeCasts S16x2048
  slices_S16x3x2048_o0_0_1_S16x1x2047 : S16x3x2048.Slices ![0, 0, 1] S16x1x2047
  shapeCasts_S16x1x2047_S16x2047 : S16x1x2047.ShapeCasts S16x2047
  slices_S16x3x2048_o0_0_0_S16x1x2047 : S16x3x2048.Slices ![0, 0, 0] S16x1x2047
  slices_S16x3x2048_o0_2_1_S16x1x2047 : S16x3x2048.Slices ![0, 2, 1] S16x1x2047
  slices_S16x3x2048_o0_2_0_S16x1x2047 : S16x3x2048.Slices ![0, 2, 0] S16x1x2047
  slices_S16x2048_o0_1_S16x2047 : S16x2048.Slices ![0, 1] S16x2047
  slices_S16x2048_o0_0_S16x2047 : S16x2048.Slices ![0, 0] S16x2047
  shapeCasts_S16x2047_S1x16x2047 : S16x2047.ShapeCasts S1x16x2047
  reduces_S1x16x2047_S1 : S1x16x2047.Reduces [1, 2] S1
  shapeCasts_S1_S1x1x1 : S1.ShapeCasts S1x1x1
  inpos_S1x1x1_p0_0_0 : ∀ a, (![0, 0, 0] : Fin 3 → Nat) a < S1x1x1.size a
  reducesTo_S32x128_S_d0_1 : S32x128.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x144x2048.size a ≤ S64x144x2048.size a
  hwx0_0 : ∀ i : grid0.Coords, EltTy.bits .f32 = 32 ∨ (Rect.block (s := S64x144x2048) S8x144x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x144x2048.size a ≤ S64x144x2048.size a
  hwx0_1 : ∀ i : grid0.Coords, EltTy.bits .f32 = 32 ∨ (Rect.block (s := S64x144x2048) S8x144x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)
  hrank1 : 0 < grid1.rank
  k1_off1_inb : ∀ i : grid1.Coords, ∀ a, (k1_off1 i) a + S1.size a ≤ S4.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x128.size a
  hwx1_1 : ∀ i : grid1.Coords, EltTy.bits .f32 = 32 ∨ (Rect.block (s := S32x128) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S32x128.size a
  hwx1_2 : ∀ i : grid1.Coords, EltTy.bits .f32 = 32 ∨ (Rect.block (s := S32x128) S8x128.size (cc1_transform_2 i) (hinb1_2 i)).WholeWords (EltTy.packing .f32)

variable [Facts₀]

abbrev win0_0 : Pipeline.Window sig grid0 :=
  Pipeline.Window.ofSpec (Memref.whole main_v0) S8x144x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x144x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_arg2) S16x1x3x2048.size reads1_0 false false 2 stage1_0 sem1_0 nbuf1_0 hstage1_0

abbrev spec1_1 : Pipeline.WinSpec sig grid1.rank :=
  Pipeline.WinSpec.ofSpec (Memref.whole main_v9_0) S8x128.size reads1_1 true false 2 stage1_1 sem1_1 nbuf1_1 hstage1_1

abbrev spec1_2 : Pipeline.WinSpec sig grid1.rank :=
  Pipeline.WinSpec.ofSpec (Memref.whole main_v9_1) S8x128.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S16x1x3x2048.size a ≤ S64x24x3x2048.size a), EltTy.bits .f32 = 32 ∨ (Rect.block (s := S64x24x3x2048) S16x1x3x2048.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | 2 => hwx1_2 | ⟨_ + 3, h⟩ => absurd h (Nat.not_lt.2 (Nat.le_add_left _ _))
abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S64x24x6x2048 : Shape := ⟨4, ![64, 24, 6, 2048]⟩
abbrev S64x24x3x2048 : Shape := ⟨4, ![64, 24, 3, 2048]⟩
abbrev S4 : Shape := ⟨1, ![4]⟩
abbrev S2 : Shape := ⟨1, ![2]⟩
abbrev S_ : Shape := ⟨0, ![]⟩
abbrev S64x24x6x2047 : Shape := ⟨4, ![64, 24, 6, 2047]⟩
abbrev S4x1 : Shape := ⟨2, ![4, 1]⟩
abbrev S64x4x3x2048 : Shape := ⟨4, ![64, 4, 3, 2048]⟩
abbrev S64x4x1x2048 : Shape := ⟨4, ![64, 4, 1, 2048]⟩
abbrev S64x4x2048 : Shape := ⟨3, ![64, 4, 2048]⟩
abbrev S64x4x3x2047 : Shape := ⟨4, ![64, 4, 3, 2047]⟩
abbrev S2x1 : Shape := ⟨2, ![2, 1]⟩
abbrev S64x4x2x2047 : Shape := ⟨4, ![64, 4, 2, 2047]⟩
abbrev S64x4x2047 : Shape := ⟨3, ![64, 4, 2047]⟩

abbrev nBuf : Space → Nat
  | .hbm => 83
  | .vmem => 0
  | .smem => 0
  | _ => 0

abbrev bufTy : (tb : Table) → Fin (tcTables nBuf tb) → BufTy
  | .hbm, ⟨0, _⟩ => ⟨S64x24x6x2048, .f32⟩
  | .hbm, ⟨1, _⟩ => ⟨S64x24x6x2048, .f32⟩
  | .hbm, ⟨2, _⟩ => ⟨S64x24x3x2048, .f32⟩
  | .hbm, ⟨3, _⟩ => ⟨S4, .i32⟩
  | .hbm, ⟨4, _⟩ => ⟨S2, .i32⟩
  | .hbm, ⟨5, _⟩ => ⟨S64x24x6x2048, .f32⟩
  | .hbm, ⟨6, _⟩ => ⟨S64x24x6x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x24x6x2047, .f32⟩
  | .hbm, ⟨12, _⟩ => ⟨S64x24x6x2047, .f32⟩
  | .hbm, ⟨13, _⟩ => ⟨S64x24x6x2047, .f32⟩
  | .hbm, ⟨14, _⟩ => ⟨S64x24x6x2047, .f32⟩
  | .hbm, ⟨15, _⟩ => ⟨S64x24x6x2047, .f32⟩
  | .hbm, ⟨16, _⟩ => ⟨S64x24x6x2047, .f32⟩
  | .hbm, ⟨17, _⟩ => ⟨S64x24x6x2047, .f32⟩
  | .hbm, ⟨18, _⟩ => ⟨S64x24x6x2047, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S_, .i32⟩
  | .hbm, ⟨27, _⟩ => ⟨S4, .i32⟩
  | .hbm, ⟨28, _⟩ => ⟨S4, .i32⟩
  | .hbm, ⟨29, _⟩ => ⟨S4, .i32⟩
  | .hbm, ⟨30, _⟩ => ⟨S4x1, .i32⟩
  | .hbm, ⟨31, _⟩ => ⟨S64x4x3x2048, .f32⟩
  | .hbm, ⟨32, _⟩ => ⟨S64x4x1x2048, .f32⟩
  | .hbm, ⟨33, _⟩ => ⟨S64x4x2048, .f32⟩
  | .hbm, ⟨34, _⟩ => ⟨S_, .f32⟩
  | .hbm, ⟨35, _⟩ => ⟨S64x4x2048, .f32⟩
  | .hbm, ⟨36, _⟩ => ⟨S64x4x2048, .f32⟩
  | .hbm, ⟨37, _⟩ => ⟨S_, .f32⟩
  | .hbm, ⟨38, _⟩ => ⟨S64x4x2048, .f32⟩
  | .hbm, ⟨39, _⟩ => ⟨S64x4x2048, .f32⟩
  | .hbm, ⟨40, _⟩ => ⟨S64x4x2048, .f32⟩
  | .hbm, ⟨41, _⟩ => ⟨S64x4x2048, .f32⟩
  | .hbm, ⟨42, _⟩ => ⟨S_, .f32⟩
  | .hbm, ⟨43, _⟩ => ⟨S64x4x2048, .f32⟩
  | .hbm, ⟨44, _⟩ => ⟨S64x4x2048, .f32⟩
  | .hbm, ⟨45, _⟩ => ⟨S_, .f32⟩
  | .hbm, ⟨46, _⟩ => ⟨S64x4x2048, .f32⟩
  | .hbm, ⟨47, _⟩ => ⟨S64x4x2048, .f32⟩
  | .hbm, ⟨48, _⟩ => ⟨S64x4x3x2047, .f32⟩
  | .hbm, ⟨49, _⟩ => ⟨S64x4x3x2047, .f32⟩
  | .hbm, ⟨50, _⟩ => ⟨S64x4x3x2047, .f32⟩
  | .hbm, ⟨51, _⟩ => ⟨S_, .i32⟩
  | .hbm, ⟨52, _⟩ => ⟨S2, .i32⟩
  | .hbm, ⟨53, _⟩ => ⟨S2, .i1⟩
  | .hbm, ⟨54, _⟩ => ⟨S_, .i32⟩
  | .hbm, ⟨55, _⟩ => ⟨S2, .i32⟩
  | .hbm, ⟨56, _⟩ => ⟨S2, .i32⟩
  | .hbm, ⟨57, _⟩ => ⟨S2, .i32⟩
  | .hbm, ⟨58, _⟩ => ⟨S2x1, .i32⟩
  | .hbm, ⟨59, _⟩ => ⟨S64x4x2x2047, .f32⟩
  | .hbm, ⟨60, _⟩ => ⟨S64x4x2047, .f32⟩
  | .hbm, ⟨61, _⟩ => ⟨S64x4x2047, .f32⟩
  | .hbm, ⟨62, _⟩ => ⟨S64x4x2047, .f32⟩
  | .hbm, ⟨63, _⟩ => ⟨S_, .f32⟩
  | .hbm, ⟨64, _⟩ => ⟨S64x4x2047, .f32⟩
  | .hbm, ⟨65, _⟩ => ⟨S64x4x2047, .f32⟩
  | .hbm, ⟨66, _⟩ => ⟨S64x4x2x2047, .f32⟩
  | .hbm, ⟨67, _⟩ => ⟨S_, .f32⟩
  | .hbm, ⟨68, _⟩ => ⟨S64x4x2047, .f32⟩
  | .hbm, ⟨69, _⟩ => ⟨S64x4x2047, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S64x24x6x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_c_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_cst_17 : Ref sig .tc := ⟨.hbm, 77, rfl⟩
abbrev main_v55 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  reducesTo_S64x24x6x2048_S_d0_1_2_3 : S64x24x6x2048.ReducesTo [0, 1, 2, 3] S_
  h_S_ : 0 < S_.numel
  slices_S64x24x6x2048_S64x24x6x2047_0_0_0_1 : S64x24x6x2048.Slices ![0, 0, 0, 1] S64x24x6x2047
  slices_S64x24x6x2048_S64x24x6x2047_0_0_0_0 : S64x24x6x2048.Slices ![0, 0, 0, 0] S64x24x6x2047
  reducesTo_S64x24x6x2047_S_d0_1_2_3 : S64x24x6x2047.ReducesTo [0, 1, 2, 3] S_
  bcast_S_S4 : S_.BroadcastsInDim S4 (![] : Fin 0 → Fin S4.rank)
  bcast_S4_S4x1_0 : S4.BroadcastsInDim S4x1 (![0] : Fin 1 → Fin S4x1.rank)
  slices_S64x4x3x2048_S64x4x1x2048_0_0_1_0 : S64x4x3x2048.Slices ![0, 0, 1, 0] S64x4x1x2048
  shapeCasts_S64x4x1x2048_S64x4x2048 : S64x4x1x2048.ShapeCasts S64x4x2048
  bcast_S_S64x4x2048 : S_.BroadcastsInDim S64x4x2048 (![] : Fin 0 → Fin S64x4x2048.rank)
  slices_S64x4x3x2048_S64x4x3x2047_0_0_0_1 : S64x4x3x2048.Slices ![0, 0, 0, 1] S64x4x3x2047
  slices_S64x4x3x2048_S64x4x3x2047_0_0_0_0 : S64x4x3x2048.Slices ![0, 0, 0, 0] S64x4x3x2047
  bcast_S_S2 : S_.BroadcastsInDim S2 (![] : Fin 0 → Fin S2.rank)
  bcast_S2_S2x1_0 : S2.BroadcastsInDim S2x1 (![0] : Fin 1 → Fin S2x1.rank)
  slices_S64x4x2048_S64x4x2047_0_0_1 : S64x4x2048.Slices ![0, 0, 1] S64x4x2047
  slices_S64x4x2048_S64x4x2047_0_0_0 : S64x4x2048.Slices ![0, 0, 0] S64x4x2047
  bcast_S_S64x4x2047 : S_.BroadcastsInDim S64x4x2047 (![] : Fin 0 → Fin S64x4x2047.rank)
  reducesTo_S64x4x2x2047_S64x4x2047_d2 : S64x4x2x2047.ReducesTo [2] S64x4x2047
  reducesTo_S64x4x2047_S_d0_1_2 : S64x4x2047.ReducesTo [0, 1, 2] S_
  gather_S64x24x3x2048_S4x1_S64x4x3x2048_023_1_n_n_1_1_64132048_wf : GatherDims.WF S64x24x3x2048 S4x1 S64x4x3x2048 [0, 2, 3] [1] [] [1] [] 1 ![64, 1, 3, 2048]
  gather_S64x4x3x2047_S2x1_S64x4x2x2047_013_2_n_n_2_1_64412047_wf : GatherDims.WF S64x4x3x2047 S2x1 S64x4x2x2047 [0, 1, 3] [2] [] [2] [] 1 ![64, 4, 1, 2047]

variable [Facts₀]

def gather_S64x24x3x2048_S4x1_S64x4x3x2048_023_1_n_n_1_1_64132048 : GatherDims S64x24x3x2048 S4x1 S64x4x3x2048 where
  offsetDims := [0, 2, 3]
  collapsedSliceDims := [1]
  operandBatchingDims := []
  startIndicesBatchingDims := []
  startIndexMap := [1]
  indexVectorDim := 1
  sliceSizes := ![64, 1, 3, 2048]
  wf := gather_S64x24x3x2048_S4x1_S64x4x3x2048_023_1_n_n_1_1_64132048_wf
def gather_S64x4x3x2047_S2x1_S64x4x2x2047_013_2_n_n_2_1_64412047 : GatherDims S64x4x3x2047 S2x1 S64x4x2x2047 where
  offsetDims := [0, 1, 3]
  collapsedSliceDims := [2]
  operandBatchingDims := []
  startIndicesBatchingDims := []
  startIndexMap := [2]
  indexVectorDim := 1
  sliceSizes := ![64, 4, 1, 2047]
  wf := gather_S64x4x3x2047_S2x1_S64x4x2x2047_013_2_n_n_2_1_64412047_wf

class Facts : Prop extends Facts₀ where

variable [Facts]
-- ==== Proof.KRegion0.lean ====
import proofs.«177773_j59631325938492_2_alg».proof.Proof.Gen.Kernel.Launch
import proofs.«177773_j59631325938492_2_alg».proof.Proof.Gen.Kernel.Skeleton
import proofs.«177773_j59631325938492_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first pallas_call (`cc0__recon_vel_kernel`) as a pipeline body, at any float model

At each of the 8 grid points the body reads the two input blocks whole, and overwrites each of the two
output blocks whole: the first with the sum over the block of the squared difference of the inputs, the
second with the sum over the block of the squared forward difference (along the last axis) of that
difference, each broadcast over the `[8,128]` block. The proof data below records, per point, the input
blocks as the arrays hold them and the output blocks as these functions of the input blocks; the body
obligation is the Hoare triple of the body against that data. Everything is stated at a parameter `V`:
the TensorCore's buffer contents when the region is entered. -/

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place: the window is fetched whole at every point
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole `[8,144,2048]` input block, as the body's loads spell it. -/
abbrev r_in : Rect S8x144x2048 := Rect.unit (s := S8x144x2048) ![0, 0, 0] S8x144x2048.size inb_S8x144x2048_S8x144x2048_0_0_0
/-- The whole `[8,128]` output block, as the body's stores spell it. -/
abbrev r_out : Rect S8x128 := Rect.unit (s := S8x128) ![0, 0] S8x128.size inb_S8x128_S8x128_0_0

/-! ## What the body leaves in each output window's buffer -/

/-- Window 2's staging buffer after the body, from the input windows' blocks: its one store as a piece. -/
def out0_2 (x0 x1 : Vec F S8x144x2048 .f32) : Vec F S8x128 .f32 :=
  View.canon [⟨r_out, k0_pay2 (View.ld x0 r_in) (View.ld x1 r_in)⟩]

/-- Window 3's staging buffer after the body, from the input windows' blocks: its one store as a piece. -/
def out0_3 (x0 x1 : Vec F S8x144x2048 .f32) : Vec F S8x128 .f32 :=
  View.canon [⟨r_out, k0_pay3 (View.ld x0 r_in) (View.ld x1 r_in)⟩]

/-- The one store covers the output buffer. -/
theorem cover0_out (p0 : Vec F S8x128 .f32) (y : S8x128.Idx) :
    ∃ pc ∈ ([⟨r_out, p0⟩] : List (View.Piece (Elt F) S8x128 .f32)), y ∈ pc.1.set :=
  View.cover_of_tiled [⟨r_out, p0⟩] S8x128.size (by rfl) y

/-! ## The body's triple -/

set_option maxHeartbeats 1000000 in
/-- The kernel body on whole staging memrefs, the inputs' at read contents `x0`, `x1` and the outputs' at anything,
    runs to the continuation holding the inputs' as they were and each output's at `out0_W` of the inputs'. -/
theorem sound_kernel0 (c : Dev nD) (E : Set ℕ) (i : grid0.Coords)
    (arg1 : Memref sig .tc .vmem S8x144x2048 .f32) (harg1 : arg1.IsWhole)
    (arg2 : Memref sig .tc .vmem S8x144x2048 .f32) (harg2 : arg2.IsWhole)
    (arg3 : Memref sig .tc .vmem S8x128 .f32) (harg3 : arg3.IsWhole)
    (arg4 : Memref sig .tc .vmem S8x128 .f32) (harg4 : arg4.IsWhole)
    (x0 x1 : Vec F S8x144x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__recon_vel_kernel i arg1 harg1 arg2 harg2 arg3 harg3 arg4 harg4) K := by
  simp only [cc0__recon_vel_kernel_eq_skeleton]; unfold cc0__recon_vel_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  iexists _; isplitr
  swap; · iexact H3
  ipureintro
  exact View.read_writes_eq_canon _ _ _ (cover0_out _)

/-! ## The pipeline's proof data -/

/-- The proof data of the pipeline on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.KRuns1.lean ====
/-
  The second kernel region (the foot-contact kernel), first half: the kernel body run once per control case.

  The body is called on a 4 x 4 grid (row block i, joint f). It keeps two running totals in two scratch tiles of
  shape [8,128]: at f = 0 it clears both, at every f it adds the block's loss sum to the first and the block's
  contact-weight sum to the second (each sum broadcast over the tile), and at f = 3 it copies the two totals into
  the two output tiles. So a point falls in one of three cases, by the two conditions "f = 0" and "f = 3":
  first (clear, add), middle (add), last (add, copy out). Each case is run once, on arbitrary whole staging
  buffers; what each run leaves in the scratch tiles and the output tiles is recorded as the list of its stores.
-/
import proofs.«177773_j59631325938492_2_alg».proof.Proof.Gen.Kernel.Launch
import proofs.«177773_j59631325938492_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, as functions of the grid point -/

/-- "f = 0": the condition under which the body clears the two running totals. -/
abbrev cond1_0 (i : grid1.Coords) : Prop := (Scalar.cmpi .ne (Scalar.extui (Scalar.cmpi .eq (BitVec.ofNat 32 (i 1).val) 0#32)) 0#32) = 1#1
/-- It holds at the points whose number is 0 modulo 4. -/
theorem hcond1_0 : ∀ t : Fin grid1.N, cond1_0 (grid1.coords t) ↔ t.val % 4 = 0 :=
  (by decide +kernel : ∀ t : Fin grid1.N, cond1_0 (grid1.coords t) ↔ t.val % 4 = 0)

/-- "f = 3": the condition under which the body copies the totals out. -/
abbrev cond1_1 (i : grid1.Coords) : Prop := k1_cond2 i = 1#1
/-- It holds at the points whose number is 3 modulo 4. -/
theorem hcond1_1 : ∀ t : Fin grid1.N, cond1_1 (grid1.coords t) ↔ t.val % 4 = 3 :=
  (by decide +kernel : ∀ t : Fin grid1.N, cond1_1 (grid1.coords t) ↔ t.val % 4 = 3)

/-! ## The body, case by case -/

set_option maxHeartbeats 4000000 in
/-- First case (f = 0): both totals are cleared, then the block's two sums are added. The input block is held at
    `x0` and handed back; the two output tiles are not touched; the two scratch tiles, held at anything, end
    with the recorded stores written. -/
noncomputable def kernelRun1_A (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i)
    (x0 : Vec F S16x1x3x2048 .f32) :
    Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__foot_kernel i arg2 harg2 arg3 harg3 arg4 harg4 arg5 harg5 arg6 harg6 arg7 harg7) K } := by
  refine ⟨?_, ?_, fun xi1 xi2 E K => ?run⟩
  case run =>
    simp only [cc1__foot_kernel_eq_skeleton]; unfold cc1__foot_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

set_option maxHeartbeats 4000000 in
/-- Middle case (0 < f < 3): the block's two sums are added to the totals the point before left (`xs0`, `xs1`);
    the output tiles are not touched. -/
noncomputable def kernelRun1_B (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i)
    (x0 : Vec F S16x1x3x2048 .f32) (xs0 xs1 : Vec F S8x128 .f32) :
    Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2
            ∗ owns (c : Thread nD τ) arg6 fullShare xs0 ∗ owns (c : Thread nD τ) arg7 fullShare xs1
            ∗ (iprop(owns (c : Thread nD τ) arg3 fullShare x0 ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__foot_kernel i arg2 harg2 arg3 harg3 arg4 harg4 arg5 harg5 arg6 harg6 arg7 harg7) K } := by
  refine ⟨?_, ?_, fun xi1 xi2 E K => ?run⟩
  case run =>
    simp only [cc1__foot_kernel_eq_skeleton]; unfold cc1__foot_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

set_option maxHeartbeats 4000000 in
/-- Last case (f = 3): the block's two sums are added to the totals the point before left, and the two totals are
    copied into the two output tiles, held at anything before. -/
noncomputable def kernelRun1_C (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i)
    (x0 : Vec F S16x1x3x2048 .f32) (xs0 xs1 : Vec F S8x128 .f32) :
    Σ' (L1 : List (View.Piece (Elt F) S8x128 .f32)) (L2 : List (View.Piece (Elt F) S8x128 .f32)) (LS0 : List (View.Piece (Elt F) S8x128 .f32)),
      { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg3 fullShare x0
                ∗ (∃ f, arg4.view.loc (c : Thread nD τ) ↦[arg4.view.set]{fullShare} arg4.view.writes (Elt F) f L1)
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__foot_kernel i arg2 harg2 arg3 harg3 arg4 harg4 arg5 harg5 arg6 harg6 arg7 harg7) K } := by
  refine ⟨?_, ?_, ?_, ?_, fun E K => ?run⟩
  case run =>
    simp only [cc1__foot_kernel_eq_skeleton]; unfold cc1__foot_kernel_skel
    simp only [k1_part1_eq_skeleton]; unfold k1_part1_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; iexact H1
    isplitl [H2]
    · iexists _; iexact H2
    isplitl [HS0]
    · iexists _; iexact HS0
    iexists _; iexact HS1

end Cert.Kernel.Hand1

end
-- ==== Proof.KRegion1.lean ====
/-
  The second kernel region (the foot-contact kernel), second half: the running totals point by point, the invariant
  that carries them between points, and the body's obligation at every point of the 4 x 4 grid.

  Points are numbered t = 4 i + f. The two scratch tiles hold, after point t, the sums over joints 0..f of row block
  i's loss and contact weight (each broadcast over the tile): cleared and restarted at f = 0, continued for
  f = 1, 2, 3. The two output tiles are written only at f = 3, where they receive the two totals; at the other
  points they are handed back as found and are not written back to their arrays.
-/
import proofs.«177773_j59631325938492_2_alg».proof.Proof.KRuns1

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the joint table's contents at which the region runs, admissible for the pipeline
variable (a : (pcfg1 (F := F)).Adm)
-- the TensorCore's buffer contents when the region is entered
variable (V : (c : Dev nD) → (b : Ref sig .tc) → Buf (Elt F) ((c : Thread nD τ).loc b))

/-- The grid has sixteen points whatever the table holds. -/
theorem N_1a : (cfg1 a).N = 16 := N_1

/-! ## The windows' blocks and the staging memrefs -/

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin (cfg1 a).N) : Memref sig .tc .vmem S16x1x3x2048 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S8x128 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S8x128 .f32 := spec1_2.stage ((cfg1 a).slots t 2)
abbrev hs1_2 (t : Fin (cfg1 a).N) : (ms1_2 a t).IsWhole := hstage1_2 (((cfg1 a).slots t 2).cast nbuf1_2)
/-- The two scratch tiles: whole scoped buffers of the kernel's own. -/
abbrev scM1_0 : Memref sig .tc .vmem S8x128 .f32 := Memref.whole cc1_scratch0
abbrev scM1_1 : Memref sig .tc .vmem S8x128 .f32 := Memref.whole cc1_scratch1
/-- A tile's view through which a list of stores is read back (which tile does not matter for stores that cover it). -/
abbrev VT : View sig .tc .vmem S8x128 .f32 := scM1_0.view
/-- A list of stores into a tile, read back as the tile's contents. -/
def rb (L : List (View.Piece (Elt F) S8x128 .f32)) : Vec F S8x128 .f32 := VT.read (Elt F) (VT.writes (Elt F) VT.junk L)

/-- The body at point `t`, on what the pipeline calls it with. -/
abbrev bodyAt1 (t : Fin (cfg1 a).N) : Prog (TpuEff nD τ sig (Elt F) Λ₀ .tc) PUnit :=
  cc1__foot_kernel (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _)

/-! ## Where the output windows are idle and where they are written back -/

theorem liveAt1_0 : ∀ t : Fin (cfg1 a).N, (cfg1 a).idle 0 ((cfg1 a).grid.coords t) = false := fun _ => rfl
theorem idleAt1_1 (t : Fin (cfg1 a).N) (h : ¬cond1_1 (grid1.coords t)) : (cfg1 a).idle 1 ((cfg1 a).grid.coords t) = true := by
  show (!(k1_cond2 (grid1.coords t) == 1#1)) = true
  simp only [Bool.not_eq_true', beq_eq_false_iff_ne, ne_eq]; exact h
theorem idleAt1_2 (t : Fin (cfg1 a).N) (h : ¬cond1_1 (grid1.coords t)) : (cfg1 a).idle 2 ((cfg1 a).grid.coords t) = true := by
  show (!(k1_cond2 (grid1.coords t) == 1#1)) = true
  simp only [Bool.not_eq_true', beq_eq_false_iff_ne, ne_eq]; exact h
theorem liveAt1_1 (t : Fin (cfg1 a).N) (h : cond1_1 (grid1.coords t)) : (cfg1 a).idle 1 ((cfg1 a).grid.coords t) = false := by
  show (!(k1_cond2 (grid1.coords t) == 1#1)) = false
  simp only [Bool.not_eq_false', beq_iff_eq]; exact h
theorem liveAt1_2 (t : Fin (cfg1 a).N) (h : cond1_1 (grid1.coords t)) : (cfg1 a).idle 2 ((cfg1 a).grid.coords t) = false := by
  show (!(k1_cond2 (grid1.coords t) == 1#1)) = false
  simp only [Bool.not_eq_false', beq_iff_eq]; exact h
/-- An output tile's block index is the row block i alone: between two points of one row block it does not move, and
    no such point is the grid's last (decided over the sixteen points). -/
theorem idx1_1_step : ∀ t : Fin grid1.N, ¬t.val % 4 = 3 → (t.val + 1 ≠ grid1.N ∧ ∀ h : t.val + 1 < grid1.N, cc1_transform_1 (grid1.coords ⟨t.val + 1, h⟩) = cc1_transform_1 (grid1.coords t)) := by
  decide +kernel
theorem idx1_2_step : ∀ t : Fin grid1.N, ¬t.val % 4 = 3 → (t.val + 1 ≠ grid1.N ∧ ∀ h : t.val + 1 < grid1.N, cc1_transform_2 (grid1.coords ⟨t.val + 1, h⟩) = cc1_transform_2 (grid1.coords t)) := by
  decide +kernel
/-- So the tile is not written back there: only at f = 3. -/
theorem noFlush1_1 (t : Fin (cfg1 a).N) (h : ¬t.val % 4 = 3) : ((cfg1 a).win 1).flush t = false := by
  have hst := idx1_1_step ⟨t.val, t.isLt⟩ h
  rw [Bool.eq_false_iff]; intro hf
  unfold Pipeline.Window.flush at hf
  simp only [Bool.and_eq_true, Bool.or_eq_true, decide_eq_true_eq] at hf
  obtain ⟨-, hN | ⟨hlt, hne⟩⟩ := hf
  · exact hst.1 hN
  · exact hne (hst.2 hlt)
theorem noFlush1_2 (t : Fin (cfg1 a).N) (h : ¬t.val % 4 = 3) : ((cfg1 a).win 2).flush t = false := by
  have hst := idx1_2_step ⟨t.val, t.isLt⟩ h
  rw [Bool.eq_false_iff]; intro hf
  unfold Pipeline.Window.flush at hf
  simp only [Bool.and_eq_true, Bool.or_eq_true, decide_eq_true_eq] at hf
  obtain ⟨-, hN | ⟨hlt, hne⟩⟩ := hf
  · exact hst.1 hN
  · exact hne (hst.2 hlt)

/-! ## What each case leaves -/

theorem scover1_A_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i) (x0 : Vec F S16x1x3x2048 .f32) (y : S8x128.Idx) :
    ∃ pc ∈ (kernelRun1_A c i arg2 harg2 arg3 harg3 arg4 harg4 arg5 harg5 arg6 harg6 arg7 harg7 hc0 hc1 x0).1, y ∈ pc.1.set :=
  View.cover_of_tiledL _ S8x128.size (by sl_kernel_rfl) y
theorem scover1_A_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i) (x0 : Vec F S16x1x3x2048 .f32) (y : S8x128.Idx) :
    ∃ pc ∈ (kernelRun1_A c i arg2 harg2 arg3 harg3 arg4 harg4 arg5 harg5 arg6 harg6 arg7 harg7 hc0 hc1 x0).2.1, y ∈ pc.1.set :=
  View.cover_of_tiledL _ S8x128.size (by sl_kernel_rfl) y
theorem scover1_B_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i) (x0 : Vec F S16x1x3x2048 .f32) (xs0 xs1 : Vec F S8x128 .f32) (y : S8x128.Idx) :
    ∃ pc ∈ (kernelRun1_B c i arg2 harg2 arg3 harg3 arg4 harg4 arg5 harg5 arg6 harg6 arg7 harg7 hc0 hc1 x0 xs0 xs1).1, y ∈ pc.1.set :=
  View.cover_of_tiledL _ S8x128.size (by sl_kernel_rfl) y
theorem scover1_B_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i) (x0 : Vec F S16x1x3x2048 .f32) (xs0 xs1 : Vec F S8x128 .f32) (y : S8x128.Idx) :
    ∃ pc ∈ (kernelRun1_B c i arg2 harg2 arg3 harg3 arg4 harg4 arg5 harg5 arg6 harg6 arg7 harg7 hc0 hc1 x0 xs0 xs1).2.1, y ∈ pc.1.set :=
  View.cover_of_tiledL _ S8x128.size (by sl_kernel_rfl) y
theorem cover1_C_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).1, y ∈ pc.1.set :=
  View.cover_of_tiledL _ S8x128.size (by sl_kernel_rfl) y
theorem cover1_C_2 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).2.1, y ∈ pc.1.set :=
  View.cover_of_tiledL _ S8x128.size (by sl_kernel_rfl) y
theorem scover1_C_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).2.2.1, y ∈ pc.1.set :=
  View.cover_of_tiledL _ S8x128.size (by sl_kernel_rfl) y
theorem scover1_C_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).2.2.2.1, y ∈ pc.1.set :=
  View.cover_of_tiledL _ S8x128.size (by sl_kernel_rfl) y

/-- The contents of (output tile 1, output tile 2, scratch tile 1, scratch tile 2) after a point. -/
abbrev Tiles (F : FTy → Type) [FloatOps F] : Type := Vec F S8x128 .f32 × Vec F S8x128 .f32 × Vec F S8x128 .f32 × Vec F S8x128 .f32

/-- First case at point `t`: the outputs untouched (a placeholder nothing reads), the scratch tiles at the case's stores. -/
def tilesA (c : Dev nD) (t : Fin (cfg1 a).N) (h0 : cond1_0 (grid1.coords t)) (h1 : ¬cond1_1 (grid1.coords t)) : Tiles F :=
  (rb [], rb [],
   rb (kernelRun1_A c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t)).1,
   rb (kernelRun1_A c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t)).2.1)
/-- Middle case at point `t`, over the scratch tiles' contents `p` the point before left. -/
def tilesB (c : Dev nD) (t : Fin (cfg1 a).N) (h0 : ¬cond1_0 (grid1.coords t)) (h1 : ¬cond1_1 (grid1.coords t)) (p : Tiles F) : Tiles F :=
  (rb [], rb [],
   rb (kernelRun1_B c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).1,
   rb (kernelRun1_B c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.1)
/-- Last case at point `t`, over the scratch tiles' contents `p` the point before left. -/
def tilesC (c : Dev nD) (t : Fin (cfg1 a).N) (h0 : ¬cond1_0 (grid1.coords t)) (h1 : cond1_1 (grid1.coords t)) (p : Tiles F) : Tiles F :=
  (rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).1,
   rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.1,
   rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.2.1,
   rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.2.2.1)

/-! ## The accumulation, point by point -/

/-- What the four tiles hold after the body at position `n`: the case the conditions select there, the middle and
    last cases over what the position before left. -/
def outsAt1 (c : Dev nD) : (n : ℕ) → n < (cfg1 a).N → Tiles F
  | 0, hn => tilesA a V c ⟨0, hn⟩ ((hcond1_0 ⟨0, hn⟩).mpr (Nat.zero_mod _)) (fun h => by have := (hcond1_1 ⟨0, hn⟩).mp h; dsimp only at this; omega)
  | n + 1, hn =>
    if h0 : (n + 1) % 4 = 0 then
      tilesA a V c ⟨n + 1, hn⟩ ((hcond1_0 ⟨n + 1, hn⟩).mpr h0) (fun h => by have := (hcond1_1 ⟨n + 1, hn⟩).mp h; dsimp only at this; omega)
    else
      if h1 : (n + 1) % 4 = 3 then
        tilesC a V c ⟨n + 1, hn⟩ (fun h => h0 ((hcond1_0 ⟨n + 1, hn⟩).mp h)) ((hcond1_1 ⟨n + 1, hn⟩).mpr h1) (outsAt1 c n (Nat.lt_of_succ_lt hn))
      else
        tilesB a V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin (cfg1 a).N) (h0 : t.val % 4 = 0) :
    outsAt1 a V c t.val t.isLt = tilesA a V c t ((hcond1_0 t).mpr h0) (fun h => by have := (hcond1_1 t).mp h; omega) := by
  obtain ⟨n, hn⟩ := t
  cases n with
  | zero => rfl
  | succ n => exact (dif_pos h0).trans rfl
theorem outsAt1_B (c : Dev nD) (t : Fin (cfg1 a).N) (h0 : ¬t.val % 4 = 0) (h1 : ¬t.val % 4 = 3) :
    outsAt1 a V c t.val t.isLt = tilesB a V c t (fun h => h0 ((hcond1_0 t).mp h)) (fun h => h1 ((hcond1_1 t).mp h))
      (outsAt1 a V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem outsAt1_C (c : Dev nD) (t : Fin (cfg1 a).N) (h0 : ¬t.val % 4 = 0) (h1 : t.val % 4 = 3) :
    outsAt1 a V c t.val t.isLt = tilesC a V c t (fun h => h0 ((hcond1_0 t).mp h)) ((hcond1_1 t).mpr h1)
      (outsAt1 a V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant carrying the two scratch tiles -/

/-- The core's scoped buffers that are neither a staging buffer of this region nor one of its two scratch tiles: the
    other region's eight staging buffers, each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- Before position `n`: at the start, the scoped rest at anything and the generator register; afterwards the same
    with the two scratch tiles at what the position before left. -/
def PhiS (c : Dev nD) : (n : ℕ) → n ≤ (cfg1 a).N → sProp 𝕄
  | 0, _ => Pipeline.ΦA spec1 c
  | n + 1, hn => iprop(otherScoped c ∗ owns (c : Thread nD τ) scM1_0 fullShare (outsAt1 a V c n hn).2.2.1
      ∗ owns (c : Thread nD τ) scM1_1 fullShare (outsAt1 a V c n hn).2.2.2 ∗ (∃ r, prngReg c r))

theorem PhiS_zero (c : Dev nD) (n : ℕ) (h : n ≤ (cfg1 a).N) (hz : n = 0) : PhiS a V c n h = Pipeline.ΦA spec1 c := by
  subst hz; rfl
theorem PhiS_succ (c : Dev nD) (n : ℕ) (hn : n < (cfg1 a).N) :
    PhiS a V c (n + 1) hn = iprop(otherScoped c ∗ owns (c : Thread nD τ) scM1_0 fullShare (outsAt1 a V c n hn).2.2.1
      ∗ owns (c : Thread nD τ) scM1_1 fullShare (outsAt1 a V c n hn).2.2.2 ∗ (∃ r, prngReg c r)) := rfl
theorem PhiS_pos (c : Dev nD) (n : ℕ) (h : n ≤ (cfg1 a).N) (hz : n ≠ 0) :
    PhiS a V c n h = iprop(otherScoped c ∗ owns (c : Thread nD τ) scM1_0 fullShare (outsAt1 a V c (n - 1) (by omega)).2.2.1
      ∗ owns (c : Thread nD τ) scM1_1 fullShare (outsAt1 a V c (n - 1) (by omega)).2.2.2 ∗ (∃ r, prngReg c r)) := by
  cases n with
  | zero => exact absurd rfl hz
  | succ n => rfl

/-- The start-of-region invariant with the two scratch tiles named: the other region's staging buffers, the two
    tiles at anything, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The proof data -/

/-- The region's proof data on core `c`: the arrays as the region finds them; after the body at point `t` the input's
    buffer at its block and the output tiles at the accumulation's; the invariant carrying the scratch tiles;
    nothing owed; full shares. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => (outsAt1 a V c t.val t.isLt).1
    | ⟨2, _⟩ => (outsAt1 a V c t.val t.isLt).2.1
  Φ t := iprop(PhiS a V c t.val (Nat.le_of_lt_succ t.isLt) ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 a V c).A w = V c (Pipeline.arrRef spec1 w) := by
  dsimp only [dat1]
theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = (outsAt1 a V c t.val t.isLt).1 := by dsimp only [dat1]; rfl
theorem after1_2 (c : Dev nD) (t : Fin (cfg1 a).N) : (dat1 a V c).after 2 t = (outsAt1 a V c t.val t.isLt).2.1 := by dsimp only [dat1]; rfl
theorem before1_0 (c : Dev nD) (t : Fin (cfg1 a).N) (d) : (dat1 a V c).before 0 t d = iblk1 a V c 0 t :=
  before1_0_of a V (dat1 a V c) (A_eq1 a V c 0) (after1_0 a V c) t d

/-! ## The body obligation, at a generic point -/

/-- What the body is called with at point `t`, the windows one by one, -/
def bodyPre1 (c : Dev nD) (t : Fin (cfg1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d)))

/-- and what it returns. -/
def bodyPost1 (c : Dev nD) (t : Fin (cfg1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t)

theorem Phi_castSucc (c : Dev nD) (t : Fin (cfg1 a).N) :
    (dat1 a V c).Φ t.castSucc = iprop(PhiS a V c t.val (Nat.le_of_lt t.isLt) ∗ Pipeline.prefHeld (Ix := Unit) (Name := ℕ) (U := UR sig nD τ) (Lvl := ℕ) pre1 c (fun _ => fullShare) a.1) := by
  dsimp only [dat1]; simp only [Fin.coe_castSucc]
theorem Phi_succ (c : Dev nD) (t : Fin (cfg1 a).N) :
    (dat1 a V c).Φ t.succ = iprop(PhiS a V c (t.val + 1) t.isLt ∗ Pipeline.prefHeld (Ix := Unit) (Name := ℕ) (U := UR sig nD τ) (Lvl := ℕ) pre1 c (fun _ => fullShare) a.1) := rfl

set_option maxHeartbeats 4800000 in
/-- The body at any point. The input's memref holds its block; the point's number modulo 4 says which case it is in;
    the invariant hands the body the two scratch tiles at what the point before left (at anything at the first point)
    and takes them back at this point's contents, the stores of each case covering the tile; an output tile is handed
    back as found except at f = 3, where it receives the case's stores; the table and the rest pass through unread. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).owesAt () t.succ = (dat1 a V c).owesAt () t.castSucc from rfl]
  rw [Phi_succ, PhiS_succ, Phi_castSucc]
  have hN : t.val < 16 := lt_of_lt_of_eq t.isLt (N_1a a)
  rw [show (dat1 a V c).leavesExact 0 t = owns (c : Thread nD τ) (ms1_0 a t) fullShare ((dat1 a V c).after 0 t) from by
    unfold Dat.leavesExact; rw [liveAt1_0 a t]; rfl]
  rw [after1_0]
  by_cases h0 : t.val % 4 = 0
  · have hc1 : ¬cond1_1 (grid1.coords t) := fun h => by have := (hcond1_1 t).mp h; omega
    rw [Dat.leavesExact_idle (dat1 a V c) 1 t (idleAt1_1 a t hc1) (noFlush1_1 a t (by omega)),
      Dat.leavesExact_idle (dat1 a V c) 2 t (idleAt1_2 a t hc1) (noFlush1_2 a t (by omega))]
    rw [outsAt1_A a V c t h0]
    unfold tilesA; dsimp only
    by_cases hz : t.val = 0
    · rw [PhiS_zero a V c _ _ hz, PhiA1_eq]
      iintro ⟨⟨⟨⟨A1, A2, A3, A4, A5, A6, A7, A8, HS0, HS1⟩, Hg⟩, HT⟩, Ho, ⟨%d0, H0⟩, ⟨%d1, H1⟩, ⟨%d2, H2⟩⟩
      iapply ((kernelRun1_A c (grid1.coords t) _ _ _ _ _ _ _ _ _ _ _ _ ((hcond1_0 t).mpr h0) hc1 (iblk1 a V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [A1 A2 A3 A4 A5 A6 A7 A8 HS0 HS1 Hg HT]
      · isplitr [HT]
        swap; · iexact HT
        isplitl [A1 A2 A3 A4 A5 A6 A7 A8]
        · unfold otherScoped
          isplitl [A1]; · iexact A1
          isplitl [A2]; · iexact A2
          isplitl [A3]; · iexact A3
          isplitl [A4]; · iexact A4
          isplitl [A5]; · iexact A5
          isplitl [A6]; · iexact A6
          isplitl [A7]; · iexact A7
          iexact A8
        isplitl [HS0]
        · unfold owns; iexists _; isplitr
          swap; · iexact HS0
          ipureintro; exact View.read_writes_of_cover _ _ _ _ _ (scover1_A_0 c _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _)
        iexact Hg
      isplitl [Ho]; · iexact Ho
      isplitl [H0]; · iexact H0
      isplitl [H1]; · iexists _; iexact H1
      iexists _; iexact H2
    · rw [PhiS_pos a V c _ _ hz]
      iintro ⟨⟨⟨HR, HS0, HS1, Hg⟩, HT⟩, Ho, ⟨%d0, H0⟩, ⟨%d1, H1⟩, ⟨%d2, H2⟩⟩
      iapply ((kernelRun1_A c (grid1.coords t) _ _ _ _ _ _ _ _ _ _ _ _ ((hcond1_0 t).mpr h0) hc1 (iblk1 a V c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HR HS0 HS1 Hg HT]
      · isplitr [HT]
        swap; · iexact HT
        isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _)
        iexact Hg
      isplitl [Ho]; · iexact Ho
      isplitl [H0]; · iexact H0
      isplitl [H1]; · iexists _; iexact H1
      iexists _; iexact H2
  · have hc0 : ¬cond1_0 (grid1.coords t) := fun h => h0 ((hcond1_0 t).mp h)
    have hz : t.val ≠ 0 := fun h => h0 (by rw [h])
    rw [PhiS_pos a V c _ _ hz]
    by_cases h1 : t.val % 4 = 3
    · have hc1 : cond1_1 (grid1.coords t) := (hcond1_1 t).mpr h1
      rw [show (dat1 a V c).leavesExact 1 t = owns (c : Thread nD τ) (ms1_1 a t) fullShare ((dat1 a V c).after 1 t) from by
      unfold Dat.leavesExact; rw [liveAt1_1 a t hc1]; rfl]
      rw [show (dat1 a V c).leavesExact 2 t = owns (c : Thread nD τ) (ms1_2 a t) fullShare ((dat1 a V c).after 2 t) from by
      unfold Dat.leavesExact; rw [liveAt1_2 a t hc1]; rfl]
      rw [after1_1, after1_2, outsAt1_C a V c t h0 h1]
      unfold tilesC; dsimp only
      iintro ⟨⟨⟨HR, HS0, HS1, Hg⟩, HT⟩, Ho, ⟨%d0, H0⟩, ⟨%d1, H1⟩, ⟨%d2, H2⟩⟩
      iapply ((kernelRun1_C c (grid1.coords t) _ _ _ _ _ _ _ _ _ _ _ _ hc0 hc1 (iblk1 a V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HR HS0 HS1 Hg HT]
      · isplitr [HT]
        swap; · iexact HT
        isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _ _ _)
    · have hc1 : ¬cond1_1 (grid1.coords t) := fun h => h1 ((hcond1_1 t).mp h)
      rw [Dat.leavesExact_idle (dat1 a V c) 1 t (idleAt1_1 a t hc1) (noFlush1_1 a t h1),
        Dat.leavesExact_idle (dat1 a V c) 2 t (idleAt1_2 a t hc1) (noFlush1_2 a t h1)]
      rw [outsAt1_B a V c t h0 h1]
      unfold tilesB; dsimp only
      iintro ⟨⟨⟨HR, HS0, HS1, Hg⟩, HT⟩, Ho, ⟨%d0, H0⟩, ⟨%d1, H1⟩, ⟨%d2, H2⟩⟩
      iapply ((kernelRun1_B c (grid1.coords t) _ _ _ _ _ _ _ _ _ _ _ _ hc0 hc1 (iblk1 a V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg HT]
      · isplitr [HT]
        swap; · iexact HT
        isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) a V c) (defs₀ (F := F)) Variants.none () Set.univ := fun t => by
  rw [bigSep_W1, bigSep_W1]
  exact sound_body1 a V c t

/-! ## The invariant at the region's two ends -/

/-- What the region is entered with (the scoped rest at anything, the generator register, the table) is the invariant
    before the first point. -/
theorem Phi_in (c : Dev nD) : iprop(Pipeline.ΦA spec1 c ∗ Pipeline.prefHeld (Ix := Unit) (Name := ℕ) (U := UR sig nD τ) (Lvl := ℕ) pre1 c (fun _ => fullShare) a.1) ⊢ (dat1 a V c).Φ 0 := by
  rw [show (dat1 a V c).Φ 0 = iprop(PhiS a V c 0 (Nat.zero_le _) ∗ Pipeline.prefHeld (Ix := Unit) (Name := ℕ) (U := UR sig nD τ) (Lvl := ℕ) pre1 c (fun _ => fullShare) a.1) from rfl, PhiS_zero a V c 0 _ rfl]
  try exact Idealize.SL.BI.Entails.refl _

/-- After the last point the invariant gives the same back: the scratch tiles' named contents are forgotten. -/
theorem Phi_out (c : Dev nD) : (dat1 a V c).Φ (Fin.last (cfg1 a).N) ⊢ iprop(Pipeline.ΦA spec1 c ∗ Pipeline.prefHeld (Ix := Unit) (Name := ℕ) (U := UR sig nD τ) (Lvl := ℕ) pre1 c (fun _ => fullShare) a.1) := by
  rw [show (dat1 a V c).Φ (Fin.last (cfg1 a).N) = iprop(PhiS a V c (cfg1 a).N (Nat.le_refl _) ∗ Pipeline.prefHeld (Ix := Unit) (Name := ℕ) (U := UR sig nD τ) (Lvl := ℕ) pre1 c (fun _ => fullShare) a.1) from rfl,
    PhiS_pos a V c _ _ (by rw [N_1a a]; decide), PhiA1_eq]
  unfold otherScoped
  iintro ⟨⟨⟨A1, A2, A3, A4, A5, A6, A7, A8⟩, HS0, HS1, Hg⟩, HT⟩
  isplitr [HT]
  swap; · iexact HT
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [HS0]; · iexists _; iexact HS0
  iexists _; iexact HS1

end Cert.Kernel.Hand1

end
-- ==== Proof.KRun.lean ====
/-
  The whole program's run: @main as five segments (host operations, the first kernel region, host operations, the
  second kernel region, host operations), each entered from what the one before it left.

  Between two segments every unscoped buffer of the core is held at known contents: the launch memory, then each host
  stretch applied to it, then — after a region — the region's arrays at what its write-backs leave and every other
  buffer as the region found it. The second region's index map reads a table of four joint numbers that the first
  host stretch writes (7, 8, 10, 11): the region is run at exactly those contents, for which every block it names
  lies inside its array.
-/
import proofs.«177773_j59631325938492_2_alg».proof.Proof.KRegion0
import proofs.«177773_j59631325938492_2_alg».proof.Proof.KRegion1
import proofs.«177773_j59631325938492_2_alg».proof.Proof.Gen.Kernel.Regions
import Idealize.ShloMosaic.Lib.Pipeline.RegionsLoop
import Idealize.ShloMosaic.Lib.Pipeline.FrameSuffix

set_option maxRecDepth 16384

noncomputable section

namespace Cert.Kernel.HandRun

open Cert.Kernel Cert.Kernel.Gen Cert.Kernel.Hand0 Cert.Kernel.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The joint table and its side condition -/

/-- The table's contents: the four joint numbers the first host operation writes. -/
def pfLit : pre1.Contents (Elt F) := fun
  | ⟨0, _⟩ => (fun i => lit0 (S4.rowMajor i))
  | ⟨_ + 1, h⟩ => absurd h (Nat.not_lt.2 (Nat.le_add_left _ _))

theorem lit0_le : ∀ j : Fin 4, (lit0 j).toNat ≤ 11 := by decide

/-- Every block the index map names at these contents lies inside the joints array: the row block is below 4 of 4,
    the joint number at most 11 of 24, the two trailing axes whole. -/
theorem ok_pfLit : ok1 (F := F) pfLit := by
  intro i
  refine ⟨?_, Or.inl rfl⟩
  have h0 : (i 0).val < 4 := (i 0).isLt
  have aux : ∀ v : BitVec 32, v.toNat ≤ 11 → ∀ a : Fin 4,
      ((![(BitVec.ofNat 32 (i 0).val).toNat, v.toNat, (0#32 : BitVec 32).toNat, (0#32 : BitVec 32).toNat] : Fin 4 → Nat) a + 1) * S16x1x3x2048.size a ≤ S64x24x3x2048.size a := by
    intro v hv a
    fin_cases a
    · show ((BitVec.ofNat 32 (i 0).val).toNat + 1) * 16 ≤ 64
      rw [BitVec.toNat_ofNat, Nat.mod_eq_of_lt (by omega)]; omega
    · show (v.toNat + 1) * 1 ≤ 24
      omega
    · show (0 + 1) * 3 ≤ 3
      omega
    · show (0 + 1) * 2048 ≤ 2048
      omega
  exact aux _ (lit0_le _)

/-- The table's contents as admissible contents of the second pipeline. -/
def adm1 : (pcfg1 (F := F)).Adm := ⟨pfLit, ok_pfLit⟩

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 adm1 (V3 m ρ) c).arrAt w (cfg1 (adm1 (F := F))).N
theorem W4_arr (c : Dev nD) (w : Fin (cfg1 (adm1 (F := F))).W) :
    W4 m ρ c (Proc.devRef .tc (Pipeline.arrRef spec1 w)) = (dat1 adm1 (V3 m ρ) c).arrAt w (cfg1 (adm1 (F := F))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 (F := F))).W) : (dat1 adm1 (V3 m ρ) c).arrAt w (cfg1 (adm1 (F := F))).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the program's end. -/
abbrev W5 : Dev nD → Valuation τ sig (Elt F) := fun c => StableHlo.after hostOps2 (W4 m ρ c)

/-! ## The table when the second region is entered -/

/-- The first host operation writes the table; no later operation and no region writes it. -/
theorem W3_main_c (c : Dev nD) : W3 m ρ c (Proc.devRef .tc main_c) = (fun i => lit0 (S4.rowMajor i)) :=
  calc W3 m ρ c (Proc.devRef .tc main_c)
    _ = W2 m ρ c (Proc.devRef .tc main_c) := StableHlo.after_of_writes_sub hostOps1 _ hostOps1_writes (by decide : main_c ∉ hostOps1_W)
    _ = W1 m ρ c (Proc.devRef .tc main_c) := W2_of_ne m ρ c main_c (by decide)
    _ = (fun i => lit0 (S4.rowMajor i)) := by
          show StableHlo.after hostOps0 (W0 m ρ c) (Proc.devRef .tc main_c) = _
          after_results
          try rfl

theorem tbl_eq (c : Dev nD) : (fun k => V3 m ρ c (pre1.ref k)) = (adm1 (F := F)).1 := by
  funext k
  match k with
  | ⟨0, _⟩ => exact W3_main_c m ρ c
  | ⟨_ + 1, h⟩ => exact absurd h (Nat.not_lt.2 (Nat.le_add_left _ _))

/-! ## The proof data family and the thread state -/

/-- The admissible table contents of each pipeline: the first has no table, the second the joint table. -/
def adm : (p : Fin 2) → (pcfgs (F := F) p).Adm
  | ⟨0, _⟩ => cfg0.toPCfg_adm
  | ⟨1, _⟩ => adm1
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 adm1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region: entered from every unscoped buffer at `W1`, left at `W2`. Its arrays are split out of the
    unscoped buffers and put back at the exit contents; the generator register goes into the invariant and comes out. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. Besides its arrays, the joint table
    is split out of the unscoped buffers (it holds the four joint numbers), travels through the invariant and is put
    back; the rest bypasses the region. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 adm1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 (F := F)).1)
  Z c := Pipeline.unscopedRestP (Ix := Unit) (Name := ℕ) (U := UR sig nD τ) (Lvl := ℕ) pre1 spec1 c (V3 m ρ c)
  hentry c := by
    rw [Pipeline.ownSems0_none]
    have hsplit0 := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit0
    have hsplit : (StableHlo.held (c : Thread nD τ) (Pipeline.ucRefs τ sig) (W3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) := hsplit0
    rw [Pipeline.unscopedRest_split (Ix := Unit) (Name := ℕ) (U := UR sig nD τ) (Lvl := ℕ) preFacts1 c (V3 m ρ c), tbl_eq m ρ c] at hsplit
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in adm1 (V3 m ρ) c)
    unfold Pipeline.ΦA
    iintro ⟨Hp, HT, Hr⟩
    isplitr [HT]
    swap; · iexact HT
    isplitl [Hr]; · iexact Hr
    iexact Hp
  hout c := by
    rw [Pipeline.ownSems0_none]
    refine BIBase.Entails.trans (Phi_out adm1 (V3 m ρ) c) ?_
    unfold Pipeline.ΦA
    iintro ⟨⟨Hr, Hp⟩, HT⟩
    isplitl [Hp HT]
    · isplitl [Hp]; · iexact Hp
      iexact HT
    isplitr; · iempintro
    iexact Hr
  hexit c := by
    have hjoin0 := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (adm1 (F := F))).N) (hF1 m ρ c) (hrest1 m ρ c)
    rw [Pipeline.unscopedBufs_held] at hjoin0
    have hjoin : iprop((pdats m ρ 1 c).arrays ((pdats m ρ 1 c).arrAt · (cfg1 (adm1 (F := F))).N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := hjoin0
    rw [Pipeline.unscopedRest_split (Ix := Unit) (Name := ℕ) (U := UR sig nD τ) (Lvl := ℕ) preFacts1 c (V3 m ρ c), tbl_eq m ρ c] at hjoin
    iintro ⟨Ha, HO, ⟨Hp, HT⟩, Hrest⟩
    imodintro
    isplitl [Ha HT Hrest]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

/-! ## @main as segments, and the launch -/

/-- A last segment's post with the `owes` split off, as the launch reads it. -/
theorem hlast (c : Dev nD) : iprop(StableHlo.held (c : Thread nD τ) (Pipeline.ucRefs τ sig) (W5 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer of every core at the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.HandRun

end
-- ==== Proof.RefRun.lean ====
/- The reference program's @main as a LIST of its 80 host operations, and its run read back: every weakly fair
   execution terminates with the result buffer at the operations' composed pure term of the three argument
   arrays, the arguments unchanged. The composed term is written once, as `result`, over named stages:
   four total sums (`r0` … `r3`) under one shared scalar tail. -/
import proofs.«177773_j59631325938492_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 80 operations, in order. -/
abbrev ops : List (HloOp τ sig (Elt F)) :=
  [
    nullary main_c (fun i => lit0 (S4.rowMajor i)),
    nullary main_c_0 (fun i => lit1 (S2.rowMajor i)),
    binary main_arg0 main_arg1 main_v0 (subf : (⟨S64x24x6x2048, .f32⟩ : BufTy).Contents (Elt F) → (⟨S64x24x6x2048, .f32⟩ : BufTy).Contents (Elt F) → (⟨S64x24x6x2048, .f32⟩ : BufTy).Contents (Elt F)),
    binary main_v0 main_v0 main_v1 (mulf : (⟨S64x24x6x2048, .f32⟩ : BufTy).Contents (Elt F) → (⟨S64x24x6x2048, .f32⟩ : BufTy).Contents (Elt F) → (⟨S64x24x6x2048, .f32⟩ : BufTy).Contents (Elt F)),
    nullary main_cst (constant S_ .f32 0x00000000#32),
    binary main_v1 main_cst main_v2 ((fun x v => Host.reduceAdd x v reducesTo_S64x24x6x2048_S_d0_1_2_3 h_S_) : (⟨S64x24x6x2048, .f32⟩ : BufTy).Contents (Elt F) → (⟨S_, .f32⟩ : BufTy).Contents (Elt F) → (⟨S_, .f32⟩ : BufTy).Contents (Elt F)),
    nullary main_cst_1 (constant S_ .f32 0x4B900000#32),
    binary main_v2 main_cst_1 main_v3 (Host.divf : (⟨S_, .f32⟩ : BufTy).Contents (Elt F) → (⟨S_, .f32⟩ : BufTy).Contents (Elt F) → (⟨S_, .f32⟩ : BufTy).Contents (Elt F)),
    unary main_arg0 main_v4 ((extractStridedSlice S64x24x6x2047 ![0, 0, 0, 1] · slices_S64x24x6x2048_S64x24x6x2047_0_0_0_1) : (⟨S64x24x6x2048, .f32⟩ : BufTy).Contents (Elt F) → (⟨S64x24x6x2047, .f32⟩ : BufTy).Contents (Elt F)),
    unary main_arg0 main_v5 ((extractStridedSlice S64x24x6x2047 ![0, 0, 0, 0] · slices_S64x24x6x2048_S64x24x6x2047_0_0_0_0) : (⟨S64x24x6x2048, .f32⟩ : BufTy).Contents (Elt F) → (⟨S64x24x6x2047, .f32⟩ : BufTy).Contents (Elt F)),
    binary main_v4 main_v5 main_v6 (subf : (⟨S64x24x6x2047, .f32⟩ : BufTy).Contents (Elt F) → (⟨S64x24x6x2047, .f32⟩ : BufTy).Contents (Elt F) → (⟨S64x24x6x2047, .f32⟩ : BufTy).Contents (Elt F)),
    unary main_arg1 main_v7 ((extractStridedSlice S64x24x6x2047 ![0, 0, 0, 1] · slices_S64x24x6x2048_S64x24x6x2047_0_0_0_1) : (⟨S64x24x6x2048, .f32⟩ : BufTy).Contents (Elt F) → (⟨S64x24x6x2047, .f32⟩ : BufTy).Contents (Elt F)),
    unary main_arg1 main_v8 ((extractStridedSlice S64x24x6x2047 ![0, 0, 0, 0] · slices_S64x24x6x2048_S64x24x6x2047_0_0_0_0) : (⟨S64x24x6x2048, .f32⟩ : BufTy).Contents (Elt F) → (⟨S64x24x6x2047, .f32⟩ : BufTy).Contents (Elt F)),
    binary main_v7 main_v8 main_v9 (subf : (⟨S64x24x6x2047, .f32⟩ : BufTy).Contents (Elt F) → (⟨S64x24x6x2047, .f32⟩ : BufTy).Contents (Elt F) → (⟨S64x24x6x2047, .f32⟩ : BufTy).Contents (Elt F)),
    binary main_v6 main_v9 main_v10 (subf : (⟨S64x24x6x2047, .f32⟩ : BufTy).Contents (Elt F) → (⟨S64x24x6x2047, .f32⟩ : BufTy).Contents (Elt F) → (⟨S64x24x6x2047, .f32⟩ : BufTy).Contents (Elt F)),
    binary main_v10 main_v10 main_v11 (mulf : (⟨S64x24x6x2047, .f32⟩ : BufTy).Contents (Elt F) → (⟨S64x24x6x2047, .f32⟩ : BufTy).Contents (Elt F) → (⟨S64x24x6x2047, .f32⟩ : BufTy).Contents (Elt F)),
    nullary main_cst_2 (constant S_ .f32 0x00000000#32),
    binary main_v11 main_cst_2 main_v12 ((fun x v => Host.reduceAdd x v reducesTo_S64x24x6x2047_S_d0_1_2_3 h_S_) : (⟨S64x24x6x2047, .f32⟩ : BufTy).Contents (Elt F) → (⟨S_, .f32⟩ : BufTy).Contents (Elt F) → (⟨S_, .f32⟩ : BufTy).Contents (Elt F)),
    nullary main_cst_3 (constant S_ .f32 0x4B8FEE00#32),
    binary main_v12 main_cst_3 main_v13 (Host.divf : (⟨S_, .f32⟩ : BufTy).Contents (Elt F) → (⟨S_, .f32⟩ : BufTy).Contents (Elt F) → (⟨S_, .f32⟩ : BufTy).Contents (Elt F)),
    nullary main_c_4 (constantI S_ 32 0#32),
    unary main_c_4 main_v14 (broadcastInDim S4 ![] bcast_S_S4 : (⟨S_, .i32⟩ : BufTy).Contents (Elt F) → (⟨S4, .i32⟩ : BufTy).Contents (Elt F)),
    binary main_c main_v14 main_v15 (cmpi .slt : (⟨S4, .i32⟩ : BufTy).Contents (Elt F) → (⟨S4, .i32⟩ : BufTy).Contents (Elt F) → (⟨S4, .i1⟩ : BufTy).Contents (Elt F)),
    nullary main_c_5 (constantI S_ 32 24#32),
    unary main_c_5 main_v16 (broadcastInDim S4 ![] bcast_S_S4 : (⟨S_, .i32⟩ : BufTy).Contents (Elt F) → (⟨S4, .i32⟩ : BufTy).Contents (Elt F)),
    binary main_c main_v16 main_v17 (addi : (⟨S4, .i32⟩ : BufTy).Contents (Elt F) → (⟨S4, .i32⟩ : BufTy).Contents (Elt F) → (⟨S4, .i32⟩ : BufTy).Contents (Elt F)),
    ternary main_v15 main_v17 main_c main_v18 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v18 main_v19 (broadcastInDim S4x1 ![0] bcast_S4_S4x1_0 : (⟨S4, .i32⟩ : BufTy).Contents (Elt F) → (⟨S4x1, .i32⟩ : BufTy).Contents (Elt F)),
    binary main_arg2 main_v19 main_v20 ((fun x i => Host.gather gather_S64x24x3x2048_S4x1_S64x4x3x2048_023_1_n_n_1_1_64132048 x i) : (⟨S64x24x3x2048, .f32⟩ : BufTy).Contents (Elt F) → (⟨S4x1, .i32⟩ : BufTy).Contents (Elt F) → (⟨S64x4x3x2048, .f32⟩ : BufTy).Contents (Elt F)),
    unary main_v20 main_v21 ((extractStridedSlice S64x4x1x2048 ![0, 0, 1, 0] · slices_S64x4x3x2048_S64x4x1x2048_0_0_1_0) : (⟨S64x4x3x2048, .f32⟩ : BufTy).Contents (Elt F) → (⟨S64x4x1x2048, .f32⟩ : BufTy).Contents (Elt F)),
    reshape main_v21 main_v22 rfl shapeCasts_S64x4x1x2048_S64x4x2048,
    nullary main_cst_6 (constant S_ .f32 0x3D4CCCCD#32),
    unary main_cst_6 main_v23 (broadcastInDim S64x4x2048 ![] bcast_S_S64x4x2048 : (⟨S_, .f32⟩ : BufTy).Contents (Elt F) → (⟨S64x4x2048, .f32⟩ : BufTy).Contents (Elt F)),
    binary main_v23 main_v22 main_v24 (subf : (⟨S64x4x2048, .f32⟩ : BufTy).Contents (Elt F) → (⟨S64x4x2048, .f32⟩ : BufTy).Contents (Elt F) → (⟨S64x4x2048, .f32⟩ : BufTy).Contents (Elt F)),
    nullary main_cst_7 (constant S_ .f32 0x41A00000#32),
    unary main_cst_7 main_v25 (broadcastInDim S64x4x2048 ![] bcast_S_S64x4x2048 : (⟨S_, .f32⟩ : BufTy).Contents (Elt F) → (⟨S64x4x2048, .f32⟩ : BufTy).Contents (Elt F)),
    binary main_v24 main_v25 main_v26 (mulf : (⟨S64x4x2048, .f32⟩ : BufTy).Contents (Elt F) → (⟨S64x4x2048, .f32⟩ : BufTy).Contents (Elt F) → (⟨S64x4x2048, .f32⟩ : BufTy).Contents (Elt F)),
    unary main_v26 main_v27 (Host.negf : (⟨S64x4x2048, .f32⟩ : BufTy).Contents (Elt F) → (⟨S64x4x2048, .f32⟩ : BufTy).Contents (Elt F)),
    unary main_v27 main_v28 (Host.exp : (⟨S64x4x2048, .f32⟩ : BufTy).Contents (Elt F) → (⟨S64x4x2048, .f32⟩ : BufTy).Contents (Elt F)),
    nullary main_cst_8 (constant S_ .f32 0x3F800000#32),
    unary main_cst_8 main_v29 (broadcastInDim S64x4x2048 ![] bcast_S_S64x4x2048 : (⟨S_, .f32⟩ : BufTy).Contents (Elt F) → (⟨S64x4x2048, .f32⟩ : BufTy).Contents (Elt F)),
    binary main_v29 main_v28 main_v30 (addf : (⟨S64x4x2048, .f32⟩ : BufTy).Contents (Elt F) → (⟨S64x4x2048, .f32⟩ : BufTy).Contents (Elt F) → (⟨S64x4x2048, .f32⟩ : BufTy).Contents (Elt F)),
    nullary main_cst_9 (constant S_ .f32 0x3F800000#32),
    unary main_cst_9 main_v31 (broadcastInDim S64x4x2048 ![] bcast_S_S64x4x2048 : (⟨S_, .f32⟩ : BufTy).Contents (Elt F) → (⟨S64x4x2048, .f32⟩ : BufTy).Contents (Elt F)),
    binary main_v31 main_v30 main_v32 (Host.divf : (⟨S64x4x2048, .f32⟩ : BufTy).Contents (Elt F) → (⟨S64x4x2048, .f32⟩ : BufTy).Contents (Elt F) → (⟨S64x4x2048, .f32⟩ : BufTy).Contents (Elt F)),
    unary main_v20 main_v33 ((extractStridedSlice S64x4x3x2047 ![0, 0, 0, 1] · slices_S64x4x3x2048_S64x4x3x2047_0_0_0_1) : (⟨S64x4x3x2048, .f32⟩ : BufTy).Contents (Elt F) → (⟨S64x4x3x2047, .f32⟩ : BufTy).Contents (Elt F)),
    unary main_v20 main_v34 ((extractStridedSlice S64x4x3x2047 ![0, 0, 0, 0] · slices_S64x4x3x2048_S64x4x3x2047_0_0_0_0) : (⟨S64x4x3x2048, .f32⟩ : BufTy).Contents (Elt F) → (⟨S64x4x3x2047, .f32⟩ : BufTy).Contents (Elt F)),
    binary main_v33 main_v34 main_v35 (subf : (⟨S64x4x3x2047, .f32⟩ : BufTy).Contents (Elt F) → (⟨S64x4x3x2047, .f32⟩ : BufTy).Contents (Elt F) → (⟨S64x4x3x2047, .f32⟩ : BufTy).Contents (Elt F)),
    nullary main_c_10 (constantI S_ 32 0#32),
    unary main_c_10 main_v36 (broadcastInDim S2 ![] bcast_S_S2 : (⟨S_, .i32⟩ : BufTy).Contents (Elt F) → (⟨S2, .i32⟩ : BufTy).Contents (Elt F)),
    binary main_c_0 main_v36 main_v37 (cmpi .slt : (⟨S2, .i32⟩ : BufTy).Contents (Elt F) → (⟨S2, .i32⟩ : BufTy).Contents (Elt F) → (⟨S2, .i1⟩ : BufTy).Contents (Elt F)),
    nullary main_c_11 (constantI S_ 32 3#32),
    unary main_c_11 main_v38 (broadcastInDim S2 ![] bcast_S_S2 : (⟨S_, .i32⟩ : BufTy).Contents (Elt F) → (⟨S2, .i32⟩ : BufTy).Contents (Elt F)),
    binary main_c_0 main_v38 main_v39 (addi : (⟨S2, .i32⟩ : BufTy).Contents (Elt F) → (⟨S2, .i32⟩ : BufTy).Contents (Elt F) → (⟨S2, .i32⟩ : BufTy).Contents (Elt F)),
    ternary main_v37 main_v39 main_c_0 main_v40 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v40 main_v41 (broadcastInDim S2x1 ![0] bcast_S2_S2x1_0 : (⟨S2, .i32⟩ : BufTy).Contents (Elt F) → (⟨S2x1, .i32⟩ : BufTy).Contents (Elt F)),
    binary main_v35 main_v41 main_v42 ((fun x i => Host.gather gather_S64x4x3x2047_S2x1_S64x4x2x2047_013_2_n_n_2_1_64412047 x i) : (⟨S64x4x3x2047, .f32⟩ : BufTy).Contents (Elt F) → (⟨S2x1, .i32⟩ : BufTy).Contents (Elt F) → (⟨S64x4x2x2047, .f32⟩ : BufTy).Contents (Elt F)),
    unary main_v32 main_v43 ((extractStridedSlice S64x4x2047 ![0, 0, 1] · slices_S64x4x2048_S64x4x2047_0_0_1) : (⟨S64x4x2048, .f32⟩ : BufTy).Contents (Elt F) → (⟨S64x4x2047, .f32⟩ : BufTy).Contents (Elt F)),
    unary main_v32 main_v44 ((extractStridedSlice S64x4x2047 ![0, 0, 0] · slices_S64x4x2048_S64x4x2047_0_0_0) : (⟨S64x4x2048, .f32⟩ : BufTy).Contents (Elt F) → (⟨S64x4x2047, .f32⟩ : BufTy).Contents (Elt F)),
    binary main_v43 main_v44 main_v45 (addf : (⟨S64x4x2047, .f32⟩ : BufTy).Contents (Elt F) → (⟨S64x4x2047, .f32⟩ : BufTy).Contents (Elt F) → (⟨S64x4x2047, .f32⟩ : BufTy).Contents (Elt F)),
    nullary main_cst_12 (constant S_ .f32 0x3F000000#32),
    unary main_cst_12 main_v46 (broadcastInDim S64x4x2047 ![] bcast_S_S64x4x2047 : (⟨S_, .f32⟩ : BufTy).Contents (Elt F) → (⟨S64x4x2047, .f32⟩ : BufTy).Contents (Elt F)),
    binary main_v45 main_v46 main_v47 (mulf : (⟨S64x4x2047, .f32⟩ : BufTy).Contents (Elt F) → (⟨S64x4x2047, .f32⟩ : BufTy).Contents (Elt F) → (⟨S64x4x2047, .f32⟩ : BufTy).Contents (Elt F)),
    binary main_v42 main_v42 main_v48 (mulf : (⟨S64x4x2x2047, .f32⟩ : BufTy).Contents (Elt F) → (⟨S64x4x2x2047, .f32⟩ : BufTy).Contents (Elt F) → (⟨S64x4x2x2047, .f32⟩ : BufTy).Contents (Elt F)),
    nullary main_cst_13 (constant S_ .f32 0x00000000#32),
    binary main_v48 main_cst_13 main_v49 ((fun x v => Host.reduceAdd x v reducesTo_S64x4x2x2047_S64x4x2047_d2 h_S_) : (⟨S64x4x2x2047, .f32⟩ : BufTy).Contents (Elt F) → (⟨S_, .f32⟩ : BufTy).Contents (Elt F) → (⟨S64x4x2047, .f32⟩ : BufTy).Contents (Elt F)),
    binary main_v49 main_v47 main_v50 (mulf : (⟨S64x4x2047, .f32⟩ : BufTy).Contents (Elt F) → (⟨S64x4x2047, .f32⟩ : BufTy).Contents (Elt F) → (⟨S64x4x2047, .f32⟩ : BufTy).Contents (Elt F)),
    nullary main_cst_14 (constant S_ .f32 0x00000000#32),
    binary main_v47 main_cst_14 main_v51 ((fun x v => Host.reduceAdd x v reducesTo_S64x4x2047_S_d0_1_2 h_S_) : (⟨S64x4x2047, .f32⟩ : BufTy).Contents (Elt F) → (⟨S_, .f32⟩ : BufTy).Contents (Elt F) → (⟨S_, .f32⟩ : BufTy).Contents (Elt F)),
    nullary main_cst_15 (constant S_ .f32 0x322BCC77#32),
    binary main_v51 main_cst_15 main_v52 (addf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v50 main_cst_16 main_v53 ((fun x v => Host.reduceAdd x v reducesTo_S64x4x2047_S_d0_1_2 h_S_) : (⟨S64x4x2047, .f32⟩ : BufTy).Contents (Elt F) → (⟨S_, .f32⟩ : BufTy).Contents (Elt F) → (⟨S_, .f32⟩ : BufTy).Contents (Elt F)),
    binary main_v53 main_v52 main_v54 (Host.divf : (⟨S_, .f32⟩ : BufTy).Contents (Elt F) → (⟨S_, .f32⟩ : BufTy).Contents (Elt F) → (⟨S_, .f32⟩ : BufTy).Contents (Elt F)),
    nullary main_cst_17 (constant S_ .f32 0x3E4CCCCD#32),
    binary main_cst_17 main_v13 main_v55 (mulf : (⟨S_, .f32⟩ : BufTy).Contents (Elt F) → (⟨S_, .f32⟩ : BufTy).Contents (Elt F) → (⟨S_, .f32⟩ : BufTy).Contents (Elt F)),
    binary main_v3 main_v55 main_v56 (addf : (⟨S_, .f32⟩ : BufTy).Contents (Elt F) → (⟨S_, .f32⟩ : BufTy).Contents (Elt F) → (⟨S_, .f32⟩ : BufTy).Contents (Elt F)),
    nullary main_cst_18 (constant S_ .f32 0x3DCCCCCD#32),
    binary main_cst_18 main_v54 main_v57 (mulf : (⟨S_, .f32⟩ : BufTy).Contents (Elt F) → (⟨S_, .f32⟩ : BufTy).Contents (Elt F) → (⟨S_, .f32⟩ : BufTy).Contents (Elt F)),
    binary main_v56 main_v57 main_v58 (addf : (⟨S_, .f32⟩ : BufTy).Contents (Elt F) → (⟨S_, .f32⟩ : BufTy).Contents (Elt F) → (⟨S_, .f32⟩ : BufTy).Contents (Elt F)) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., binary_bufs_sub .., nullary_bufs_sub .., binary_bufs_sub .., nullary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩

/-! ## The composed term, by stages -/

/-- the four gathered joints 7, 8, 10, 11, as the program builds the gather's start indices: a negative entry
    would be wrapped by the axis's extent 24 (none is), then one start index per row -/
def jointIdx : IVec S4x1 32 :=
  broadcastInDim S4x1 ![0] bcast_S4_S4x1_0
    (select (cmpi .slt (fun i => lit0 (S4.rowMajor i)) (broadcastInDim S4 ![] bcast_S_S4 (constantI S_ 32 0#32)))
      (addi (fun i => lit0 (S4.rowMajor i)) (broadcastInDim S4 ![] bcast_S_S4 (constantI S_ 32 24#32)))
      (fun i => lit0 (S4.rowMajor i)))

/-- the two gathered coordinates 0 and 2 (wrapped by the extent 3 if negative: neither is) -/
def axisIdx : IVec S2x1 32 :=
  broadcastInDim S2x1 ![0] bcast_S2_S2x1_0
    (select (cmpi .slt (fun i => lit1 (S2.rowMajor i)) (broadcastInDim S2 ![] bcast_S_S2 (constantI S_ 32 0#32)))
      (addi (fun i => lit1 (S2.rowMajor i)) (broadcastInDim S2 ![] bcast_S_S2 (constantI S_ 32 3#32)))
      (fun i => lit1 (S2.rowMajor i)))

/-- r0: the sum over all four axes of the squared difference of the first two arguments -/
def r0 (a0 a1 : FVec F S64x24x6x2048 .f32) : FVec F S_ .f32 :=
  Host.reduceAdd (mulf (subf a0 a1) (subf a0 a1)) (constant S_ .f32 0x00000000#32) reducesTo_S64x24x6x2048_S_d0_1_2_3 h_S_

/-- the forward difference along the last axis: x[…, 1:] − x[…, :−1] -/
def dlast (a : FVec F S64x24x6x2048 .f32) : FVec F S64x24x6x2047 .f32 :=
  subf (extractStridedSlice S64x24x6x2047 ![0, 0, 0, 1] a slices_S64x24x6x2048_S64x24x6x2047_0_0_0_1)
    (extractStridedSlice S64x24x6x2047 ![0, 0, 0, 0] a slices_S64x24x6x2048_S64x24x6x2047_0_0_0_0)

/-- r1: the sum of the squared difference of the two arguments' forward differences -/
def r1 (a0 a1 : FVec F S64x24x6x2048 .f32) : FVec F S_ .f32 :=
  Host.reduceAdd (mulf (subf (dlast a0) (dlast a1)) (subf (dlast a0) (dlast a1))) (constant S_ .f32 0x00000000#32)
    reducesTo_S64x24x6x2047_S_d0_1_2_3 h_S_

/-- the third argument at the four gathered joints -/
def joints (a2 : FVec F S64x24x3x2048 .f32) : FVec F S64x4x3x2048 .f32 :=
  Host.gather gather_S64x24x3x2048_S4x1_S64x4x3x2048_023_1_n_n_1_1_64132048 a2 jointIdx

/-- the gathered joints' coordinate 1 (the height), the unit axis dropped -/
def height (a2 : FVec F S64x24x3x2048 .f32) : FVec F S64x4x2048 .f32 :=
  shapeCast S64x4x2048 (extractStridedSlice S64x4x1x2048 ![0, 0, 1, 0] (joints a2) slices_S64x4x3x2048_S64x4x1x2048_0_0_1_0)
    shapeCasts_S64x4x1x2048_S64x4x2048

/-- the contact weight 1 / (1 + exp (−((0.05 − h) · 20))) -/
def contact (a2 : FVec F S64x24x3x2048 .f32) : FVec F S64x4x2048 .f32 :=
  Host.divf (broadcastInDim S64x4x2048 ![] bcast_S_S64x4x2048 (constant S_ .f32 0x3F800000#32))
    (addf (broadcastInDim S64x4x2048 ![] bcast_S_S64x4x2048 (constant S_ .f32 0x3F800000#32))
      (Host.exp (Host.negf (mulf (subf (broadcastInDim S64x4x2048 ![] bcast_S_S64x4x2048 (constant S_ .f32 0x3D4CCCCD#32)) (height a2))
        (broadcastInDim S64x4x2048 ![] bcast_S_S64x4x2048 (constant S_ .f32 0x41A00000#32))))))

/-- the weight of a step: the mean of the contact weights at its two ends -/
def cw (a2 : FVec F S64x24x3x2048 .f32) : FVec F S64x4x2047 .f32 :=
  mulf (addf (extractStridedSlice S64x4x2047 ![0, 0, 1] (contact a2) slices_S64x4x2048_S64x4x2047_0_0_1)
      (extractStridedSlice S64x4x2047 ![0, 0, 0] (contact a2) slices_S64x4x2048_S64x4x2047_0_0_0))
    (broadcastInDim S64x4x2047 ![] bcast_S_S64x4x2047 (constant S_ .f32 0x3F000000#32))

/-- the gathered joints' forward difference along the last axis (the velocity) -/
def vel (a2 : FVec F S64x24x3x2048 .f32) : FVec F S64x4x3x2047 .f32 :=
  subf (extractStridedSlice S64x4x3x2047 ![0, 0, 0, 1] (joints a2) slices_S64x4x3x2048_S64x4x3x2047_0_0_0_1)
    (extractStridedSlice S64x4x3x2047 ![0, 0, 0, 0] (joints a2) slices_S64x4x3x2048_S64x4x3x2047_0_0_0_0)

/-- the velocity's coordinates 0 and 2 -/
def velxz (a2 : FVec F S64x24x3x2048 .f32) : FVec F S64x4x2x2047 .f32 :=
  Host.gather gather_S64x4x3x2047_S2x1_S64x4x2x2047_013_2_n_n_2_1_64412047 (vel a2) axisIdx

/-- the squared horizontal speed: the two squared coordinates summed over their axis -/
def speed2 (a2 : FVec F S64x24x3x2048 .f32) : FVec F S64x4x2047 .f32 :=
  Host.reduceAdd (mulf (velxz a2) (velxz a2)) (constant S_ .f32 0x00000000#32) reducesTo_S64x4x2x2047_S64x4x2047_d2 h_S_

/-- r3: the sum of the step weights -/
def r3 (a2 : FVec F S64x24x3x2048 .f32) : FVec F S_ .f32 :=
  Host.reduceAdd (cw a2) (constant S_ .f32 0x00000000#32) reducesTo_S64x4x2047_S_d0_1_2 h_S_

/-- r2: the sum of the weighted squared horizontal speeds -/
def r2 (a2 : FVec F S64x24x3x2048 .f32) : FVec F S_ .f32 :=
  Host.reduceAdd (mulf (speed2 a2) (cw a2)) (constant S_ .f32 0x00000000#32) reducesTo_S64x4x2047_S_d0_1_2 h_S_

/-- the scalar tail shared by the four sums: (x0 / N1 + c02 · (x1 / N2)) + c01 · (x2 / (x3 + eps)) -/
def tailOf (x0 x1 x2 x3 : FVec F S_ .f32) : FVec F S_ .f32 :=
  addf (addf (Host.divf x0 (constant S_ .f32 0x4B900000#32))
      (mulf (constant S_ .f32 0x3E4CCCCD#32) (Host.divf x1 (constant S_ .f32 0x4B8FEE00#32))))
    (mulf (constant S_ .f32 0x3DCCCCCD#32) (Host.divf x2 (addf x3 (constant S_ .f32 0x322BCC77#32))))

/-- the reference's result as ONE term of the three argument arrays: the 80 operations composed -/
def result (a0 a1 : (⟨S64x24x6x2048, .f32⟩ : BufTy).Contents (Elt F)) (a2 : (⟨S64x24x3x2048, .f32⟩ : BufTy).Contents (Elt F)) :
    (⟨S_, .f32⟩ : BufTy).Contents (Elt F) :=
  tailOf (r0 a0 a1) (r1 a0 a1) (r2 a2) (r3 a2)

/-! ## What the buffers hold after the 80 operations -/

set_option maxHeartbeats 8000000 in
/-- the result buffer after the operations, from any contents: `result` of the three argument buffers -/
theorem after_v58 (V : Valuation τ sig (Elt F)) :
    after (ops (F := F)) V (Proc.devRef .tc main_v58)
      = result (V (Proc.devRef .tc main_arg0)) (V (Proc.devRef .tc main_arg1)) (V (Proc.devRef .tc main_arg2)) := by
  after_results_simp; rfl

set_option maxHeartbeats 8000000 in
/-- no operation writes an argument buffer -/
theorem after_arg0 (V : Valuation τ sig (Elt F)) :
    after (ops (F := F)) V (Proc.devRef .tc main_arg0) = V (Proc.devRef .tc main_arg0) := by
  after_results_simp
set_option maxHeartbeats 8000000 in
theorem after_arg1 (V : Valuation τ sig (Elt F)) :
    after (ops (F := F)) V (Proc.devRef .tc main_arg1) = V (Proc.devRef .tc main_arg1) := by
  after_results_simp
set_option maxHeartbeats 8000000 in
theorem after_arg2 (V : Valuation τ sig (Elt F)) :
    after (ops (F := F)) V (Proc.devRef .tc main_arg2) = V (Proc.devRef .tc main_arg2) := by
  after_results_simp

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v58).trans (after_v58 _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.ReferenceIdeal.HandRun

end
-- ==== Proof.RefRead.lean ====
/- The reference's result READ AT THE IDEAL VALUES: the composed term `result` is one scalar tail of four total sums,
   and each sum is read at the scalar shape's one index as a plain `Finset` sum over the summed array's indices, the
   summand written out in the argument arrays' elements. -/
import proofs.«177773_j59631325938492_2_alg».proof.Proof.RefRun
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.HandRun

open Cert.ReferenceIdeal Cert.ReferenceIdeal.Gen Idealize.ShloMosaic Idealize.ShloMosaic.ValueIdx

/-! ## The shared tail -/

/-- the scalar tail at the ideal values: (x0 / N1 + c02 · (x1 / N2)) + c01 · (x2 / (x3 + eps)) -/
def tail (x0 x1 x2 x3 : FVec Ideal S_ .f32) : FVec Ideal S_ .f32 :=
  addf (addf (Host.divf (F := Ideal) x0 (constant (F := Ideal) S_ .f32 0x4B900000#32))
      (mulf (constant (F := Ideal) S_ .f32 0x3E4CCCCD#32) (Host.divf (F := Ideal) x1 (constant (F := Ideal) S_ .f32 0x4B8FEE00#32))))
    (mulf (constant (F := Ideal) S_ .f32 0x3DCCCCCD#32) (Host.divf (F := Ideal) x2 (addf x3 (constant (F := Ideal) S_ .f32 0x322BCC77#32))))

/-- the reference's result at the ideal values is the tail of its four sums -/
theorem result_eq_tail (a0 a1 : FVec Ideal S64x24x6x2048 .f32) (a2 : FVec Ideal S64x24x3x2048 .f32) :
    result (F := Ideal) a0 a1 a2 = tail (r0 a0 a1) (r1 a0 a1) (r2 a2) (r3 a2) := rfl

/-! ## r0 and r1: the two sums over the first two arguments -/

/-- r0 at the one index: the sum of the squared differences -/
theorem r0_apply (a0 a1 : FVec Ideal S64x24x6x2048 .f32) :
    r0 a0 a1 ix0 = 0 + ∑ i : S64x24x6x2048.Idx, (a0 i - a1 i) * (a0 i - a1 i) := by
  unfold r0
  rw [hostReduceAdd_apply, Ideal.hostReduceAdd_total _ (fun b => b.elim0)]
  show Ideal.ofBits .f32 0x00000000#32 + _ = _
  rw [Ideal.ofBits_zero_f32]
  rfl

/-- the index one step later along the last axis -/
def up (i : S64x24x6x2047.Idx) : S64x24x6x2048.Idx :=
  ix4 (n0 := 64) (n1 := 24) (n2 := 6) (n3 := 2048) (i 0) (i 1) (i 2)
    ⟨(i 3).val + 1, by have h : (i 3).val < 2047 := (i 3).isLt; omega⟩

/-- the same index in the longer array -/
def lo (i : S64x24x6x2047.Idx) : S64x24x6x2048.Idx :=
  ix4 (n0 := 64) (n1 := 24) (n2 := 6) (n3 := 2048) (i 0) (i 1) (i 2)
    ⟨(i 3).val, by have h : (i 3).val < 2047 := (i 3).isLt; omega⟩

/-- the forward difference at an index -/
theorem dlast_apply (a : FVec Ideal S64x24x6x2048 .f32) (i : S64x24x6x2047.Idx) : dlast a i = a (up i) - a (lo i) := by
  unfold dlast
  rw [subf_apply,
    extractStridedSlice_apply ![0, 0, 0, 1] a slices_S64x24x6x2048_S64x24x6x2047_0_0_0_1 i (up i) (fun b =>
      match b with
      | ⟨0, _⟩ => by show (i 0).val = 0 + (i 0).val; omega
      | ⟨1, _⟩ => by show (i 1).val = 0 + (i 1).val; omega
      | ⟨2, _⟩ => by show (i 2).val = 0 + (i 2).val; omega
      | ⟨3, _⟩ => by show (i 3).val + 1 = 1 + (i 3).val; omega),
    extractStridedSlice_apply ![0, 0, 0, 0] a slices_S64x24x6x2048_S64x24x6x2047_0_0_0_0 i (lo i) (fun b =>
      match b with
      | ⟨0, _⟩ => by show (i 0).val = 0 + (i 0).val; omega
      | ⟨1, _⟩ => by show (i 1).val = 0 + (i 1).val; omega
      | ⟨2, _⟩ => by show (i 2).val = 0 + (i 2).val; omega
      | ⟨3, _⟩ => by show (i 3).val = 0 + (i 3).val; omega)]

/-- r1 at the one index: the sum of the squared differences of the two forward differences -/
theorem r1_apply (a0 a1 : FVec Ideal S64x24x6x2048 .f32) :
    r1 a0 a1 ix0 = 0 + ∑ i : S64x24x6x2047.Idx,
      ((a0 (up i) - a0 (lo i)) - (a1 (up i) - a1 (lo i))) * ((a0 (up i) - a0 (lo i)) - (a1 (up i) - a1 (lo i))) := by
  unfold r1
  rw [hostReduceAdd_apply, Ideal.hostReduceAdd_total _ (fun b => b.elim0)]
  show Ideal.ofBits .f32 0x00000000#32 + _ = _
  rw [Ideal.ofBits_zero_f32]
  refine congrArg (0 + ·) (Finset.sum_congr rfl fun i _ => ?_)
  rw [mulf_apply, subf_apply, dlast_apply, dlast_apply]

/-! ## The two gathers read at an index -/

/-- the four gathered joints -/
def jointOf : Fin 4 → Fin 24 := ![7, 8, 10, 11]

/-- the start index of row `k`: joint `jointOf k` (no entry is negative, so none is wrapped) -/
theorem jointIdx_apply (k : Fin 4) (z : Fin 1) : jointIdx (ix2 (n0 := 4) (n1 := 1) k z) = BitVec.ofNat 32 (jointOf k).val := by
  fin_cases k <;> rfl

/-- the first gather at an index: the operand at the same coordinates, the joint axis at the gathered joint -/
theorem gather_joints_apply {α : Type} (a2 : S64x24x3x2048.Idx → α) (j : S64x4x3x2048.Idx) :
    Host.gather gather_S64x24x3x2048_S4x1_S64x4x3x2048_023_1_n_n_1_1_64132048 a2 jointIdx j
      = a2 (ix4 (n0 := 64) (n1 := 24) (n2 := 3) (n3 := 2048) (j 0) (jointOf (j 1)) (j 2) (j 3)) := by
  unfold Host.gather
  congr 1
  funext a
  refine Fin.ext ?_
  show (gather_S64x24x3x2048_S4x1_S64x4x3x2048_023_1_n_n_1_1_64132048).start j jointIdx a + (gather_S64x24x3x2048_S4x1_S64x4x3x2048_023_1_n_n_1_1_64132048).batchCoord j a + (gather_S64x24x3x2048_S4x1_S64x4x3x2048_023_1_n_n_1_1_64132048).offCoord j a = _
  rw [GatherDims.batchCoord_eq_zero _ _ _ List.not_mem_nil, Nat.add_zero]
  fin_cases a
  · unfold GatherDims.start GatherDims.offCoord
    rw [dif_neg (by decide), dif_pos (by decide), Nat.zero_add]
    rfl
  · unfold GatherDims.start GatherDims.offCoord
    rw [dif_pos (by decide), dif_neg (by decide), Nat.add_zero]
    have hsi : (gather_S64x24x3x2048_S4x1_S64x4x3x2048_023_1_n_n_1_1_64132048).siIdx j
        ⟨List.idxOf (⟨1, by decide⟩ : Fin S64x24x3x2048.rank) (gather_S64x24x3x2048_S4x1_S64x4x3x2048_023_1_n_n_1_1_64132048).startIndexMap,
          List.idxOf_lt_length_iff.2 (by decide)⟩ = ix2 (n0 := 4) (n1 := 1) (j 1) 0 := by
      funext b; refine Fin.ext ?_
      match b with
      | ⟨0, _⟩ => rfl
      | ⟨1, _⟩ => rfl
    have key : ∀ k : Fin 4, min (BitVec.ofNat 32 (jointOf k).val).toInt.toNat 23 = (jointOf k).val := by decide
    show min (jointIdx ((gather_S64x24x3x2048_S4x1_S64x4x3x2048_023_1_n_n_1_1_64132048).siIdx j
        ⟨List.idxOf (⟨1, by decide⟩ : Fin S64x24x3x2048.rank) (gather_S64x24x3x2048_S4x1_S64x4x3x2048_023_1_n_n_1_1_64132048).startIndexMap,
          List.idxOf_lt_length_iff.2 (by decide)⟩)).toInt.toNat 23 = (jointOf (j 1)).val
    rw [hsi]
    exact (congrArg (fun w : BitVec 32 => min w.toInt.toNat 23) (jointIdx_apply (j 1) 0)).trans (key (j 1))
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- the two gathered coordinates -/
def axisOf : Fin 2 → Fin 3 := ![0, 2]

/-- the start index of row `k`: coordinate `axisOf k` -/
theorem axisIdx_apply (k : Fin 2) (z : Fin 1) : axisIdx (ix2 (n0 := 2) (n1 := 1) k z) = BitVec.ofNat 32 (axisOf k).val := by
  fin_cases k <;> rfl

/-- the second gather at an index: the operand at the same coordinates, the coordinate axis at the gathered coordinate -/
theorem gather_axes_apply {α : Type} (v : S64x4x3x2047.Idx → α) (j : S64x4x2x2047.Idx) :
    Host.gather gather_S64x4x3x2047_S2x1_S64x4x2x2047_013_2_n_n_2_1_64412047 v axisIdx j
      = v (ix4 (n0 := 64) (n1 := 4) (n2 := 3) (n3 := 2047) (j 0) (j 1) (axisOf (j 2)) (j 3)) := by
  unfold Host.gather
  congr 1
  funext a
  refine Fin.ext ?_
  show (gather_S64x4x3x2047_S2x1_S64x4x2x2047_013_2_n_n_2_1_64412047).start j axisIdx a + (gather_S64x4x3x2047_S2x1_S64x4x2x2047_013_2_n_n_2_1_64412047).batchCoord j a + (gather_S64x4x3x2047_S2x1_S64x4x2x2047_013_2_n_n_2_1_64412047).offCoord j a = _
  rw [GatherDims.batchCoord_eq_zero _ _ _ List.not_mem_nil, Nat.add_zero]
  fin_cases a
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · unfold GatherDims.start GatherDims.offCoord
    rw [dif_pos (by decide), dif_neg (by decide), Nat.add_zero]
    have hsi : (gather_S64x4x3x2047_S2x1_S64x4x2x2047_013_2_n_n_2_1_64412047).siIdx j
        ⟨List.idxOf (⟨2, by decide⟩ : Fin S64x4x3x2047.rank) (gather_S64x4x3x2047_S2x1_S64x4x2x2047_013_2_n_n_2_1_64412047).startIndexMap,
          List.idxOf_lt_length_iff.2 (by decide)⟩ = ix2 (n0 := 2) (n1 := 1) (j 2) 0 := by
      funext b; refine Fin.ext ?_
      match b with
      | ⟨0, _⟩ => rfl
      | ⟨1, _⟩ => rfl
    have key : ∀ k : Fin 2, min (BitVec.ofNat 32 (axisOf k).val).toInt.toNat 2 = (axisOf k).val := by decide
    show min (axisIdx ((gather_S64x4x3x2047_S2x1_S64x4x2x2047_013_2_n_n_2_1_64412047).siIdx j
        ⟨List.idxOf (⟨2, by decide⟩ : Fin S64x4x3x2047.rank) (gather_S64x4x3x2047_S2x1_S64x4x2x2047_013_2_n_n_2_1_64412047).startIndexMap,
          List.idxOf_lt_length_iff.2 (by decide)⟩)).toInt.toNat 2 = (axisOf (j 2)).val
    rw [hsi]
    exact (congrArg (fun w : BitVec 32 => min w.toInt.toNat 2) (axisIdx_apply (j 2) 0)).trans (key (j 2))
  · unfold GatherDims.start GatherDims.offCoord
    rw [dif_neg (by decide), dif_pos (by decide), Nat.zero_add]
    rfl

/-! ## The stages over the third argument, read at an index -/

/-- the gathered joints at an index -/
theorem joints_apply (a2 : FVec Ideal S64x24x3x2048 .f32) (j : S64x4x3x2048.Idx) :
    joints a2 j = a2 (ix4 (n0 := 64) (n1 := 24) (n2 := 3) (n3 := 2048) (j 0) (jointOf (j 1)) (j 2) (j 3)) := by
  unfold joints; exact gather_joints_apply a2 j

/-- the height at an index: coordinate 1 of the gathered joint -/
theorem height_apply (a2 : FVec Ideal S64x24x3x2048 .f32) (j : S64x4x2048.Idx) :
    height a2 j = a2 (ix4 (n0 := 64) (n1 := 24) (n2 := 3) (n3 := 2048) (j 0) (jointOf (j 1)) 1 (j 2)) := by
  unfold height
  rw [shapeCast_apply (extractStridedSlice S64x4x1x2048 ![0, 0, 1, 0] (joints a2) slices_S64x4x3x2048_S64x4x1x2048_0_0_1_0)
      shapeCasts_S64x4x1x2048_S64x4x2048 j (ix4 (n0 := 64) (n1 := 4) (n2 := 1) (n3 := 2048) (j 0) (j 1) 0 (j 2)) (by
        rw [Shape.rowMajor_val_four, Shape.rowMajor_val_three]
        show (((j 0).val * 4 + (j 1).val) * 1 + 0) * 2048 + (j 2).val = ((j 0).val * 4 + (j 1).val) * 2048 + (j 2).val
        omega),
    extractStridedSlice_apply ![0, 0, 1, 0] (joints a2) slices_S64x4x3x2048_S64x4x1x2048_0_0_1_0
      (ix4 (n0 := 64) (n1 := 4) (n2 := 1) (n3 := 2048) (j 0) (j 1) 0 (j 2)) (ix4 (n0 := 64) (n1 := 4) (n2 := 3) (n3 := 2048) (j 0) (j 1) 1 (j 2)) (fun b =>
      match b with
      | ⟨0, _⟩ => by show (j 0).val = 0 + (j 0).val; omega
      | ⟨1, _⟩ => by show (j 1).val = 0 + (j 1).val; omega
      | ⟨2, _⟩ => by show 1 = 1 + 0; omega
      | ⟨3, _⟩ => by show (j 2).val = 0 + (j 2).val; omega),
    joints_apply]

/-- the contact weight of a height: 1 / (1 + exp (−((0.05 − x) · 20))), the four constants by their words -/
def sigm (x : EReal) : EReal :=
  Ideal.div (Ideal.ofBits .f32 0x3F800000#32)
    (Ideal.ofBits .f32 0x3F800000#32 + Ideal.exp (-((Ideal.ofBits .f32 0x3D4CCCCD#32 - x) * Ideal.ofBits .f32 0x41A00000#32)))

/-- the contact weight at an index -/
theorem contact_apply (a2 : FVec Ideal S64x24x3x2048 .f32) (j : S64x4x2048.Idx) : contact a2 j = sigm (height a2 j) := rfl

/-- the index one step later along the last axis (rank 3) -/
def up3 (i : S64x4x2047.Idx) : S64x4x2048.Idx :=
  ix3 (n0 := 64) (n1 := 4) (n2 := 2048) (i 0) (i 1) ⟨(i 2).val + 1, by have h : (i 2).val < 2047 := (i 2).isLt; omega⟩

/-- the same index in the longer array (rank 3) -/
def lo3 (i : S64x4x2047.Idx) : S64x4x2048.Idx :=
  ix3 (n0 := 64) (n1 := 4) (n2 := 2048) (i 0) (i 1) ⟨(i 2).val, by have h : (i 2).val < 2047 := (i 2).isLt; omega⟩

/-- the step weight at an index: the mean of the contact weights at the step's two ends -/
theorem cw_apply (a2 : FVec Ideal S64x24x3x2048 .f32) (i : S64x4x2047.Idx) :
    cw a2 i = (sigm (height a2 (up3 i)) + sigm (height a2 (lo3 i))) * Ideal.ofBits .f32 0x3F000000#32 := by
  unfold cw
  rw [mulf_apply, addf_apply,
    extractStridedSlice_apply ![0, 0, 1] (contact a2) slices_S64x4x2048_S64x4x2047_0_0_1 i (up3 i) (fun b =>
      match b with
      | ⟨0, _⟩ => by show (i 0).val = 0 + (i 0).val; omega
      | ⟨1, _⟩ => by show (i 1).val = 0 + (i 1).val; omega
      | ⟨2, _⟩ => by show (i 2).val + 1 = 1 + (i 2).val; omega),
    extractStridedSlice_apply ![0, 0, 0] (contact a2) slices_S64x4x2048_S64x4x2047_0_0_0 i (lo3 i) (fun b =>
      match b with
      | ⟨0, _⟩ => by show (i 0).val = 0 + (i 0).val; omega
      | ⟨1, _⟩ => by show (i 1).val = 0 + (i 1).val; omega
      | ⟨2, _⟩ => by show (i 2).val = 0 + (i 2).val; omega),
    contact_apply, contact_apply]
  rfl

/-- r3 at the one index: the sum of the step weights -/
theorem r3_apply (a2 : FVec Ideal S64x24x3x2048 .f32) : r3 a2 ix0 = 0 + ∑ i : S64x4x2047.Idx, cw a2 i := by
  unfold r3
  rw [hostReduceAdd_apply, Ideal.hostReduceAdd_total _ (fun b => b.elim0)]
  show Ideal.ofBits .f32 0x00000000#32 + _ = _
  rw [Ideal.ofBits_zero_f32]

/-- the velocity of a gathered joint's coordinate at an index: its forward difference in time -/
theorem vel_apply (a2 : FVec Ideal S64x24x3x2048 .f32) (j : S64x4x3x2047.Idx) :
    vel a2 j
      = a2 (ix4 (n0 := 64) (n1 := 24) (n2 := 3) (n3 := 2048) (j 0) (jointOf (j 1)) (j 2) ⟨(j 3).val + 1, by have h : (j 3).val < 2047 := (j 3).isLt; omega⟩)
        - a2 (ix4 (n0 := 64) (n1 := 24) (n2 := 3) (n3 := 2048) (j 0) (jointOf (j 1)) (j 2) ⟨(j 3).val, by have h : (j 3).val < 2047 := (j 3).isLt; omega⟩) := by
  unfold vel
  rw [subf_apply,
    extractStridedSlice_apply ![0, 0, 0, 1] (joints a2) slices_S64x4x3x2048_S64x4x3x2047_0_0_0_1 j
      (ix4 (n0 := 64) (n1 := 4) (n2 := 3) (n3 := 2048) (j 0) (j 1) (j 2) ⟨(j 3).val + 1, by have h : (j 3).val < 2047 := (j 3).isLt; omega⟩) (fun b =>
      match b with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show (j 3).val + 1 = 1 + (j 3).val; omega),
    extractStridedSlice_apply ![0, 0, 0, 0] (joints a2) slices_S64x4x3x2048_S64x4x3x2047_0_0_0_0 j
      (ix4 (n0 := 64) (n1 := 4) (n2 := 3) (n3 := 2048) (j 0) (j 1) (j 2) ⟨(j 3).val, by have h : (j 3).val < 2047 := (j 3).isLt; omega⟩) (fun b =>
      match b with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show (j 3).val = 0 + (j 3).val; omega),
    joints_apply, joints_apply]

/-- the two horizontal velocity coordinates at an index -/
theorem velxz_apply (a2 : FVec Ideal S64x24x3x2048 .f32) (j : S64x4x2x2047.Idx) :
    velxz a2 j = vel a2 (ix4 (n0 := 64) (n1 := 4) (n2 := 3) (n3 := 2047) (j 0) (j 1) (axisOf (j 2)) (j 3)) := by
  unfold velxz; exact gather_axes_apply (vel a2) j

/-- the squared horizontal speed at an index: the two squared coordinates summed -/
theorem speed2_apply (a2 : FVec Ideal S64x24x3x2048 .f32) (i : S64x4x2047.Idx) :
    speed2 a2 i = 0 + ∑ c : Fin 2,
      velxz a2 (ix4 (n0 := 64) (n1 := 4) (n2 := 2) (n3 := 2047) (i 0) (i 1) c (i 2)) * velxz a2 (ix4 (n0 := 64) (n1 := 4) (n2 := 2) (n3 := 2047) (i 0) (i 1) c (i 2)) := by
  unfold speed2
  rw [hostReduceAdd_apply,
    Ideal.hostReduceAdd_single reducesTo_S64x4x2x2047_S64x4x2047_d2 (by decide : S64x4x2x2047.Reduces [2] S64x4x2047)]
  show Ideal.ofBits .f32 0x00000000#32 + _ = _
  rw [Ideal.ofBits_zero_f32]
  refine congrArg (0 + ·) (Finset.sum_congr rfl fun c _ => ?_)
  rw [mulf_apply]
  have hidx : (by decide : S64x4x2x2047.Reduces [2] S64x4x2047).lift i c
      = ix4 (n0 := 64) (n1 := 4) (n2 := 2) (n3 := 2047) (i 0) (i 1) c (i 2) := by
    funext a; refine Fin.ext ?_
    match a with
    | ⟨0, _⟩ => rfl
    | ⟨1, _⟩ => rfl
    | ⟨2, _⟩ => rfl
    | ⟨3, _⟩ => rfl
  rw [hidx]

/-- r2 at the one index: the sum of the weighted squared horizontal speeds -/
theorem r2_apply (a2 : FVec Ideal S64x24x3x2048 .f32) :
    r2 a2 ix0 = 0 + ∑ i : S64x4x2047.Idx, speed2 a2 i * cw a2 i := by
  unfold r2
  rw [hostReduceAdd_apply, Ideal.hostReduceAdd_total _ (fun b => b.elim0)]
  show Ideal.ofBits .f32 0x00000000#32 + _ = _
  rw [Ideal.ofBits_zero_f32]
  rfl

end Cert.ReferenceIdeal.HandRun

end
-- ==== Proof.KHost.lean ====
/-
  The kernel program's HOST side read back: what the three host stretches leave in the buffers a value argument reads.
  The three argument arrays end as launched; the first stretch hands the first region the first two arguments reshaped;
  the last stretch's result is the scalar tail — the same one the reference ends in — of four sums, each a region's
  output array summed over both axes and divided by 1024.
-/
import proofs.«177773_j59631325938492_2_alg».proof.Proof.KRun
import proofs.«177773_j59631325938492_2_alg».proof.Proof.RefRead

set_option maxRecDepth 16384

noncomputable section

namespace Cert.Kernel.HandRun

open Cert.Kernel Cert.Kernel.Gen Cert.Kernel.Hand0 Cert.Kernel.Hand1
open Idealize.ShloMosaic Idealize.ShloMosaic.TcCoe Idealize.ShloMosaic.Tactic
open Idealize.SL Idealize.SL.Sem
open Idealize.ShloMosaic.StableHlo (after)

section Generic

variable {F : FTy → Type} [FloatOps F]
variable (m : (ℓ : Loc nD τ sig) → Buf (Elt F) ℓ) (ρ : Dev nD → PrngReg)

/-! ## The arguments end as launched -/

/-- No host operation writes the first argument and it is no array of either region. -/
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

/-- Nor the second. -/
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- The third argument is the second region's input array: the region reads it and leaves it as entered. -/
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) :=
          (W4_arr m ρ c 0).trans (((dat1 adm1 (V3 m ρ) c).arrAt_in 0 rfl _).trans (A_eq1 adm1 (V3 m ρ) c 0))
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

/-! ## The first region's inputs: the first two arguments reshaped -/

/-- The first stretch hands the first region the first argument with its joint and coordinate axes merged. -/
theorem W1_v0 (c : Dev nD) : W1 m ρ c (Proc.devRef .tc main_v0)
    = shapeCast S64x144x2048 (m ((c : Thread nD τ).loc main_arg0)) shapeCasts_S64x24x6x2048_S64x144x2048 := by
  show after hostOps0 (W0 m ρ c) (Proc.devRef .tc main_v0) = _
  after_results
  try rfl

/-- And the second argument likewise. -/
theorem W1_v1 (c : Dev nD) : W1 m ρ c (Proc.devRef .tc main_v1)
    = shapeCast S64x144x2048 (m ((c : Thread nD τ).loc main_arg1)) shapeCasts_S64x24x6x2048_S64x144x2048 := by
  show after hostOps0 (W0 m ρ c) (Proc.devRef .tc main_v1) = _
  after_results
  try rfl

/-! ## The last stretch's result: the scalar tail of four sums -/

/-- a [64, 128] array of partial sums added up and divided by 1024 -/
def ksumA (A : FVec F S64x128 .f32) : FVec F S_ .f32 :=
  Host.divf (Host.reduceAdd A (constant S_ .f32 0x00000000#32) reducesTo_S64x128_S_d0_1 h_S_) (constant S_ .f32 0x44800000#32)

/-- a [32, 128] array of partial sums added up and divided by 1024 -/
def ksumB (B : FVec F S32x128 .f32) : FVec F S_ .f32 :=
  Host.divf (Host.reduceAdd B (constant S_ .f32 0x00000000#32) reducesTo_S32x128_S_d0_1 h_S_) (constant S_ .f32 0x44800000#32)

/-- the scalar tail, for any float values: (x0 / N1 + c02 · (x1 / N2)) + c01 · (x2 / (x3 + eps)) -/
def tailK (x0 x1 x2 x3 : FVec F S_ .f32) : FVec F S_ .f32 :=
  addf (addf (Host.divf x0 (constant S_ .f32 0x4B900000#32))
      (mulf (constant S_ .f32 0x3E4CCCCD#32) (Host.divf x1 (constant S_ .f32 0x4B8FEE00#32))))
    (mulf (constant S_ .f32 0x3DCCCCCD#32) (Host.divf x2 (addf x3 (constant S_ .f32 0x322BCC77#32))))

/-- the second stretch, from any contents: the first sum scaled -/
theorem after1_v5 (V : Valuation τ sig (Elt F)) : after (hostOps1 (F := F)) V (Proc.devRef .tc main_v5)
    = Host.divf (ksumA (V (Proc.devRef .tc main_v2_0))) (constant S_ .f32 0x4B900000#32) := by
  after_results
  try rfl

/-- the second stretch, from any contents: the second sum scaled -/
theorem after1_v8 (V : Valuation τ sig (Elt F)) : after (hostOps1 (F := F)) V (Proc.devRef .tc main_v8)
    = Host.divf (ksumA (V (Proc.devRef .tc main_v2_1))) (constant S_ .f32 0x4B8FEE00#32) := by
  after_results
  try rfl

/-- the last stretch, from any contents: the tail's sum of its three terms, the first two as the second stretch left them -/
theorem after2_v19 (V : Valuation τ sig (Elt F)) : after (hostOps2 (F := F)) V (Proc.devRef .tc main_v19)
    = addf (addf (V (Proc.devRef .tc main_v5)) (mulf (constant S_ .f32 0x3E4CCCCD#32) (V (Proc.devRef .tc main_v8))))
        (mulf (constant S_ .f32 0x3DCCCCCD#32)
          (Host.divf (ksumB (V (Proc.devRef .tc main_v9_0))) (addf (ksumB (V (Proc.devRef .tc main_v9_1))) (constant S_ .f32 0x322BCC77#32)))) := by
  after_results
  try rfl

/-- THE RESULT, for any float values: the tail of the four regions' output arrays, each summed and divided by 1024 —
    the first region's two as it left them, the second region's two as it left them. -/
theorem W5_v19_tailK (c : Dev nD) : W5 m ρ c (Proc.devRef .tc main_v19)
    = tailK (ksumA (W2 m ρ c (Proc.devRef .tc main_v2_0))) (ksumA (W2 m ρ c (Proc.devRef .tc main_v2_1)))
        (ksumB (W4 m ρ c (Proc.devRef .tc main_v9_0))) (ksumB (W4 m ρ c (Proc.devRef .tc main_v9_1))) := by
  have h5 : W4 m ρ c (Proc.devRef .tc main_v5)
      = Host.divf (ksumA (W2 m ρ c (Proc.devRef .tc main_v2_0))) (constant S_ .f32 0x4B900000#32) :=
    (W4_of_ne m ρ c main_v5 (by decide)).trans (after1_v5 (W2 m ρ c))
  have h8 : W4 m ρ c (Proc.devRef .tc main_v8)
      = Host.divf (ksumA (W2 m ρ c (Proc.devRef .tc main_v2_1))) (constant S_ .f32 0x4B8FEE00#32) :=
    (W4_of_ne m ρ c main_v8 (by decide)).trans (after1_v8 (W2 m ρ c))
  refine (after2_v19 (W4 m ρ c)).trans ?_
  rw [h5, h8]
  rfl

end Generic

/-! ## At the ideal values: the reference's own tail -/

/-- The kernel program's tail at the ideal values IS the reference's (the two programs' scalar shapes and constant
    words coincide). -/
theorem tailK_eq_tail (x0 x1 x2 x3 : FVec Ideal S_ .f32) :
    tailK (F := Ideal) x0 x1 x2 x3 = Cert.ReferenceIdeal.HandRun.tail x0 x1 x2 x3 := rfl

/-- THE RESULT at the ideal values, under the reference's tail. -/
theorem W5_v19 (m : (ℓ : Loc nD τ sig) → Buf (Elt Ideal) ℓ) (ρ : Dev nD → PrngReg) (c : Dev nD) :
    W5 (F := Ideal) m ρ c (Proc.devRef .tc main_v19)
      = Cert.ReferenceIdeal.HandRun.tail (ksumA (F := Ideal) (W2 m ρ c (Proc.devRef .tc main_v2_0))) (ksumA (F := Ideal) (W2 m ρ c (Proc.devRef .tc main_v2_1)))
          (ksumB (F := Ideal) (W4 m ρ c (Proc.devRef .tc main_v9_0))) (ksumB (F := Ideal) (W4 m ρ c (Proc.devRef .tc main_v9_1))) :=
  W5_v19_tailK m ρ c

end Cert.Kernel.HandRun

end
-- ==== Proof.KIRegion0.lean ====
import proofs.«177773_j59631325938492_2_alg».proof.Proof.Gen.KernelIdeal.Launch
import proofs.«177773_j59631325938492_2_alg».proof.Proof.Gen.KernelIdeal.Skeleton
import proofs.«177773_j59631325938492_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first pallas_call (`cc0__recon_vel_kernel`) as a pipeline body, at any float model

At each of the 8 grid points the body reads the two input blocks whole, and overwrites each of the two
output blocks whole: the first with the sum over the block of the squared difference of the inputs, the
second with the sum over the block of the squared forward difference (along the last axis) of that
difference, each broadcast over the `[8,128]` block. The proof data below records, per point, the input
blocks as the arrays hold them and the output blocks as these functions of the input blocks; the body
obligation is the Hoare triple of the body against that data. Everything is stated at a parameter `V`:
the TensorCore's buffer contents when the region is entered. -/

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place: the window is fetched whole at every point
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole `[8,144,2048]` input block, as the body's loads spell it. -/
abbrev r_in : Rect S8x144x2048 := Rect.unit (s := S8x144x2048) ![0, 0, 0] S8x144x2048.size inb_S8x144x2048_S8x144x2048_0_0_0
/-- The whole `[8,128]` output block, as the body's stores spell it. -/
abbrev r_out : Rect S8x128 := Rect.unit (s := S8x128) ![0, 0] S8x128.size inb_S8x128_S8x128_0_0

/-! ## What the body leaves in each output window's buffer -/

/-- Window 2's staging buffer after the body, from the input windows' blocks: its one store as a piece. -/
def out0_2 (x0 x1 : Vec F S8x144x2048 .f32) : Vec F S8x128 .f32 :=
  View.canon [⟨r_out, k0_pay2 (View.ld x0 r_in) (View.ld x1 r_in)⟩]

/-- Window 3's staging buffer after the body, from the input windows' blocks: its one store as a piece. -/
def out0_3 (x0 x1 : Vec F S8x144x2048 .f32) : Vec F S8x128 .f32 :=
  View.canon [⟨r_out, k0_pay3 (View.ld x0 r_in) (View.ld x1 r_in)⟩]

/-- The one store covers the output buffer. -/
theorem cover0_out (p0 : Vec F S8x128 .f32) (y : S8x128.Idx) :
    ∃ pc ∈ ([⟨r_out, p0⟩] : List (View.Piece (Elt F) S8x128 .f32)), y ∈ pc.1.set :=
  View.cover_of_tiled [⟨r_out, p0⟩] S8x128.size (by rfl) y

/-! ## The body's triple -/

set_option maxHeartbeats 1000000 in
/-- The kernel body on whole staging memrefs, the inputs' at read contents `x0`, `x1` and the outputs' at anything,
    runs to the continuation holding the inputs' as they were and each output's at `out0_W` of the inputs'. -/
theorem sound_kernel0 (c : Dev nD) (E : Set ℕ) (i : grid0.Coords)
    (arg1 : Memref sig .tc .vmem S8x144x2048 .f32) (harg1 : arg1.IsWhole)
    (arg2 : Memref sig .tc .vmem S8x144x2048 .f32) (harg2 : arg2.IsWhole)
    (arg3 : Memref sig .tc .vmem S8x128 .f32) (harg3 : arg3.IsWhole)
    (arg4 : Memref sig .tc .vmem S8x128 .f32) (harg4 : arg4.IsWhole)
    (x0 x1 : Vec F S8x144x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__recon_vel_kernel i arg1 harg1 arg2 harg2 arg3 harg3 arg4 harg4) K := by
  simp only [cc0__recon_vel_kernel_eq_skeleton]; unfold cc0__recon_vel_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  iexists _; isplitr
  swap; · iexact H3
  ipureintro
  exact View.read_writes_eq_canon _ _ _ (cover0_out _)

/-! ## The pipeline's proof data -/

/-- The proof data of the pipeline on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.KIRuns1.lean ====
/-
  The second kernel region (the foot-contact kernel), first half: the kernel body run once per control case.

  The body is called on a 4 x 4 grid (row block i, joint f). It keeps two running totals in two scratch tiles of
  shape [8,128]: at f = 0 it clears both, at every f it adds the block's loss sum to the first and the block's
  contact-weight sum to the second (each sum broadcast over the tile), and at f = 3 it copies the two totals into
  the two output tiles. So a point falls in one of three cases, by the two conditions "f = 0" and "f = 3":
  first (clear, add), middle (add), last (add, copy out). Each case is run once, on arbitrary whole staging
  buffers; what each run leaves in the scratch tiles and the output tiles is recorded as the list of its stores.
-/
import proofs.«177773_j59631325938492_2_alg».proof.Proof.Gen.KernelIdeal.Launch
import proofs.«177773_j59631325938492_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, as functions of the grid point -/

/-- "f = 0": the condition under which the body clears the two running totals. -/
abbrev cond1_0 (i : grid1.Coords) : Prop := (Scalar.cmpi .ne (Scalar.extui (Scalar.cmpi .eq (BitVec.ofNat 32 (i 1).val) 0#32)) 0#32) = 1#1
/-- It holds at the points whose number is 0 modulo 4. -/
theorem hcond1_0 : ∀ t : Fin grid1.N, cond1_0 (grid1.coords t) ↔ t.val % 4 = 0 :=
  (by decide +kernel : ∀ t : Fin grid1.N, cond1_0 (grid1.coords t) ↔ t.val % 4 = 0)

/-- "f = 3": the condition under which the body copies the totals out. -/
abbrev cond1_1 (i : grid1.Coords) : Prop := k1_cond2 i = 1#1
/-- It holds at the points whose number is 3 modulo 4. -/
theorem hcond1_1 : ∀ t : Fin grid1.N, cond1_1 (grid1.coords t) ↔ t.val % 4 = 3 :=
  (by decide +kernel : ∀ t : Fin grid1.N, cond1_1 (grid1.coords t) ↔ t.val % 4 = 3)

/-! ## The body, case by case -/

set_option maxHeartbeats 4000000 in
/-- First case (f = 0): both totals are cleared, then the block's two sums are added. The input block is held at
    `x0` and handed back; the two output tiles are not touched; the two scratch tiles, held at anything, end
    with the recorded stores written. -/
noncomputable def kernelRun1_A (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i)
    (x0 : Vec F S16x1x3x2048 .f32) :
    Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__foot_kernel i arg2 harg2 arg3 harg3 arg4 harg4 arg5 harg5 arg6 harg6 arg7 harg7) K } := by
  refine ⟨?_, ?_, fun xi1 xi2 E K => ?run⟩
  case run =>
    simp only [cc1__foot_kernel_eq_skeleton]; unfold cc1__foot_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

set_option maxHeartbeats 4000000 in
/-- Middle case (0 < f < 3): the block's two sums are added to the totals the point before left (`xs0`, `xs1`);
    the output tiles are not touched. -/
noncomputable def kernelRun1_B (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i)
    (x0 : Vec F S16x1x3x2048 .f32) (xs0 xs1 : Vec F S8x128 .f32) :
    Σ' (LS0 : List (View.Piece (Elt F) S8x128 .f32)), { LS1 : List (View.Piece (Elt F) S8x128 .f32) //
      ∀ (xi1 xi2 : Vec F S8x128 .f32) (E : Set ℕ) (K : PUnit → sProp 𝕄),
        iprop(owns (c : Thread nD τ) arg3 fullShare x0 ∗ owns (c : Thread nD τ) arg4 fullShare xi1 ∗ owns (c : Thread nD τ) arg5 fullShare xi2
            ∗ owns (c : Thread nD τ) arg6 fullShare xs0 ∗ owns (c : Thread nD τ) arg7 fullShare xs1
            ∗ (iprop(owns (c : Thread nD τ) arg3 fullShare x0 ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__foot_kernel i arg2 harg2 arg3 harg3 arg4 harg4 arg5 harg5 arg6 harg6 arg7 harg7) K } := by
  refine ⟨?_, ?_, fun xi1 xi2 E K => ?run⟩
  case run =>
    simp only [cc1__foot_kernel_eq_skeleton]; unfold cc1__foot_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]
    · iexists _; iexact HS0
    iexists _; iexact HS1

set_option maxHeartbeats 4000000 in
/-- Last case (f = 3): the block's two sums are added to the totals the point before left, and the two totals are
    copied into the two output tiles, held at anything before. -/
noncomputable def kernelRun1_C (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i)
    (x0 : Vec F S16x1x3x2048 .f32) (xs0 xs1 : Vec F S8x128 .f32) :
    Σ' (L1 : List (View.Piece (Elt F) S8x128 .f32)) (L2 : List (View.Piece (Elt F) S8x128 .f32)) (LS0 : List (View.Piece (Elt F) S8x128 .f32)),
      { LS1 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg3 fullShare x0
                ∗ (∃ f, arg4.view.loc (c : Thread nD τ) ↦[arg4.view.set]{fullShare} arg4.view.writes (Elt F) f L1)
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__foot_kernel i arg2 harg2 arg3 harg3 arg4 harg4 arg5 harg5 arg6 harg6 arg7 harg7) K } := by
  refine ⟨?_, ?_, ?_, ?_, fun E K => ?run⟩
  case run =>
    simp only [cc1__foot_kernel_eq_skeleton]; unfold cc1__foot_kernel_skel
    simp only [k1_part1_eq_skeleton]; unfold k1_part1_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0
    obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; iexact H1
    isplitl [H2]
    · iexists _; iexact H2
    isplitl [HS0]
    · iexists _; iexact HS0
    iexists _; iexact HS1

end Cert.KernelIdeal.Hand1

end
-- ==== Proof.KIRegion1.lean ====
/-
  The second kernel region (the foot-contact kernel), second half: the running totals point by point, the invariant
  that carries them between points, and the body's obligation at every point of the 4 x 4 grid.

  Points are numbered t = 4 i + f. The two scratch tiles hold, after point t, the sums over joints 0..f of row block
  i's loss and contact weight (each broadcast over the tile): cleared and restarted at f = 0, continued for
  f = 1, 2, 3. The two output tiles are written only at f = 3, where they receive the two totals; at the other
  points they are handed back as found and are not written back to their arrays.
-/
import proofs.«177773_j59631325938492_2_alg».proof.Proof.KIRuns1

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the joint table's contents at which the region runs, admissible for the pipeline
variable (a : (pcfg1 (F := F)).Adm)
-- the TensorCore's buffer contents when the region is entered
variable (V : (c : Dev nD) → (b : Ref sig .tc) → Buf (Elt F) ((c : Thread nD τ).loc b))

/-- The grid has sixteen points whatever the table holds. -/
theorem N_1a : (cfg1 a).N = 16 := N_1

/-! ## The windows' blocks and the staging memrefs -/

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The input window's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body. -/
abbrev ms1_0 (t : Fin (cfg1 a).N) : Memref sig .tc .vmem S16x1x3x2048 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S8x128 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S8x128 .f32 := spec1_2.stage ((cfg1 a).slots t 2)
abbrev hs1_2 (t : Fin (cfg1 a).N) : (ms1_2 a t).IsWhole := hstage1_2 (((cfg1 a).slots t 2).cast nbuf1_2)
/-- The two scratch tiles: whole scoped buffers of the kernel's own. -/
abbrev scM1_0 : Memref sig .tc .vmem S8x128 .f32 := Memref.whole cc1_scratch0
abbrev scM1_1 : Memref sig .tc .vmem S8x128 .f32 := Memref.whole cc1_scratch1
/-- A tile's view through which a list of stores is read back (which tile does not matter for stores that cover it). -/
abbrev VT : View sig .tc .vmem S8x128 .f32 := scM1_0.view
/-- A list of stores into a tile, read back as the tile's contents. -/
def rb (L : List (View.Piece (Elt F) S8x128 .f32)) : Vec F S8x128 .f32 := VT.read (Elt F) (VT.writes (Elt F) VT.junk L)

/-- The body at point `t`, on what the pipeline calls it with. -/
abbrev bodyAt1 (t : Fin (cfg1 a).N) : Prog (TpuEff nD τ sig (Elt F) Λ₀ .tc) PUnit :=
  cc1__foot_kernel (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _)

/-! ## Where the output windows are idle and where they are written back -/

theorem liveAt1_0 : ∀ t : Fin (cfg1 a).N, (cfg1 a).idle 0 ((cfg1 a).grid.coords t) = false := fun _ => rfl
theorem idleAt1_1 (t : Fin (cfg1 a).N) (h : ¬cond1_1 (grid1.coords t)) : (cfg1 a).idle 1 ((cfg1 a).grid.coords t) = true := by
  show (!(k1_cond2 (grid1.coords t) == 1#1)) = true
  simp only [Bool.not_eq_true', beq_eq_false_iff_ne, ne_eq]; exact h
theorem idleAt1_2 (t : Fin (cfg1 a).N) (h : ¬cond1_1 (grid1.coords t)) : (cfg1 a).idle 2 ((cfg1 a).grid.coords t) = true := by
  show (!(k1_cond2 (grid1.coords t) == 1#1)) = true
  simp only [Bool.not_eq_true', beq_eq_false_iff_ne, ne_eq]; exact h
theorem liveAt1_1 (t : Fin (cfg1 a).N) (h : cond1_1 (grid1.coords t)) : (cfg1 a).idle 1 ((cfg1 a).grid.coords t) = false := by
  show (!(k1_cond2 (grid1.coords t) == 1#1)) = false
  simp only [Bool.not_eq_false', beq_iff_eq]; exact h
theorem liveAt1_2 (t : Fin (cfg1 a).N) (h : cond1_1 (grid1.coords t)) : (cfg1 a).idle 2 ((cfg1 a).grid.coords t) = false := by
  show (!(k1_cond2 (grid1.coords t) == 1#1)) = false
  simp only [Bool.not_eq_false', beq_iff_eq]; exact h
/-- An output tile's block index is the row block i alone: between two points of one row block it does not move, and
    no such point is the grid's last (decided over the sixteen points). -/
theorem idx1_1_step : ∀ t : Fin grid1.N, ¬t.val % 4 = 3 → (t.val + 1 ≠ grid1.N ∧ ∀ h : t.val + 1 < grid1.N, cc1_transform_1 (grid1.coords ⟨t.val + 1, h⟩) = cc1_transform_1 (grid1.coords t)) := by
  decide +kernel
theorem idx1_2_step : ∀ t : Fin grid1.N, ¬t.val % 4 = 3 → (t.val + 1 ≠ grid1.N ∧ ∀ h : t.val + 1 < grid1.N, cc1_transform_2 (grid1.coords ⟨t.val + 1, h⟩) = cc1_transform_2 (grid1.coords t)) := by
  decide +kernel
/-- So the tile is not written back there: only at f = 3. -/
theorem noFlush1_1 (t : Fin (cfg1 a).N) (h : ¬t.val % 4 = 3) : ((cfg1 a).win 1).flush t = false := by
  have hst := idx1_1_step ⟨t.val, t.isLt⟩ h
  rw [Bool.eq_false_iff]; intro hf
  unfold Pipeline.Window.flush at hf
  simp only [Bool.and_eq_true, Bool.or_eq_true, decide_eq_true_eq] at hf
  obtain ⟨-, hN | ⟨hlt, hne⟩⟩ := hf
  · exact hst.1 hN
  · exact hne (hst.2 hlt)
theorem noFlush1_2 (t : Fin (cfg1 a).N) (h : ¬t.val % 4 = 3) : ((cfg1 a).win 2).flush t = false := by
  have hst := idx1_2_step ⟨t.val, t.isLt⟩ h
  rw [Bool.eq_false_iff]; intro hf
  unfold Pipeline.Window.flush at hf
  simp only [Bool.and_eq_true, Bool.or_eq_true, decide_eq_true_eq] at hf
  obtain ⟨-, hN | ⟨hlt, hne⟩⟩ := hf
  · exact hst.1 hN
  · exact hne (hst.2 hlt)

/-! ## What each case leaves -/

theorem scover1_A_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i) (x0 : Vec F S16x1x3x2048 .f32) (y : S8x128.Idx) :
    ∃ pc ∈ (kernelRun1_A c i arg2 harg2 arg3 harg3 arg4 harg4 arg5 harg5 arg6 harg6 arg7 harg7 hc0 hc1 x0).1, y ∈ pc.1.set :=
  View.cover_of_tiledL _ S8x128.size (by sl_kernel_rfl) y
theorem scover1_A_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i) (x0 : Vec F S16x1x3x2048 .f32) (y : S8x128.Idx) :
    ∃ pc ∈ (kernelRun1_A c i arg2 harg2 arg3 harg3 arg4 harg4 arg5 harg5 arg6 harg6 arg7 harg7 hc0 hc1 x0).2.1, y ∈ pc.1.set :=
  View.cover_of_tiledL _ S8x128.size (by sl_kernel_rfl) y
theorem scover1_B_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i) (x0 : Vec F S16x1x3x2048 .f32) (xs0 xs1 : Vec F S8x128 .f32) (y : S8x128.Idx) :
    ∃ pc ∈ (kernelRun1_B c i arg2 harg2 arg3 harg3 arg4 harg4 arg5 harg5 arg6 harg6 arg7 harg7 hc0 hc1 x0 xs0 xs1).1, y ∈ pc.1.set :=
  View.cover_of_tiledL _ S8x128.size (by sl_kernel_rfl) y
theorem scover1_B_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i) (x0 : Vec F S16x1x3x2048 .f32) (xs0 xs1 : Vec F S8x128 .f32) (y : S8x128.Idx) :
    ∃ pc ∈ (kernelRun1_B c i arg2 harg2 arg3 harg3 arg4 harg4 arg5 harg5 arg6 harg6 arg7 harg7 hc0 hc1 x0 xs0 xs1).2.1, y ∈ pc.1.set :=
  View.cover_of_tiledL _ S8x128.size (by sl_kernel_rfl) y
theorem cover1_C_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).1, y ∈ pc.1.set :=
  View.cover_of_tiledL _ S8x128.size (by sl_kernel_rfl) y
theorem cover1_C_2 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).2.1, y ∈ pc.1.set :=
  View.cover_of_tiledL _ S8x128.size (by sl_kernel_rfl) y
theorem scover1_C_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).2.2.1, y ∈ pc.1.set :=
  View.cover_of_tiledL _ S8x128.size (by sl_kernel_rfl) y
theorem scover1_C_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) (y : S8x128.Idx) :
    ∃ pc ∈ (kernelRun1_C c i arg2 harg2 arg3 harg3 arg4 harg4 arg5 harg5 arg6 harg6 arg7 harg7 hc0 hc1 x0 xs0 xs1).2.2.2.1, y ∈ pc.1.set :=
  View.cover_of_tiledL _ S8x128.size (by sl_kernel_rfl) y

/-- The contents of (output tile 1, output tile 2, scratch tile 1, scratch tile 2) after a point. -/
abbrev Tiles (F : FTy → Type) [FloatOps F] : Type := Vec F S8x128 .f32 × Vec F S8x128 .f32 × Vec F S8x128 .f32 × Vec F S8x128 .f32

/-- First case at point `t`: the outputs untouched (a placeholder nothing reads), the scratch tiles at the case's stores. -/
def tilesA (c : Dev nD) (t : Fin (cfg1 a).N) (h0 : cond1_0 (grid1.coords t)) (h1 : ¬cond1_1 (grid1.coords t)) : Tiles F :=
  (rb [], rb [],
   rb (kernelRun1_A c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t)).1,
   rb (kernelRun1_A c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t)).2.1)
/-- Middle case at point `t`, over the scratch tiles' contents `p` the point before left. -/
def tilesB (c : Dev nD) (t : Fin (cfg1 a).N) (h0 : ¬cond1_0 (grid1.coords t)) (h1 : ¬cond1_1 (grid1.coords t)) (p : Tiles F) : Tiles F :=
  (rb [], rb [],
   rb (kernelRun1_B c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).1,
   rb (kernelRun1_B c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.1)
/-- Last case at point `t`, over the scratch tiles' contents `p` the point before left. -/
def tilesC (c : Dev nD) (t : Fin (cfg1 a).N) (h0 : ¬cond1_0 (grid1.coords t)) (h1 : cond1_1 (grid1.coords t)) (p : Tiles F) : Tiles F :=
  (rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).1,
   rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.1,
   rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.2.1,
   rb (kernelRun1_C c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).2.2.2.1)

/-! ## The accumulation, point by point -/

/-- What the four tiles hold after the body at position `n`: the case the conditions select there, the middle and
    last cases over what the position before left. -/
def outsAt1 (c : Dev nD) : (n : ℕ) → n < (cfg1 a).N → Tiles F
  | 0, hn => tilesA a V c ⟨0, hn⟩ ((hcond1_0 ⟨0, hn⟩).mpr (Nat.zero_mod _)) (fun h => by have := (hcond1_1 ⟨0, hn⟩).mp h; dsimp only at this; omega)
  | n + 1, hn =>
    if h0 : (n + 1) % 4 = 0 then
      tilesA a V c ⟨n + 1, hn⟩ ((hcond1_0 ⟨n + 1, hn⟩).mpr h0) (fun h => by have := (hcond1_1 ⟨n + 1, hn⟩).mp h; dsimp only at this; omega)
    else
      if h1 : (n + 1) % 4 = 3 then
        tilesC a V c ⟨n + 1, hn⟩ (fun h => h0 ((hcond1_0 ⟨n + 1, hn⟩).mp h)) ((hcond1_1 ⟨n + 1, hn⟩).mpr h1) (outsAt1 c n (Nat.lt_of_succ_lt hn))
      else
        tilesB a V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin (cfg1 a).N) (h0 : t.val % 4 = 0) :
    outsAt1 a V c t.val t.isLt = tilesA a V c t ((hcond1_0 t).mpr h0) (fun h => by have := (hcond1_1 t).mp h; omega) := by
  obtain ⟨n, hn⟩ := t
  cases n with
  | zero => rfl
  | succ n => exact (dif_pos h0).trans rfl
theorem outsAt1_B (c : Dev nD) (t : Fin (cfg1 a).N) (h0 : ¬t.val % 4 = 0) (h1 : ¬t.val % 4 = 3) :
    outsAt1 a V c t.val t.isLt = tilesB a V c t (fun h => h0 ((hcond1_0 t).mp h)) (fun h => h1 ((hcond1_1 t).mp h))
      (outsAt1 a V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem outsAt1_C (c : Dev nD) (t : Fin (cfg1 a).N) (h0 : ¬t.val % 4 = 0) (h1 : t.val % 4 = 3) :
    outsAt1 a V c t.val t.isLt = tilesC a V c t (fun h => h0 ((hcond1_0 t).mp h)) ((hcond1_1 t).mpr h1)
      (outsAt1 a V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant carrying the two scratch tiles -/

/-- The core's scoped buffers that are neither a staging buffer of this region nor one of its two scratch tiles: the
    other region's eight staging buffers, each whole at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- Before position `n`: at the start, the scoped rest at anything and the generator register; afterwards the same
    with the two scratch tiles at what the position before left. -/
def PhiS (c : Dev nD) : (n : ℕ) → n ≤ (cfg1 a).N → sProp 𝕄
  | 0, _ => Pipeline.ΦA spec1 c
  | n + 1, hn => iprop(otherScoped c ∗ owns (c : Thread nD τ) scM1_0 fullShare (outsAt1 a V c n hn).2.2.1
      ∗ owns (c : Thread nD τ) scM1_1 fullShare (outsAt1 a V c n hn).2.2.2 ∗ (∃ r, prngReg c r))

theorem PhiS_zero (c : Dev nD) (n : ℕ) (h : n ≤ (cfg1 a).N) (hz : n = 0) : PhiS a V c n h = Pipeline.ΦA spec1 c := by
  subst hz; rfl
theorem PhiS_succ (c : Dev nD) (n : ℕ) (hn : n < (cfg1 a).N) :
    PhiS a V c (n + 1) hn = iprop(otherScoped c ∗ owns (c : Thread nD τ) scM1_0 fullShare (outsAt1 a V c n hn).2.2.1
      ∗ owns (c : Thread nD τ) scM1_1 fullShare (outsAt1 a V c n hn).2.2.2 ∗ (∃ r, prngReg c r)) := rfl
theorem PhiS_pos (c : Dev nD) (n : ℕ) (h : n ≤ (cfg1 a).N) (hz : n ≠ 0) :
    PhiS a V c n h = iprop(otherScoped c ∗ owns (c : Thread nD τ) scM1_0 fullShare (outsAt1 a V c (n - 1) (by omega)).2.2.1
      ∗ owns (c : Thread nD τ) scM1_1 fullShare (outsAt1 a V c (n - 1) (by omega)).2.2.2 ∗ (∃ r, prngReg c r)) := by
  cases n with
  | zero => exact absurd rfl hz
  | succ n => rfl

/-- The start-of-region invariant with the two scratch tiles named: the other region's staging buffers, the two
    tiles at anything, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The proof data -/

/-- The region's proof data on core `c`: the arrays as the region finds them; after the body at point `t` the input's
    buffer at its block and the output tiles at the accumulation's; the invariant carrying the scratch tiles;
    nothing owed; full shares. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => (outsAt1 a V c t.val t.isLt).1
    | ⟨2, _⟩ => (outsAt1 a V c t.val t.isLt).2.1
  Φ t := iprop(PhiS a V c t.val (Nat.le_of_lt_succ t.isLt) ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 a V c).A w = V c (Pipeline.arrRef spec1 w) := by
  dsimp only [dat1]
theorem after1_0 (c : Dev nD) (t : Fin (cfg1 a).N) : (dat1 a V c).after 0 t = iblk1 a V c 0 t := by dsimp only [dat1]; rfl
theorem after1_1 (c : Dev nD) (t : Fin (cfg1 a).N) : (dat1 a V c).after 1 t = (outsAt1 a V c t.val t.isLt).1 := by dsimp only [dat1]; rfl
theorem after1_2 (c : Dev nD) (t : Fin (cfg1 a).N) : (dat1 a V c).after 2 t = (outsAt1 a V c t.val t.isLt).2.1 := by dsimp only [dat1]; rfl
theorem before1_0 (c : Dev nD) (t : Fin (cfg1 a).N) (d) : (dat1 a V c).before 0 t d = iblk1 a V c 0 t :=
  before1_0_of a V (dat1 a V c) (A_eq1 a V c 0) (after1_0 a V c) t d

/-! ## The body obligation, at a generic point -/

/-- What the body is called with at point `t`, the windows one by one, -/
def bodyPre1 (c : Dev nD) (t : Fin (cfg1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d)))

/-- and what it returns. -/
def bodyPost1 (c : Dev nD) (t : Fin (cfg1 a).N) : sProp 𝕄 :=
  iprop((dat1 a V c).Φ t.succ ∗ (dat1 a V c).owesAt () t.succ
    ∗ (dat1 a V c).leavesExact 0 t
    ∗ (dat1 a V c).leavesExact 1 t
    ∗ (dat1 a V c).leavesExact 2 t)

theorem Phi_castSucc (c : Dev nD) (t : Fin (cfg1 a).N) :
    (dat1 a V c).Φ t.castSucc = iprop(PhiS a V c t.val (Nat.le_of_lt t.isLt) ∗ Pipeline.prefHeld (Ix := Unit) (Name := ℕ) (U := UR sig nD τ) (Lvl := ℕ) pre1 c (fun _ => fullShare) a.1) := by
  dsimp only [dat1]; simp only [Fin.coe_castSucc]
theorem Phi_succ (c : Dev nD) (t : Fin (cfg1 a).N) :
    (dat1 a V c).Φ t.succ = iprop(PhiS a V c (t.val + 1) t.isLt ∗ Pipeline.prefHeld (Ix := Unit) (Name := ℕ) (U := UR sig nD τ) (Lvl := ℕ) pre1 c (fun _ => fullShare) a.1) := rfl

set_option maxHeartbeats 4800000 in
/-- The body at any point. The input's memref holds its block; the point's number modulo 4 says which case it is in;
    the invariant hands the body the two scratch tiles at what the point before left (at anything at the first point)
    and takes them back at this point's contents, the stores of each case covering the tile; an output tile is handed
    back as found except at f = 3, where it receives the case's stores; the table and the rest pass through unread. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [before1_0]
  rw [show (dat1 a V c).owesAt () t.succ = (dat1 a V c).owesAt () t.castSucc from rfl]
  rw [Phi_succ, PhiS_succ, Phi_castSucc]
  have hN : t.val < 16 := lt_of_lt_of_eq t.isLt (N_1a a)
  rw [show (dat1 a V c).leavesExact 0 t = owns (c : Thread nD τ) (ms1_0 a t) fullShare ((dat1 a V c).after 0 t) from by
    unfold Dat.leavesExact; rw [liveAt1_0 a t]; rfl]
  rw [after1_0]
  by_cases h0 : t.val % 4 = 0
  · have hc1 : ¬cond1_1 (grid1.coords t) := fun h => by have := (hcond1_1 t).mp h; omega
    rw [Dat.leavesExact_idle (dat1 a V c) 1 t (idleAt1_1 a t hc1) (noFlush1_1 a t (by omega)),
      Dat.leavesExact_idle (dat1 a V c) 2 t (idleAt1_2 a t hc1) (noFlush1_2 a t (by omega))]
    rw [outsAt1_A a V c t h0]
    unfold tilesA; dsimp only
    by_cases hz : t.val = 0
    · rw [PhiS_zero a V c _ _ hz, PhiA1_eq]
      iintro ⟨⟨⟨⟨A1, A2, A3, A4, A5, A6, A7, A8, HS0, HS1⟩, Hg⟩, HT⟩, Ho, ⟨%d0, H0⟩, ⟨%d1, H1⟩, ⟨%d2, H2⟩⟩
      iapply ((kernelRun1_A c (grid1.coords t) _ _ _ _ _ _ _ _ _ _ _ _ ((hcond1_0 t).mpr h0) hc1 (iblk1 a V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [A1 A2 A3 A4 A5 A6 A7 A8 HS0 HS1 Hg HT]
      · isplitr [HT]
        swap; · iexact HT
        isplitl [A1 A2 A3 A4 A5 A6 A7 A8]
        · unfold otherScoped
          isplitl [A1]; · iexact A1
          isplitl [A2]; · iexact A2
          isplitl [A3]; · iexact A3
          isplitl [A4]; · iexact A4
          isplitl [A5]; · iexact A5
          isplitl [A6]; · iexact A6
          isplitl [A7]; · iexact A7
          iexact A8
        isplitl [HS0]
        · unfold owns; iexists _; isplitr
          swap; · iexact HS0
          ipureintro; exact View.read_writes_of_cover _ _ _ _ _ (scover1_A_0 c _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _)
        iexact Hg
      isplitl [Ho]; · iexact Ho
      isplitl [H0]; · iexact H0
      isplitl [H1]; · iexists _; iexact H1
      iexists _; iexact H2
    · rw [PhiS_pos a V c _ _ hz]
      iintro ⟨⟨⟨HR, HS0, HS1, Hg⟩, HT⟩, Ho, ⟨%d0, H0⟩, ⟨%d1, H1⟩, ⟨%d2, H2⟩⟩
      iapply ((kernelRun1_A c (grid1.coords t) _ _ _ _ _ _ _ _ _ _ _ _ ((hcond1_0 t).mpr h0) hc1 (iblk1 a V c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HR HS0 HS1 Hg HT]
      · isplitr [HT]
        swap; · iexact HT
        isplitl [HR]; · iexact HR
        isplitl [HS0]
        · unfold owns; iexists _; isplitr
          swap; · iexact HS0
          ipureintro; exact View.read_writes_of_cover _ _ _ _ _ (scover1_A_0 c _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _)
        iexact Hg
      isplitl [Ho]; · iexact Ho
      isplitl [H0]; · iexact H0
      isplitl [H1]; · iexists _; iexact H1
      iexists _; iexact H2
  · have hc0 : ¬cond1_0 (grid1.coords t) := fun h => h0 ((hcond1_0 t).mp h)
    have hz : t.val ≠ 0 := fun h => h0 (by rw [h])
    rw [PhiS_pos a V c _ _ hz]
    by_cases h1 : t.val % 4 = 3
    · have hc1 : cond1_1 (grid1.coords t) := (hcond1_1 t).mpr h1
      rw [show (dat1 a V c).leavesExact 1 t = owns (c : Thread nD τ) (ms1_1 a t) fullShare ((dat1 a V c).after 1 t) from by
      unfold Dat.leavesExact; rw [liveAt1_1 a t hc1]; rfl]
      rw [show (dat1 a V c).leavesExact 2 t = owns (c : Thread nD τ) (ms1_2 a t) fullShare ((dat1 a V c).after 2 t) from by
      unfold Dat.leavesExact; rw [liveAt1_2 a t hc1]; rfl]
      rw [after1_1, after1_2, outsAt1_C a V c t h0 h1]
      unfold tilesC; dsimp only
      iintro ⟨⟨⟨HR, HS0, HS1, Hg⟩, HT⟩, Ho, ⟨%d0, H0⟩, ⟨%d1, H1⟩, ⟨%d2, H2⟩⟩
      iapply ((kernelRun1_C c (grid1.coords t) _ _ _ _ _ _ _ _ _ _ _ _ hc0 hc1 (iblk1 a V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HR HS0 HS1 Hg HT]
      · isplitr [HT]
        swap; · iexact HT
        isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _ _ _)
    · have hc1 : ¬cond1_1 (grid1.coords t) := fun h => h1 ((hcond1_1 t).mp h)
      rw [Dat.leavesExact_idle (dat1 a V c) 1 t (idleAt1_1 a t hc1) (noFlush1_1 a t h1),
        Dat.leavesExact_idle (dat1 a V c) 2 t (idleAt1_2 a t hc1) (noFlush1_2 a t h1)]
      rw [outsAt1_B a V c t h0 h1]
      unfold tilesB; dsimp only
      iintro ⟨⟨⟨HR, HS0, HS1, Hg⟩, HT⟩, Ho, ⟨%d0, H0⟩, ⟨%d1, H1⟩, ⟨%d2, H2⟩⟩
      iapply ((kernelRun1_B c (grid1.coords t) _ _ _ _ _ _ _ _ _ _ _ _ hc0 hc1 (iblk1 a V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg HT]
      · isplitr [HT]
        swap; · iexact HT
        isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) a V c) (defs₀ (F := F)) Variants.none () Set.univ := fun t => by
  rw [bigSep_W1, bigSep_W1]
  exact sound_body1 a V c t

/-! ## The invariant at the region's two ends -/

/-- What the region is entered with (the scoped rest at anything, the generator register, the table) is the invariant
    before the first point. -/
theorem Phi_in (c : Dev nD) : iprop(Pipeline.ΦA spec1 c ∗ Pipeline.prefHeld (Ix := Unit) (Name := ℕ) (U := UR sig nD τ) (Lvl := ℕ) pre1 c (fun _ => fullShare) a.1) ⊢ (dat1 a V c).Φ 0 := by
  rw [show (dat1 a V c).Φ 0 = iprop(PhiS a V c 0 (Nat.zero_le _) ∗ Pipeline.prefHeld (Ix := Unit) (Name := ℕ) (U := UR sig nD τ) (Lvl := ℕ) pre1 c (fun _ => fullShare) a.1) from rfl, PhiS_zero a V c 0 _ rfl]
  try exact Idealize.SL.BI.Entails.refl _

/-- After the last point the invariant gives the same back: the scratch tiles' named contents are forgotten. -/
theorem Phi_out (c : Dev nD) : (dat1 a V c).Φ (Fin.last (cfg1 a).N) ⊢ iprop(Pipeline.ΦA spec1 c ∗ Pipeline.prefHeld (Ix := Unit) (Name := ℕ) (U := UR sig nD τ) (Lvl := ℕ) pre1 c (fun _ => fullShare) a.1) := by
  rw [show (dat1 a V c).Φ (Fin.last (cfg1 a).N) = iprop(PhiS a V c (cfg1 a).N (Nat.le_refl _) ∗ Pipeline.prefHeld (Ix := Unit) (Name := ℕ) (U := UR sig nD τ) (Lvl := ℕ) pre1 c (fun _ => fullShare) a.1) from rfl,
    PhiS_pos a V c _ _ (by rw [N_1a a]; decide), PhiA1_eq]
  unfold otherScoped
  iintro ⟨⟨⟨A1, A2, A3, A4, A5, A6, A7, A8⟩, HS0, HS1, Hg⟩, HT⟩
  isplitr [HT]
  swap; · iexact HT
  isplitr [Hg]
  swap; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [HS0]; · iexists _; iexact HS0
  iexists _; iexact HS1

end Cert.KernelIdeal.Hand1

end
-- ==== Proof.KIRun.lean ====
/-
  The whole program's run: @main as five segments (host operations, the first kernel region, host operations, the
  second kernel region, host operations), each entered from what the one before it left.

  Between two segments every unscoped buffer of the core is held at known contents: the launch memory, then each host
  stretch applied to it, then — after a region — the region's arrays at what its write-backs leave and every other
  buffer as the region found it. The second region's index map reads a table of four joint numbers that the first
  host stretch writes (7, 8, 10, 11): the region is run at exactly those contents, for which every block it names
  lies inside its array.
-/
import proofs.«177773_j59631325938492_2_alg».proof.Proof.KIRegion0
import proofs.«177773_j59631325938492_2_alg».proof.Proof.KIRegion1
import proofs.«177773_j59631325938492_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.HandRun

open Cert.KernelIdeal Cert.KernelIdeal.Gen Cert.KernelIdeal.Hand0 Cert.KernelIdeal.Hand1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The joint table and its side condition -/

/-- The table's contents: the four joint numbers the first host operation writes. -/
def pfLit : pre1.Contents (Elt F) := fun
  | ⟨0, _⟩ => (fun i => lit0 (S4.rowMajor i))
  | ⟨_ + 1, h⟩ => absurd h (Nat.not_lt.2 (Nat.le_add_left _ _))

theorem lit0_le : ∀ j : Fin 4, (lit0 j).toNat ≤ 11 := by decide

/-- Every block the index map names at these contents lies inside the joints array: the row block is below 4 of 4,
    the joint number at most 11 of 24, the two trailing axes whole. -/
theorem ok_pfLit : ok1 (F := F) pfLit := by
  intro i
  refine ⟨?_, Or.inl rfl⟩
  have h0 : (i 0).val < 4 := (i 0).isLt
  have aux : ∀ v : BitVec 32, v.toNat ≤ 11 → ∀ a : Fin 4,
      ((![(BitVec.ofNat 32 (i 0).val).toNat, v.toNat, (0#32 : BitVec 32).toNat, (0#32 : BitVec 32).toNat] : Fin 4 → Nat) a + 1) * S16x1x3x2048.size a ≤ S64x24x3x2048.size a := by
    intro v hv a
    fin_cases a
    · show ((BitVec.ofNat 32 (i 0).val).toNat + 1) * 16 ≤ 64
      rw [BitVec.toNat_ofNat, Nat.mod_eq_of_lt (by omega)]; omega
    · show (v.toNat + 1) * 1 ≤ 24
      omega
    · show (0 + 1) * 3 ≤ 3
      omega
    · show (0 + 1) * 2048 ≤ 2048
      omega
  exact aux _ (lit0_le _)

/-- The table's contents as admissible contents of the second pipeline. -/
def adm1 : (pcfg1 (F := F)).Adm := ⟨pfLit, ok_pfLit⟩

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 adm1 (V3 m ρ) c).arrAt w (cfg1 (adm1 (F := F))).N
theorem W4_arr (c : Dev nD) (w : Fin (cfg1 (adm1 (F := F))).W) :
    W4 m ρ c (Proc.devRef .tc (Pipeline.arrRef spec1 w)) = (dat1 adm1 (V3 m ρ) c).arrAt w (cfg1 (adm1 (F := F))).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 (F := F))).W) : (dat1 adm1 (V3 m ρ) c).arrAt w (cfg1 (adm1 (F := F))).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the program's end. -/
abbrev W5 : Dev nD → Valuation τ sig (Elt F) := fun c => StableHlo.after hostOps2 (W4 m ρ c)

/-! ## The table when the second region is entered -/

/-- The first host operation writes the table; no later operation and no region writes it. -/
theorem W3_main_c (c : Dev nD) : W3 m ρ c (Proc.devRef .tc main_c) = (fun i => lit0 (S4.rowMajor i)) :=
  calc W3 m ρ c (Proc.devRef .tc main_c)
    _ = W2 m ρ c (Proc.devRef .tc main_c) := StableHlo.after_of_writes_sub hostOps1 _ hostOps1_writes (by decide : main_c ∉ hostOps1_W)
    _ = W1 m ρ c (Proc.devRef .tc main_c) := W2_of_ne m ρ c main_c (by decide)
    _ = (fun i => lit0 (S4.rowMajor i)) := by
          show StableHlo.after hostOps0 (W0 m ρ c) (Proc.devRef .tc main_c) = _
          after_results
          try rfl

theorem tbl_eq (c : Dev nD) : (fun k => V3 m ρ c (pre1.ref k)) = (adm1 (F := F)).1 := by
  funext k
  match k with
  | ⟨0, _⟩ => exact W3_main_c m ρ c
  | ⟨_ + 1, h⟩ => exact absurd h (Nat.not_lt.2 (Nat.le_add_left _ _))

/-! ## The proof data family and the thread state -/

/-- The admissible table contents of each pipeline: the first has no table, the second the joint table. -/
def adm : (p : Fin 2) → (pcfgs (F := F) p).Adm
  | ⟨0, _⟩ => cfg0.toPCfg_adm
  | ⟨1, _⟩ => adm1
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 adm1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region: entered from every unscoped buffer at `W1`, left at `W2`. Its arrays are split out of the
    unscoped buffers and put back at the exit contents; the generator register goes into the invariant and comes out. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. Besides its arrays, the joint table
    is split out of the unscoped buffers (it holds the four joint numbers), travels through the invariant and is put
    back; the rest bypasses the region. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 adm1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm1 (F := F)).1)
  Z c := Pipeline.unscopedRestP (Ix := Unit) (Name := ℕ) (U := UR sig nD τ) (Lvl := ℕ) pre1 spec1 c (V3 m ρ c)
  hentry c := by
    rw [Pipeline.ownSems0_none]
    have hsplit0 := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit0
    have hsplit : (StableHlo.held (c : Thread nD τ) (Pipeline.ucRefs τ sig) (W3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) := hsplit0
    rw [Pipeline.unscopedRest_split (Ix := Unit) (Name := ℕ) (U := UR sig nD τ) (Lvl := ℕ) preFacts1 c (V3 m ρ c), tbl_eq m ρ c] at hsplit
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in adm1 (V3 m ρ) c)
    unfold Pipeline.ΦA
    iintro ⟨Hp, HT, Hr⟩
    isplitr [HT]
    swap; · iexact HT
    isplitl [Hr]; · iexact Hr
    iexact Hp
  hout c := by
    rw [Pipeline.ownSems0_none]
    refine BIBase.Entails.trans (Phi_out adm1 (V3 m ρ) c) ?_
    unfold Pipeline.ΦA
    iintro ⟨⟨Hr, Hp⟩, HT⟩
    isplitl [Hp HT]
    · isplitl [Hp]; · iexact Hp
      iexact HT
    isplitr; · iempintro
    iexact Hr
  hexit c := by
    have hjoin0 := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (adm1 (F := F))).N) (hF1 m ρ c) (hrest1 m ρ c)
    rw [Pipeline.unscopedBufs_held] at hjoin0
    have hjoin : iprop((pdats m ρ 1 c).arrays ((pdats m ρ 1 c).arrAt · (cfg1 (adm1 (F := F))).N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := hjoin0
    rw [Pipeline.unscopedRest_split (Ix := Unit) (Name := ℕ) (U := UR sig nD τ) (Lvl := ℕ) preFacts1 c (V3 m ρ c), tbl_eq m ρ c] at hjoin
    iintro ⟨Ha, HO, ⟨Hp, HT⟩, Hrest⟩
    imodintro
    isplitl [Ha HT Hrest]
    · iapply hjoin
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

/-! ## @main as segments, and the launch -/

/-- A last segment's post with the `owes` split off, as the launch reads it. -/
theorem hlast (c : Dev nD) : iprop(StableHlo.held (c : Thread nD τ) (Pipeline.ucRefs τ sig) (W5 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state holds every unscoped buffer of every core at the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.HandRun

end
-- ==== Proof.KIHost.lean ====
/-
  The kernel program's HOST side read back: what the three host stretches leave in the buffers a value argument reads.
  The three argument arrays end as launched; the first stretch hands the first region the first two arguments reshaped;
  the last stretch's result is the scalar tail — the same one the reference ends in — of four sums, each a region's
  output array summed over both axes and divided by 1024.
-/
import proofs.«177773_j59631325938492_2_alg».proof.Proof.KIRun
import proofs.«177773_j59631325938492_2_alg».proof.Proof.RefRead

set_option maxRecDepth 16384

noncomputable section

namespace Cert.KernelIdeal.HandRun

open Cert.KernelIdeal Cert.KernelIdeal.Gen Cert.KernelIdeal.Hand0 Cert.KernelIdeal.Hand1
open Idealize.ShloMosaic Idealize.ShloMosaic.TcCoe Idealize.ShloMosaic.Tactic
open Idealize.SL Idealize.SL.Sem
open Idealize.ShloMosaic.StableHlo (after)

section Generic

variable {F : FTy → Type} [FloatOps F]
variable (m : (ℓ : Loc nD τ sig) → Buf (Elt F) ℓ) (ρ : Dev nD → PrngReg)

/-! ## The arguments end as launched -/

/-- No host operation writes the first argument and it is no array of either region. -/
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

/-- Nor the second. -/
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- The third argument is the second region's input array: the region reads it and leaves it as entered. -/
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) :=
          (W4_arr m ρ c 0).trans (((dat1 adm1 (V3 m ρ) c).arrAt_in 0 rfl _).trans (A_eq1 adm1 (V3 m ρ) c 0))
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

/-! ## The first region's inputs: the first two arguments reshaped -/

/-- The first stretch hands the first region the first argument with its joint and coordinate axes merged. -/
theorem W1_v0 (c : Dev nD) : W1 m ρ c (Proc.devRef .tc main_v0)
    = shapeCast S64x144x2048 (m ((c : Thread nD τ).loc main_arg0)) shapeCasts_S64x24x6x2048_S64x144x2048 := by
  show after hostOps0 (W0 m ρ c) (Proc.devRef .tc main_v0) = _
  after_results
  try rfl

/-- And the second argument likewise. -/
theorem W1_v1 (c : Dev nD) : W1 m ρ c (Proc.devRef .tc main_v1)
    = shapeCast S64x144x2048 (m ((c : Thread nD τ).loc main_arg1)) shapeCasts_S64x24x6x2048_S64x144x2048 := by
  show after hostOps0 (W0 m ρ c) (Proc.devRef .tc main_v1) = _
  after_results
  try rfl

/-! ## The last stretch's result: the scalar tail of four sums -/

/-- a [64, 128] array of partial sums added up and divided by 1024 -/
def ksumA (A : FVec F S64x128 .f32) : FVec F S_ .f32 :=
  Host.divf (Host.reduceAdd A (constant S_ .f32 0x00000000#32) reducesTo_S64x128_S_d0_1 h_S_) (constant S_ .f32 0x44800000#32)

/-- a [32, 128] array of partial sums added up and divided by 1024 -/
def ksumB (B : FVec F S32x128 .f32) : FVec F S_ .f32 :=
  Host.divf (Host.reduceAdd B (constant S_ .f32 0x00000000#32) reducesTo_S32x128_S_d0_1 h_S_) (constant S_ .f32 0x44800000#32)

/-- the scalar tail, for any float values: (x0 / N1 + c02 · (x1 / N2)) + c01 · (x2 / (x3 + eps)) -/
def tailK (x0 x1 x2 x3 : FVec F S_ .f32) : FVec F S_ .f32 :=
  addf (addf (Host.divf x0 (constant S_ .f32 0x4B900000#32))
      (mulf (constant S_ .f32 0x3E4CCCCD#32) (Host.divf x1 (constant S_ .f32 0x4B8FEE00#32))))
    (mulf (constant S_ .f32 0x3DCCCCCD#32) (Host.divf x2 (addf x3 (constant S_ .f32 0x322BCC77#32))))

/-- the second stretch, from any contents: the first sum scaled -/
theorem after1_v5 (V : Valuation τ sig (Elt F)) : after (hostOps1 (F := F)) V (Proc.devRef .tc main_v5)
    = Host.divf (ksumA (V (Proc.devRef .tc main_v2_0))) (constant S_ .f32 0x4B900000#32) := by
  after_results
  try rfl

/-- the second stretch, from any contents: the second sum scaled -/
theorem after1_v8 (V : Valuation τ sig (Elt F)) : after (hostOps1 (F := F)) V (Proc.devRef .tc main_v8)
    = Host.divf (ksumA (V (Proc.devRef .tc main_v2_1))) (constant S_ .f32 0x4B8FEE00#32) := by
  after_results
  try rfl

/-- the last stretch, from any contents: the tail's sum of its three terms, the first two as the second stretch left them -/
theorem after2_v19 (V : Valuation τ sig (Elt F)) : after (hostOps2 (F := F)) V (Proc.devRef .tc main_v19)
    = addf (addf (V (Proc.devRef .tc main_v5)) (mulf (constant S_ .f32 0x3E4CCCCD#32) (V (Proc.devRef .tc main_v8))))
        (mulf (constant S_ .f32 0x3DCCCCCD#32)
          (Host.divf (ksumB (V (Proc.devRef .tc main_v9_0))) (addf (ksumB (V (Proc.devRef .tc main_v9_1))) (constant S_ .f32 0x322BCC77#32)))) := by
  after_results
  try rfl

/-- THE RESULT, for any float values: the tail of the four regions' output arrays, each summed and divided by 1024 —
    the first region's two as it left them, the second region's two as it left them. -/
theorem W5_v19_tailK (c : Dev nD) : W5 m ρ c (Proc.devRef .tc main_v19)
    = tailK (ksumA (W2 m ρ c (Proc.devRef .tc main_v2_0))) (ksumA (W2 m ρ c (Proc.devRef .tc main_v2_1)))
        (ksumB (W4 m ρ c (Proc.devRef .tc main_v9_0))) (ksumB (W4 m ρ c (Proc.devRef .tc main_v9_1))) := by
  have h5 : W4 m ρ c (Proc.devRef .tc main_v5)
      = Host.divf (ksumA (W2 m ρ c (Proc.devRef .tc main_v2_0))) (constant S_ .f32 0x4B900000#32) :=
    (W4_of_ne m ρ c main_v5 (by decide)).trans (after1_v5 (W2 m ρ c))
  have h8 : W4 m ρ c (Proc.devRef .tc main_v8)
      = Host.divf (ksumA (W2 m ρ c (Proc.devRef .tc main_v2_1))) (constant S_ .f32 0x4B8FEE00#32) :=
    (W4_of_ne m ρ c main_v8 (by decide)).trans (after1_v8 (W2 m ρ c))
  refine (after2_v19 (W4 m ρ c)).trans ?_
  rw [h5, h8]
  rfl

end Generic

/-! ## At the ideal values: the reference's own tail -/

/-- The kernel program's tail at the ideal values IS the reference's (the two programs' scalar shapes and constant
    words coincide). -/
theorem tailK_eq_tail (x0 x1 x2 x3 : FVec Ideal S_ .f32) :
    tailK (F := Ideal) x0 x1 x2 x3 = Cert.ReferenceIdeal.HandRun.tail x0 x1 x2 x3 := rfl

/-- THE RESULT at the ideal values, under the reference's tail. -/
theorem W5_v19 (m : (ℓ : Loc nD τ sig) → Buf (Elt Ideal) ℓ) (ρ : Dev nD → PrngReg) (c : Dev nD) :
    W5 (F := Ideal) m ρ c (Proc.devRef .tc main_v19)
      = Cert.ReferenceIdeal.HandRun.tail (ksumA (F := Ideal) (W2 m ρ c (Proc.devRef .tc main_v2_0))) (ksumA (F := Ideal) (W2 m ρ c (Proc.devRef .tc main_v2_1)))
          (ksumB (F := Ideal) (W4 m ρ c (Proc.devRef .tc main_v9_0))) (ksumB (F := Ideal) (W4 m ρ c (Proc.devRef .tc main_v9_1))) :=
  W5_v19_tailK m ρ c

end Cert.KernelIdeal.HandRun

end
-- ==== Proof.KIPay0.lean ====
import proofs.«177773_j59631325938492_2_alg».proof.Proof.Gen.KernelIdeal.Skeleton
import Idealize.ShloMosaic.Lib.Pipeline.Value
import Idealize.ShloMosaic.Lib.ValueLayout
import Idealize.ShloMosaic.PureOps.Ideal.Laws

/-! # The first kernel's two stored values at an index, at the ideal values

With `D = x0 - x1` the entrywise difference of the two `[8,144,2048]` input blocks, every entry of the first
stored `[8,128]` block is `∑ D²` over the whole block, and every entry of the second is
`∑ (D(·,·,k+1) - D(·,·,k))²` over the block less its last column: the reductions run over every axis, the shape
casts around them only re-index, and the broadcast repeats the one value. -/

noncomputable section

namespace Cert.KernelIdeal.Hand0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's payloads at an index -/

/-- The difference the body forms first: the two shape casts are to the same shape. -/
theorem pay1_eq (x0 x1 : FVec Ideal S8x144x2048 .f32) : k0_pay1 x0 x1 = subf x0 x1 := by
  unfold k0_pay1
  dsimp only
  rw [shapeCast_self, shapeCast_self]

/-- A `multi_reduction <add>` over every axis but a leading unit one, of a vector given that leading unit axis
    by a shape cast, is the sum of the vector over all its indices: the shape cast re-indexes by a bijection. -/
theorem sum_all_2048 (v : FVec Ideal S8x144x2048 .f32) (j : S1.Idx) :
    multiReduction .add [1, 2, 3] S1 (shapeCast S1x8x144x2048 v shapeCasts_S8x144x2048_S1x8x144x2048) 0x00000000#32
        reduces_S1x8x144x2048_S1 (.inl rfl) rfl j = ∑ y : S8x144x2048.Idx, v y :=
  (Ideal.multiReduction_add_total (shapeCast S1x8x144x2048 v shapeCasts_S8x144x2048_S1x8x144x2048) 0x00000000#32
      reduces_S1x8x144x2048_S1 (by decide) (.inl rfl) rfl j).trans
    (Equiv.sum_comp (Shape.reshapeEquiv shapeCasts_S8x144x2048_S1x8x144x2048) v)

/-- The same at the `[8,144,2047]` shape of the forward differences. -/
theorem sum_all_2047 (v : FVec Ideal S8x144x2047 .f32) (j : S1.Idx) :
    multiReduction .add [1, 2, 3] S1 (shapeCast S1x8x144x2047 v shapeCasts_S8x144x2047_S1x8x144x2047) 0x00000000#32
        reduces_S1x8x144x2047_S1 (.inl rfl) rfl j = ∑ y : S8x144x2047.Idx, v y :=
  (Ideal.multiReduction_add_total (shapeCast S1x8x144x2047 v shapeCasts_S8x144x2047_S1x8x144x2047) 0x00000000#32
      reduces_S1x8x144x2047_S1 (by decide) (.inl rfl) rfl j).trans
    (Equiv.sum_comp (Shape.reshapeEquiv shapeCasts_S8x144x2047_S1x8x144x2047) v)

/-- A value constant over the one-entry vector it is extracted from, broadcast, is that constant at every index. -/
theorem tail_const (r : FVec Ideal S1 .f32) (A : EReal) (hr : ∀ k, r k = A) (j : S8x128.Idx) :
    broadcast S8x128 (extractAt ![0, 0, 0, 0] (shapeCast S1x1x1x1 r shapeCasts_S1_S1x1x1x1) inpos_S1x1x1x1_p0_0_0_0) j = A :=
  hr _

/-- The first output block: every entry is the sum over the input block of the squared difference. -/
theorem pay2_apply (x0 x1 : FVec Ideal S8x144x2048 .f32) (j : S8x128.Idx) :
    k0_pay2 x0 x1 j = ∑ y : S8x144x2048.Idx, (x0 y - x1 y) * (x0 y - x1 y) := by
  unfold k0_pay2
  dsimp only
  rw [pay1_eq]
  refine Eq.trans (tail_const _ (∑ y : S8x144x2048.Idx, mulf (subf x0 x1) (subf x0 x1) y) ?_ j) (Finset.sum_congr rfl fun y _ => rfl)
  intro k
  exact sum_all_2048 _ k

/-- The index one step further along the last axis, and the index itself, of a `[8,144,2047]` index in `[8,144,2048]`. -/
def hi (y : S8x144x2047.Idx) : S8x144x2048.Idx :=
  ix3 (⟨(y 0).val, (y 0).isLt⟩ : Fin 8) (⟨(y 1).val, (y 1).isLt⟩ : Fin 144)
    (⟨(y 2).val + 1, by have h : (y 2).val < 2047 := (y 2).isLt; omega⟩ : Fin 2048)
def lo (y : S8x144x2047.Idx) : S8x144x2048.Idx :=
  ix3 (⟨(y 0).val, (y 0).isLt⟩ : Fin 8) (⟨(y 1).val, (y 1).isLt⟩ : Fin 144)
    (⟨(y 2).val, by have h : (y 2).val < 2047 := (y 2).isLt; omega⟩ : Fin 2048)

/-- The forward difference along the last axis, as the body forms it from two slices. -/
def fwd (d : FVec Ideal S8x144x2048 .f32) : FVec Ideal S8x144x2047 .f32 :=
  subf (extractStridedSlice S8x144x2047 ![0, 0, 1] d slices_S8x144x2048_o0_0_1_S8x144x2047)
    (extractStridedSlice S8x144x2047 ![0, 0, 0] d slices_S8x144x2048_o0_0_0_S8x144x2047)

/-- At an index it is the entry one step further less the entry. -/
theorem fwd_apply (d : FVec Ideal S8x144x2048 .f32) (y : S8x144x2047.Idx) : fwd d y = d (hi y) - d (lo y) := by
  have e1 : extractStridedSlice S8x144x2047 ![0, 0, 1] d slices_S8x144x2048_o0_0_1_S8x144x2047 y = d (hi y) :=
    extractStridedSlice_apply _ _ _ _ _ (fun ax => by
      match ax with
      | ⟨0, _⟩ => exact (Nat.zero_add _).symm
      | ⟨1, _⟩ => exact (Nat.zero_add _).symm
      | ⟨2, _⟩ => exact (Nat.add_comm _ _))
  have e0 : extractStridedSlice S8x144x2047 ![0, 0, 0] d slices_S8x144x2048_o0_0_0_S8x144x2047 y = d (lo y) :=
    extractStridedSlice_apply _ _ _ _ _ (fun ax => by
      match ax with
      | ⟨0, _⟩ => exact (Nat.zero_add _).symm
      | ⟨1, _⟩ => exact (Nat.zero_add _).symm
      | ⟨2, _⟩ => exact (Nat.zero_add _).symm)
  unfold fwd
  rw [subf_apply, e1, e0]

/-- The second output block: every entry is the sum, over the input block less its last column, of the squared forward
    difference along the last axis of the difference. -/
theorem pay3_apply (x0 x1 : FVec Ideal S8x144x2048 .f32) (j : S8x128.Idx) :
    k0_pay3 x0 x1 j = ∑ y : S8x144x2047.Idx,
      ((x0 (hi y) - x1 (hi y)) - (x0 (lo y) - x1 (lo y))) * ((x0 (hi y) - x1 (hi y)) - (x0 (lo y) - x1 (lo y))) := by
  unfold k0_pay3
  dsimp only
  rw [pay1_eq]
  refine Eq.trans (tail_const _ (∑ y : S8x144x2047.Idx, mulf (fwd (subf x0 x1)) (fwd (subf x0 x1)) y) ?_ j)
    (Finset.sum_congr rfl fun y _ => ?_)
  · intro k
    exact sum_all_2047 (mulf (fwd (subf x0 x1)) (fwd (subf x0 x1))) k
  rw [mulf_apply, fwd_apply]
  rfl

end Cert.KernelIdeal.Hand0

end
-- ==== Proof.KIValue0.lean ====
import proofs.«177773_j59631325938492_2_alg».proof.Proof.KIRegion0
import proofs.«177773_j59631325938492_2_alg».proof.Proof.KIPay0
import Idealize.ShloMosaic.Lib.Pipeline.Value
import Idealize.ShloMosaic.Lib.ValueLayout

/-! # The first pallas_call's two output arrays as functions of its two input arrays, at the ideal values

Each of the 8 grid points reads rows `8t … 8t+7` of the two `[64,144,2048]` input arrays and writes rows
`8t … 8t+7` of the two `[64,128]` output arrays. With `D = B0 - B1` the entrywise difference of the inputs, every
entry of output rows `8t … 8t+7` of the first output is `∑ D²` over input rows `8t … 8t+7` (all of axes 1
and 2), and of the second output `∑ (D(·,·,k+1) - D(·,·,k))²` over the same rows, all of axis 1, and
`k < 2047`. So an entry `q` of an output depends on `q` only through `q₀ / 8`. -/

noncomputable section

namespace Cert.KernelIdeal.Hand0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The output arrays as functions of the input arrays -/

/-- The input-array index an output entry `q` reads at block index `y`: row `8 ⌊q₀ / 8⌋ + y₀`, and `y`'s other coordinates. -/
def rowOf (q : S64x128.Idx) (y : S8x144x2048.Idx) : S64x144x2048.Idx :=
  ix3 (⟨8 * ((q 0).val / 8) + (y 0).val, by
      have hq : (q 0).val < 64 := (q 0).isLt
      have hy : (y 0).val < 8 := (y 0).isLt
      omega⟩ : Fin 64) (y 1) (y 2)

/-- The first output array: at `q`, the sum over the eight rows `8 ⌊q₀ / 8⌋ …` of the squared difference of the inputs. -/
def G2 (B0 B1 : S64x144x2048.Idx → EReal) : S64x128.Idx → EReal := fun q =>
  ∑ y : S8x144x2048.Idx, (B0 (rowOf q y) - B1 (rowOf q y)) * (B0 (rowOf q y) - B1 (rowOf q y))

/-- The second output array: at `q`, the sum over the same rows, and all columns but the last, of the squared forward
    difference along the last axis of the difference of the inputs. -/
def G3 (B0 B1 : S64x144x2048.Idx → EReal) : S64x128.Idx → EReal := fun q =>
  ∑ y : S8x144x2047.Idx,
    ((B0 (rowOf q (hi y)) - B1 (rowOf q (hi y))) - (B0 (rowOf q (lo y)) - B1 (rowOf q (lo y))))
      * ((B0 (rowOf q (hi y)) - B1 (rowOf q (hi y))) - (B0 (rowOf q (lo y)) - B1 (rowOf q (lo y))))

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the grid: every window's block index on axis 0 is the same, on the other axes zero,
    and it is below 8. -/
theorem idx_facts0 : ∀ t : Fin cfg0.N,
    win0_0.index t (0 : Fin 3) = win0_2.index t (0 : Fin 2) ∧ win0_0.index t (1 : Fin 3) = 0 ∧ win0_0.index t (2 : Fin 3) = 0
    ∧ win0_1.index t (0 : Fin 3) = win0_2.index t (0 : Fin 2) ∧ win0_1.index t (1 : Fin 3) = 0 ∧ win0_1.index t (2 : Fin 3) = 0
    ∧ win0_3.index t (0 : Fin 2) = win0_2.index t (0 : Fin 2) ∧ win0_2.index t (1 : Fin 2) = 0 ∧ win0_3.index t (1 : Fin 2) = 0
    ∧ win0_2.index t (0 : Fin 2) ≤ 7 :=
  (by decide +kernel : ∀ t : Fin grid0.N, _)

/-- Every block row of the outputs is some point's. -/
theorem idx_onto0 : ∀ q0 : Fin 8, ∃ t : Fin cfg0.N, win0_2.index t (0 : Fin 2) = q0.val :=
  (by decide +kernel : ∀ q0 : Fin 8, ∃ t : Fin grid0.N, win0_2.index t (0 : Fin 2) = q0.val)

/-- Input block 0 at point `t`, read at `y`, is input array 0 at the row any output entry `q` of block row `t` reads. -/
theorem iblk0_0_apply (c : Dev nD) (t : Fin cfg0.N) (y : S8x144x2048.Idx) (q : S64x128.Idx)
    (hq : (q 0).val / 8 = win0_2.index t (0 : Fin 2)) : iblk0 V c 0 t y = V c main_v0 (rowOf q y) := by
  show V c main_v0 (((cfg0.win 0).blk t).view.emb y) = V c main_v0 (rowOf q y)
  refine congrArg _ ?_
  obtain ⟨e0, e1, e2, -⟩ := idx_facts0 t
  funext a; apply Fin.ext
  match a with
  | ⟨0, _⟩ => show win0_0.index t (0 : Fin 3) * 8 + 1 * (y 0).val = 8 * ((q 0).val / 8) + (y 0).val; omega
  | ⟨1, _⟩ => show win0_0.index t (1 : Fin 3) * 144 + 1 * (y 1).val = (y 1).val; omega
  | ⟨2, _⟩ => show win0_0.index t (2 : Fin 3) * 2048 + 1 * (y 2).val = (y 2).val; omega

/-- The same for input block 1. -/
theorem iblk0_1_apply (c : Dev nD) (t : Fin cfg0.N) (y : S8x144x2048.Idx) (q : S64x128.Idx)
    (hq : (q 0).val / 8 = win0_2.index t (0 : Fin 2)) : iblk0 V c 1 t y = V c main_v1 (rowOf q y) := by
  show V c main_v1 (((cfg0.win 1).blk t).view.emb y) = V c main_v1 (rowOf q y)
  refine congrArg _ ?_
  obtain ⟨-, -, -, e0, e1, e2, -⟩ := idx_facts0 t
  funext a; apply Fin.ext
  match a with
  | ⟨0, _⟩ => show win0_1.index t (0 : Fin 3) * 8 + 1 * (y 0).val = 8 * ((q 0).val / 8) + (y 0).val; omega
  | ⟨1, _⟩ => show win0_1.index t (1 : Fin 3) * 144 + 1 * (y 1).val = (y 1).val; omega
  | ⟨2, _⟩ => show win0_1.index t (2 : Fin 3) * 2048 + 1 * (y 2).val = (y 2).val; omega

/-- A block whose every entry is the array function `G` at the entry's place in the array is block `t` of `G`
    (stated over variables, for the two output windows). -/
theorem cut_eq_read2 (t : Fin cfg0.N) (P : Vec Ideal S8x128 .f32) (G : S64x128.Idx → EReal)
    (h : ∀ j : S8x128.Idx, P j = G (((cfg0.win 2).blk t).view.emb j)) :
    (cfg0.win 2).cut (grid0.coords t) P = ((cfg0.win 2).blk t).view.read (Elt Ideal) G := by
  funext j; exact h j
theorem cut_eq_read3 (t : Fin cfg0.N) (P : Vec Ideal S8x128 .f32) (G : S64x128.Idx → EReal)
    (h : ∀ j : S8x128.Idx, P j = G (((cfg0.win 3).blk t).view.emb j)) :
    (cfg0.win 3).cut (grid0.coords t) P = ((cfg0.win 3).blk t).view.read (Elt Ideal) G := by
  funext j; exact h j

theorem G2_apply (B0 B1 : S64x144x2048.Idx → EReal) (q : S64x128.Idx) :
    G2 B0 B1 q = ∑ y : S8x144x2048.Idx, (B0 (rowOf q y) - B1 (rowOf q y)) * (B0 (rowOf q y) - B1 (rowOf q y)) := rfl
theorem G3_apply (B0 B1 : S64x144x2048.Idx → EReal) (q : S64x128.Idx) :
    G3 B0 B1 q = ∑ y : S8x144x2047.Idx,
      ((B0 (rowOf q (hi y)) - B1 (rowOf q (hi y))) - (B0 (rowOf q (lo y)) - B1 (rowOf q (lo y))))
        * ((B0 (rowOf q (hi y)) - B1 (rowOf q (hi y))) - (B0 (rowOf q (lo y)) - B1 (rowOf q (lo y)))) := rfl

/-- The block row of an entry of output block `t`. -/
theorem emb2_row (t : Fin cfg0.N) (j : S8x128.Idx) :
    ((((cfg0.win 2).blk t).view.emb j) 0).val / 8 = win0_2.index t (0 : Fin 2) := by
  show (win0_2.index t (0 : Fin 2) * 8 + 1 * (j 0).val) / 8 = _
  have hj : (j 0).val < 8 := (j 0).isLt
  omega
theorem emb3_row (t : Fin cfg0.N) (j : S8x128.Idx) :
    ((((cfg0.win 3).blk t).view.emb j) 0).val / 8 = win0_2.index t (0 : Fin 2) := by
  obtain ⟨-, -, -, -, -, -, e3, -⟩ := idx_facts0 t
  show (win0_3.index t (0 : Fin 2) * 8 + 1 * (j 0).val) / 8 = _
  have hj : (j 0).val < 8 := (j 0).isLt
  omega

/-- WHAT POINT `t` WRITES BACK to the first output is block `t` of `G2` of the input arrays as the region finds them. -/
theorem flushed2_eq (c : Dev nD) (t : Fin cfg0.N) :
    (dat0 V c).flushed 2 t = ((cfg0.win 2).blk t).view.read (Elt Ideal) (G2 (V c main_v0) (V c main_v1)) := by
  show (cfg0.win 2).cut (grid0.coords t) ((dat0 V c).after 2 t) = _
  rw [after0_2]
  unfold out0_2
  rw [View.canon_unit_zero hz2]
  simp only [View.ld_unit_zero (S := S8x144x2048) hz3]
  refine cut_eq_read2 t _ _ fun j => ?_
  refine (pay2_apply _ _ _).trans ?_
  rw [G2_apply]
  refine Finset.sum_congr rfl fun y _ => ?_
  rw [iblk0_0_apply V c t y _ (emb2_row t j), iblk0_1_apply V c t y _ (emb2_row t j)]

/-- WHAT POINT `t` WRITES BACK to the second output is block `t` of `G3` of the input arrays as the region finds them. -/
theorem flushed3_eq (c : Dev nD) (t : Fin cfg0.N) :
    (dat0 V c).flushed 3 t = ((cfg0.win 3).blk t).view.read (Elt Ideal) (G3 (V c main_v0) (V c main_v1)) := by
  show (cfg0.win 3).cut (grid0.coords t) ((dat0 V c).after 3 t) = _
  rw [after0_3]
  unfold out0_3
  rw [View.canon_unit_zero hz2]
  simp only [View.ld_unit_zero (S := S8x144x2048) hz3]
  refine cut_eq_read3 t _ _ fun j => ?_
  refine (pay3_apply _ _ _).trans ?_
  rw [G3_apply]
  refine Finset.sum_congr rfl fun y _ => ?_
  rw [iblk0_0_apply V c t (hi y) _ (emb3_row t j), iblk0_1_apply V c t (hi y) _ (emb3_row t j),
    iblk0_0_apply V c t (lo y) _ (emb3_row t j), iblk0_1_apply V c t (lo y) _ (emb3_row t j)]

/-- An index of the first output array is in point `t`'s block iff each coordinate is in the block's range on its axis. -/
theorem mem_blk2 (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2_0).slice (win0_2.rect t)).set ↔ _
  rw [View.set_slice_whole, Rect.mem_set_unit]
  exact Iff.rfl

/-- The same for the second output array. -/
theorem mem_blk3 (t : Fin cfg0.N) (i : S64x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v2_1).slice (win0_3.rect t)).set ↔ _
  rw [View.set_slice_whole, Rect.mem_set_unit]
  exact Iff.rfl

/-- Every index of the first output array is in some point's block: row `r` is in the block of the point with block row `r / 8`. -/
theorem cover2 (i : S64x128.Idx) : ∃ t : Fin cfg0.N, (cfg0.win 2).flush t = true ∧ i ∈ ((cfg0.win 2).blk t).view.set := by
  have hi0 : (i 0).val < 64 := (i 0).isLt
  have hi1 : (i 1).val < 128 := (i 1).isLt
  obtain ⟨t, ht⟩ := idx_onto0 ⟨(i 0).val / 8, by omega⟩
  have q0 : win0_2.index t (0 : Fin 2) = (i 0).val / 8 := ht
  obtain ⟨-, -, -, -, -, -, e3, e4, e5, -⟩ := idx_facts0 t
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The same for the second output array. -/
theorem cover3 (i : S64x128.Idx) : ∃ t : Fin cfg0.N, (cfg0.win 3).flush t = true ∧ i ∈ ((cfg0.win 3).blk t).view.set := by
  have hi0 : (i 0).val < 64 := (i 0).isLt
  have hi1 : (i 1).val < 128 := (i 1).isLt
  obtain ⟨t, ht⟩ := idx_onto0 ⟨(i 0).val / 8, by omega⟩
  have q0 : win0_2.index t (0 : Fin 2) = (i 0).val / 8 := ht
  obtain ⟨-, -, -, -, -, -, e3, e4, e5, -⟩ := idx_facts0 t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- THE FIRST OUTPUT ARRAY after the region: `G2` of the input arrays as the region finds them. -/
theorem final0_2 (c : Dev nD) : (dat0 (F := Ideal) V c).arrAt 2 cfg0.N = G2 (V c main_v0) (V c main_v1) :=
  (dat0 V c).arrAt_eq_of_cover 2 (G2 (V c main_v0) (V c main_v1)) (fun t _ => flushed2_eq V c t) cover2

/-- THE SECOND OUTPUT ARRAY after the region: `G3` of the input arrays as the region finds them. -/
theorem final0_3 (c : Dev nD) : (dat0 (F := Ideal) V c).arrAt 3 cfg0.N = G3 (V c main_v0) (V c main_v1) :=
  (dat0 V c).arrAt_eq_of_cover 3 (G3 (V c main_v0) (V c main_v1)) (fun t _ => flushed3_eq V c t) cover3

/-- The input arrays are as the region found them: their windows are staged and never written back. -/
theorem kept0_0 (c : Dev nD) : (dat0 (F := Ideal) V c).arrAt 0 cfg0.N = V c main_v0 :=
  ((dat0 V c).arrAt_in 0 rfl _).trans (A_eq0 V c 0)
theorem kept0_1 (c : Dev nD) : (dat0 (F := Ideal) V c).arrAt 1 cfg0.N = V c main_v1 :=
  ((dat0 V c).arrAt_in 1 rfl _).trans (A_eq0 V c 1)

end Cert.KernelIdeal.Hand0

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.MathTiles.lean ====
/-
  A block sum written into every cell of its tile, then summed over all tiles and divided by the tile's size.

  An output array of n·R rows and C columns is cut into n tiles of R rows; every cell of tile t holds the same real
  number S t. The sum of all the cells is then R·C times Σ_t S t, and dividing by R·C gives Σ_t S t back. On the
  extended reals this is an identity between images of reals: the coercion commutes with finite sums and products,
  and division by a nonzero real is the product with its reciprocal. Here R·C = 8·128 = 1024, the real that the
  float word 0x44800000 denotes.
-/
import Idealize.ShloMosaic.PureOps.Ideal
import Idealize.ShloMosaic.Lib.ValueIdx
import proofs.«177773_j59631325938492_2_alg».proof.Proof.LibERealSum

noncomputable section

open scoped BigOperators

namespace Cert.Math

open Idealize.ShloMosaic Idealize.ShloMosaic.ValueIdx

/-- The float word 0x44800000 denotes the real 1024. -/
theorem word_1024 : Ideal.ofBits .f32 0x44800000#32 = ((1024 : ℝ) : EReal) := by
  simp [Ideal.ofBits, Ideal.ieee, -EReal.coe_mul]; norm_num

/-- A position below n·R lies in one of the n blocks of R positions. -/
theorem div_lt_blocks {n R k : ℕ} (h : k < n * R) : k / R < n :=
  Nat.div_lt_of_lt_mul (lt_of_lt_of_eq h (Nat.mul_comm n R))

/-- Over n·R consecutive rows, a quantity that depends only on the row's block ⌊a / R⌋ sums to R times its sum over
    the n blocks. -/
theorem sum_div_block {M : Type*} [AddCommMonoid M] (n R : ℕ) (S : Fin n → M) :
    ∑ a : Fin (n * R), S ⟨a.val / R, div_lt_blocks a.isLt⟩ = R • ∑ t, S t := by
  rw [← Equiv.sum_comp finProdFinEquiv, Fintype.sum_prod_type, Finset.smul_sum]
  refine Finset.sum_congr rfl fun t _ => ?_
  have key : ∀ r : Fin R, S ⟨(finProdFinEquiv (t, r)).val / R,
      div_lt_blocks (finProdFinEquiv (t, r)).isLt⟩ = S t := by
    intro r
    congr 1
    apply Fin.ext
    show (r.val + R * t.val) / R = t.val
    have hR : 0 < R := Nat.pos_of_ne_zero (by rintro rfl; exact r.elim0)
    rw [Nat.add_mul_div_left _ _ hR, Nat.div_eq_of_lt r.isLt, zero_add]
  rw [Finset.sum_congr rfl fun r _ => key r, Finset.sum_const, Finset.card_univ, Fintype.card_fin]

/-- The cells of an array of n·R rows and C columns whose cell (a, b) holds S ⌊a / R⌋ sum to R·C·Σ_t S t. -/
theorem tile_sum_real (n R C : ℕ) (S : Fin n → ℝ) :
    ∑ q : (⟨2, ![n * R, C]⟩ : Shape).Idx,
        S ⟨(q 0).val / R, div_lt_blocks (idx2_lt0 q)⟩
      = ((R : ℝ) * (C : ℝ)) * ∑ t, S t := by
  rw [sum_idx2]
  have h : ∀ a : Fin (n * R), ∑ b : Fin C, S ⟨((ix2 a b : (⟨2, ![n * R, C]⟩ : Shape).Idx) 0).val / R,
      div_lt_blocks (idx2_lt0 (ix2 a b))⟩
      = (C : ℝ) * S ⟨a.val / R, div_lt_blocks a.isLt⟩ := by
    intro a
    show ∑ _b : Fin C, S ⟨a.val / R, div_lt_blocks a.isLt⟩ = _
    rw [Finset.sum_const, Finset.card_univ, Fintype.card_fin, nsmul_eq_mul]
  rw [Finset.sum_congr rfl fun a _ => h a, ← Finset.mul_sum, sum_div_block n R S, nsmul_eq_mul]
  ring

/-- The same on the extended reals, divided by the real R·C (nonzero): the sum of the blocks' values. -/
theorem tile_sum_div (n R C : ℕ) (hR : 0 < R) (hC : 0 < C) (S : Fin n → ℝ) :
    Ideal.div ((0 : EReal) + ∑ q : (⟨2, ![n * R, C]⟩ : Shape).Idx,
        ((S ⟨(q 0).val / R, div_lt_blocks (idx2_lt0 q)⟩ : ℝ) : EReal))
      (((R : ℝ) * (C : ℝ) : ℝ) : EReal) = ((∑ t, S t : ℝ) : EReal) := by
  have hne : ((R : ℝ) * (C : ℝ)) ≠ 0 := by positivity
  rw [zero_add, ← Idealize.ShloMosaic.ERealSum.coe_finset_sum, tile_sum_real, Ideal.div_coe hne, ← EReal.coe_mul]
  congr 1
  field_simp

/-- Eight tiles of 8 rows and 128 columns: the sum of the [64, 128] array divided by 1024 is the sum of the eight block values. -/
theorem tiles_64x128 (S : Fin 8 → ℝ) :
    Ideal.div ((0 : EReal) + ∑ q : (⟨2, ![64, 128]⟩ : Shape).Idx,
        ((S ⟨(q 0).val / 8, div_lt_blocks (n := 8) (R := 8) (idx2_lt0 q)⟩ : ℝ) : EReal))
      (Ideal.ofBits .f32 0x44800000#32) = ((∑ t : Fin 8, S t : ℝ) : EReal) := by
  rw [word_1024]
  have h := tile_sum_div 8 8 128 (by norm_num) (by norm_num) S
  have e : (((8 : ℕ) : ℝ) * ((128 : ℕ) : ℝ) : ℝ) = 1024 := by norm_num
  rw [e] at h
  exact h

/-- Four tiles of 8 rows and 128 columns: the sum of the [32, 128] array divided by 1024 is the sum of the four block values. -/
theorem tiles_32x128 (S : Fin 4 → ℝ) :
    Ideal.div ((0 : EReal) + ∑ q : (⟨2, ![32, 128]⟩ : Shape).Idx,
        ((S ⟨(q 0).val / 8, div_lt_blocks (n := 4) (R := 8) (idx2_lt0 q)⟩ : ℝ) : EReal))
      (Ideal.ofBits .f32 0x44800000#32) = ((∑ t : Fin 4, S t : ℝ) : EReal) := by
  rw [word_1024]
  have h := tile_sum_div 4 8 128 (by norm_num) (by norm_num) S
  have e : (((8 : ℕ) : ℝ) * ((128 : ℕ) : ℝ) : ℝ) = 1024 := by norm_num
  rw [e] at h
  exact h

end Cert.Math

end
-- ==== Proof.MathBlocks.lean ====
/-
  Cutting a sum over the rows of an array into sums over row-blocks.

  An array of n·B rows is walked in n blocks of B rows: row B·t + r is row r of block t. In any commutative additive
  monoid (the extended reals among them) the sum over all the entries is the sum over the blocks of the sum over each
  block's entries. Rank-3 and rank-4 index sets are first identified with the product of their coordinate ranges, so
  that a sum over one of them is the iterated sum over the coordinates.
-/
import Idealize.ShloMosaic.Lib.ValueIdx
import Mathlib.Algebra.BigOperators.Fin

noncomputable section

open scoped BigOperators

namespace Cert.Math

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row r of block t is a row of the whole array: B·t + r < n·B. -/
theorem block_pos_lt {n B : ℕ} (t : Fin n) (r : Fin B) : B * t.val + r.val < n * B :=
  calc B * t.val + r.val < B * t.val + B := Nat.add_lt_add_left r.isLt _
    _ = B * (t.val + 1) := by ring
    _ ≤ B * n := Nat.mul_le_mul_left _ t.isLt
    _ = n * B := Nat.mul_comm _ _

/-- A sum over n·B positions is the sum over the n blocks of the sum over each block's B positions. -/
theorem sum_fin_row_blocks (n B : ℕ) (g : Fin (n * B) → M) :
    ∑ k, g k = ∑ t : Fin n, ∑ r : Fin B, g ⟨B * t.val + r.val, block_pos_lt t r⟩ := by
  rw [← Equiv.sum_comp finProdFinEquiv, Fintype.sum_prod_type]
  exact Finset.sum_congr rfl fun t _ => Finset.sum_congr rfl fun r _ => congrArg g (Fin.ext (Nat.add_comm _ _))

/-- THE GENERAL LAW, rank 3: the entries of an array of n·B rows, block by block. -/
theorem sum_row_blocks3 (n B a b : ℕ) (g : (⟨3, ![n * B, a, b]⟩ : Shape).Idx → M) :
    ∑ i, g i = ∑ t : Fin n, ∑ y : (⟨3, ![B, a, b]⟩ : Shape).Idx,
      g (ix3 ⟨B * t.val + (y 0).val, block_pos_lt t (y 0)⟩ (y 1) (y 2)) := by
  rw [sum_idx3, sum_fin_row_blocks n B]
  refine Finset.sum_congr rfl fun t _ => ?_
  rw [sum_idx3]
  rfl

/-- THE GENERAL LAW with the middle axis kept outside the block: the entries of an array of n·B rows, by block, then by
    the middle coordinate, then over the block's rows and the last axis. -/
theorem sum_row_blocks3_mid (n B a b : ℕ) (g : (⟨3, ![n * B, a, b]⟩ : Shape).Idx → M) :
    ∑ i, g i = ∑ t : Fin n, ∑ f : Fin a, ∑ y : (⟨2, ![B, b]⟩ : Shape).Idx,
      g (ix3 ⟨B * t.val + (y 0).val, block_pos_lt t (y 0)⟩ f (y 1)) := by
  rw [sum_idx3, sum_fin_row_blocks n B]
  refine Finset.sum_congr rfl fun t _ => ?_
  rw [Finset.sum_comm]
  refine Finset.sum_congr rfl fun f _ => ?_
  rw [sum_idx2]
  rfl

/-- 64 rows of [144, 2048] in eight blocks of 8 rows. -/
theorem sum_blocks_64x144x2048 (g : (⟨3, ![64, 144, 2048]⟩ : Shape).Idx → M) :
    ∑ i, g i = ∑ t : Fin 8, ∑ y : (⟨3, ![8, 144, 2048]⟩ : Shape).Idx,
      g (ix3 ⟨8 * t.val + (y 0).val, block_pos_lt (n := 8) (B := 8) t (y 0)⟩ (y 1) (y 2)) :=
  sum_row_blocks3 8 8 144 2048 g

/-- 64 rows of [144, 2047] in eight blocks of 8 rows. -/
theorem sum_blocks_64x144x2047 (g : (⟨3, ![64, 144, 2047]⟩ : Shape).Idx → M) :
    ∑ i, g i = ∑ t : Fin 8, ∑ y : (⟨3, ![8, 144, 2047]⟩ : Shape).Idx,
      g (ix3 ⟨8 * t.val + (y 0).val, block_pos_lt (n := 8) (B := 8) t (y 0)⟩ (y 1) (y 2)) :=
  sum_row_blocks3 8 8 144 2047 g

/-- 64 rows of [4, 2047] in four blocks of 16 rows, the middle coordinate kept outside the block. -/
theorem sum_blocks_64x4x2047 (g : (⟨3, ![64, 4, 2047]⟩ : Shape).Idx → M) :
    ∑ i, g i = ∑ t : Fin 4, ∑ f : Fin 4, ∑ y : (⟨2, ![16, 2047]⟩ : Shape).Idx,
      g (ix3 ⟨16 * t.val + (y 0).val, block_pos_lt (n := 4) (B := 16) t (y 0)⟩ f (y 1)) :=
  sum_row_blocks3_mid 4 16 4 2047 g

end Cert.Math

end
-- ==== Proof.MathMerge.lean ====
/-
  Merging two adjacent middle axes of an array.

  Position m of a merged axis of a·b positions stands for the pair (⌊m / b⌋, m mod b) of the two axes it merges, and
  every pair is met once. So in any commutative additive monoid the sum over a rank-4 index set [n, a, b, c] is the sum
  over the rank-3 index set [n, a·b, c] of the entry at the split index.
-/
import Idealize.ShloMosaic.Lib.ValueIdx
import Mathlib.Algebra.BigOperators.Fin
import proofs.«177773_j59631325938492_2_alg».proof.Proof.MathBlocks

noncomputable section

open scoped BigOperators

namespace Cert.Math

open Idealize.ShloMosaic Idealize.ShloMosaic.ValueIdx

variable {M : Type*} [AddCommMonoid M]

/-- The quotient of a position of the merged axis is a position of the first axis. -/
theorem merged_div_lt {a b m : ℕ} (h : m < a * b) : m / b < a :=
  Nat.div_lt_of_lt_mul (lt_of_lt_of_eq h (Nat.mul_comm a b))

/-- The remainder of a position of the merged axis is a position of the second axis. -/
theorem merged_mod_lt {a b m : ℕ} (h : m < a * b) : m % b < b :=
  Nat.mod_lt _ (Nat.pos_of_ne_zero (by rintro rfl; simp at h))

/-- A sum over the pairs of two axes is the sum over the merged axis of the entry at (⌊m / b⌋, m mod b). -/
theorem sum_fin_merge (a b : ℕ) (F : Fin a → Fin b → M) :
    ∑ p : Fin a, ∑ q : Fin b, F p q
      = ∑ m : Fin (a * b), F ⟨m.val / b, merged_div_lt m.isLt⟩ ⟨m.val % b, merged_mod_lt m.isLt⟩ := by
  rw [← Equiv.sum_comp finProdFinEquiv, Fintype.sum_prod_type]
  refine Finset.sum_congr rfl fun p _ => Finset.sum_congr rfl fun q _ => ?_
  have hb : 0 < b := Nat.pos_of_ne_zero (by rintro rfl; exact q.elim0)
  congr 1
  · apply Fin.ext
    show p.val = (q.val + b * p.val) / b
    rw [Nat.add_mul_div_left _ _ hb, Nat.div_eq_of_lt q.isLt, zero_add]
  · apply Fin.ext
    show q.val = (q.val + b * p.val) % b
    rw [Nat.add_mul_mod_self_left, Nat.mod_eq_of_lt q.isLt]

/-- THE GENERAL LAW: the sum over [n, a, b, c] is the sum over [n, a·b, c] of the entry at the split index. -/
theorem sum_merge_mid (n a b c : ℕ) (g : (⟨4, ![n, a, b, c]⟩ : Shape).Idx → M) :
    ∑ i, g i = ∑ j : (⟨3, ![n, a * b, c]⟩ : Shape).Idx,
      g (ix4 (j 0) ⟨(j 1).val / b, merged_div_lt (j 1).isLt⟩ ⟨(j 1).val % b, merged_mod_lt (j 1).isLt⟩ (j 2)) := by
  rw [sum_idx4, sum_idx3]
  refine Finset.sum_congr rfl fun x _ => ?_
  rw [sum_fin_merge a b (fun p q => ∑ z : Fin c, g (ix4 x p q z))]
  rfl

/-- [64, 24, 6, 2048] read as [64, 144, 2048]. -/
theorem sum_merge_64x24x6x2048 (g : (⟨4, ![64, 24, 6, 2048]⟩ : Shape).Idx → M) :
    ∑ i, g i = ∑ j : (⟨3, ![64, 144, 2048]⟩ : Shape).Idx,
      g (ix4 (j 0) ⟨(j 1).val / 6, merged_div_lt (a := 24) (b := 6) (j 1).isLt⟩
        ⟨(j 1).val % 6, merged_mod_lt (a := 24) (b := 6) (j 1).isLt⟩ (j 2)) :=
  sum_merge_mid 64 24 6 2048 g

/-- [64, 24, 6, 2047] read as [64, 144, 2047]. -/
theorem sum_merge_64x24x6x2047 (g : (⟨4, ![64, 24, 6, 2047]⟩ : Shape).Idx → M) :
    ∑ i, g i = ∑ j : (⟨3, ![64, 144, 2047]⟩ : Shape).Idx,
      g (ix4 (j 0) ⟨(j 1).val / 6, merged_div_lt (a := 24) (b := 6) (j 1).isLt⟩
        ⟨(j 1).val % 6, merged_mod_lt (a := 24) (b := 6) (j 1).isLt⟩ (j 2)) :=
  sum_merge_mid 64 24 6 2047 g

end Cert.Math

end
-- ==== Proof.MathChain.lean ====
/-
  Merging two middle axes and then cutting the rows into blocks, in one step.

  The sum over a rank-4 index set [n·B, a, b, c] is first read over the merged index set [n·B, a·b, c] and then block by
  block: entry (r, m, z) of block t is the entry (B·t + r, ⌊m / b⌋, m mod b, z) of the whole array.
-/
import proofs.«177773_j59631325938492_2_alg».proof.Proof.MathBlocks
import proofs.«177773_j59631325938492_2_alg».proof.Proof.MathMerge

noncomputable section

open scoped BigOperators

namespace Cert.Math

open Idealize.ShloMosaic Idealize.ShloMosaic.ValueIdx

variable {M : Type*} [AddCommMonoid M]

/-- THE GENERAL LAW: merge the two middle axes, then walk the rows in n blocks of B. -/
theorem sum_merge_row_blocks (n B a b c : ℕ) (g : (⟨4, ![n * B, a, b, c]⟩ : Shape).Idx → M) :
    ∑ i, g i = ∑ t : Fin n, ∑ y : (⟨3, ![B, a * b, c]⟩ : Shape).Idx,
      g (ix4 ⟨B * t.val + (y 0).val, block_pos_lt t (y 0)⟩ ⟨(y 1).val / b, merged_div_lt (y 1).isLt⟩
        ⟨(y 1).val % b, merged_mod_lt (y 1).isLt⟩ (y 2)) := by
  rw [sum_merge_mid, sum_row_blocks3]
  rfl

/-- [64, 24, 6, 2048] as eight blocks of [8, 144, 2048]. -/
theorem sum_merge_blocks_2048 (g : (⟨4, ![64, 24, 6, 2048]⟩ : Shape).Idx → M) :
    ∑ i, g i = ∑ t : Fin 8, ∑ y : (⟨3, ![8, 144, 2048]⟩ : Shape).Idx,
      g (ix4 ⟨8 * t.val + (y 0).val, block_pos_lt (n := 8) (B := 8) t (y 0)⟩
        ⟨(y 1).val / 6, merged_div_lt (a := 24) (b := 6) (y 1).isLt⟩
        ⟨(y 1).val % 6, merged_mod_lt (a := 24) (b := 6) (y 1).isLt⟩ (y 2)) :=
  sum_merge_row_blocks 8 8 24 6 2048 g

/-- [64, 24, 6, 2047] as eight blocks of [8, 144, 2047]. -/
theorem sum_merge_blocks_2047 (g : (⟨4, ![64, 24, 6, 2047]⟩ : Shape).Idx → M) :
    ∑ i, g i = ∑ t : Fin 8, ∑ y : (⟨3, ![8, 144, 2047]⟩ : Shape).Idx,
      g (ix4 ⟨8 * t.val + (y 0).val, block_pos_lt (n := 8) (B := 8) t (y 0)⟩
        ⟨(y 1).val / 6, merged_div_lt (a := 24) (b := 6) (y 1).isLt⟩
        ⟨(y 1).val % 6, merged_mod_lt (a := 24) (b := 6) (y 1).isLt⟩ (y 2)) :=
  sum_merge_row_blocks 8 8 24 6 2047 g

end Cert.Math

end
-- ==== Proof.MathBridge01.lean ====
/-
  From the kernel's tile sums to the reference's sums, for the two terms built from the first two inputs.

  The kernel reads the inputs A0, A1 : [64, 24, 6, 2048] through a reshape to [64, 144, 2048] (position m of the merged
  axis stands for (⌊m / 6⌋, m mod 6)), walks the 64 rows in eight blocks of 8, and writes each block's sum into every
  cell of an [8, 128] tile of a [64, 128] array; the host sums that array and divides by 1024. When every entry is a
  real number this quotient is the sum over all the entries of the whole arrays:

    · the squared differences (A0 − A1)², and
    · the squared neighbour differences along the last axis: the kernel forms D = B0 − B1 and then D[y+1] − D[y],
      the reference forms (A0[t+1] − A0[t]) − (A1[t+1] − A1[t]); on reals these are equal.
-/
import Idealize.ShloMosaic.Lib.Pipeline.Value
import Idealize.ShloMosaic.Lib.ValueIdx
import proofs.«177773_j59631325938492_2_alg».proof.Proof.LibERealSum
import proofs.«177773_j59631325938492_2_alg».proof.Proof.MathTiles
import proofs.«177773_j59631325938492_2_alg».proof.Proof.MathBlocks
import proofs.«177773_j59631325938492_2_alg».proof.Proof.MathMerge
import proofs.«177773_j59631325938492_2_alg».proof.Proof.MathChain

noncomputable section

open scoped BigOperators

namespace Cert.Math

open Idealize.ShloMosaic Idealize.ShloMosaic.ValueIdx

/-! ## The reshape read at an index -/

/-- The index of [n, a, b, c] that position j of [n, a·b, c] stands for. -/
abbrev splitIdx {n a b c : ℕ} (j : (⟨3, ![n, a * b, c]⟩ : Shape).Idx) : (⟨4, ![n, a, b, c]⟩ : Shape).Idx :=
  ix4 (j 0) ⟨(j 1).val / b, merged_div_lt (j 1).isLt⟩ ⟨(j 1).val % b, merged_mod_lt (j 1).isLt⟩ (j 2)

/-- A reshape merging the two middle axes, read at j, is the operand at the split index: the two have the same
    row-major position, since b·⌊m / b⌋ + m mod b = m. -/
theorem shapeCast_merge_apply {α : Type} (n a b c : ℕ) (x : (⟨4, ![n, a, b, c]⟩ : Shape).Idx → α)
    (h : (⟨4, ![n, a, b, c]⟩ : Shape).ShapeCasts ⟨3, ![n, a * b, c]⟩) (j : (⟨3, ![n, a * b, c]⟩ : Shape).Idx) :
    shapeCast ⟨3, ![n, a * b, c]⟩ x h j = x (splitIdx j) :=
  shapeCast_apply x h j (splitIdx j) (by
    rw [Shape.rowMajor_val_four, Shape.rowMajor_val_three]
    show (((j 0).val * a + (j 1).val / b) * b + (j 1).val % b) * c + (j 2).val = ((j 0).val * (a * b) + (j 1).val) * c + (j 2).val
    have e : ((j 0).val * a + (j 1).val / b) * b + (j 1).val % b = (j 0).val * (a * b) + (j 1).val := by
      have hm := Nat.div_add_mod (j 1).val b
      calc ((j 0).val * a + (j 1).val / b) * b + (j 1).val % b
          = (j 0).val * (a * b) + (b * ((j 1).val / b) + (j 1).val % b) := by ring
        _ = (j 0).val * (a * b) + (j 1).val := by rw [hm]
    rw [e])

/-- [64, 24, 6, 2048] reshaped to [64, 144, 2048], read at j. -/
theorem shapeCast_64x144x2048_apply {α : Type} (x : (⟨4, ![64, 24, 6, 2048]⟩ : Shape).Idx → α)
    (h : (⟨4, ![64, 24, 6, 2048]⟩ : Shape).ShapeCasts ⟨3, ![64, 144, 2048]⟩) (j : (⟨3, ![64, 144, 2048]⟩ : Shape).Idx) :
    shapeCast ⟨3, ![64, 144, 2048]⟩ x h j
      = x (ix4 (j 0) ⟨(j 1).val / 6, merged_div_lt (a := 24) (b := 6) (j 1).isLt⟩
          ⟨(j 1).val % 6, merged_mod_lt (a := 24) (b := 6) (j 1).isLt⟩ (j 2)) :=
  shapeCast_merge_apply 64 24 6 2048 x h j

/-! ## The index maps of the two walks -/

/-- The index of [64, 24, 6, 2048] that position j of the reshaped [64, 144, 2048] stands for. -/
abbrev e2048 (j : (⟨3, ![64, 144, 2048]⟩ : Shape).Idx) : (⟨4, ![64, 24, 6, 2048]⟩ : Shape).Idx :=
  ix4 (j 0) ⟨(j 1).val / 6, merged_div_lt (a := 24) (b := 6) (j 1).isLt⟩
    ⟨(j 1).val % 6, merged_mod_lt (a := 24) (b := 6) (j 1).isLt⟩ (j 2)

/-- Entry y of row-block t of [64, 144, 2048]: row 8·t + y₀. -/
abbrev blockRow (t : Fin 8) (y : (⟨3, ![8, 144, 2048]⟩ : Shape).Idx) : (⟨3, ![64, 144, 2048]⟩ : Shape).Idx :=
  ix3 ⟨8 * t.val + (y 0).val, block_pos_lt (n := 8) (B := 8) t (y 0)⟩ (y 1) (y 2)

/-- The row-block that cell q of the [64, 128] output belongs to: ⌊q₀ / 8⌋. -/
abbrev tileOf (q : (⟨2, ![64, 128]⟩ : Shape).Idx) : Fin 8 :=
  ⟨(q 0).val / 8, div_lt_blocks (n := 8) (R := 8) (idx2_lt0 q)⟩

/-- Entry y of the row-block of cell q: row 8·⌊q₀ / 8⌋ + y₀. -/
abbrev rowOf (q : (⟨2, ![64, 128]⟩ : Shape).Idx) (y : (⟨3, ![8, 144, 2048]⟩ : Shape).Idx) :
    (⟨3, ![64, 144, 2048]⟩ : Shape).Idx :=
  blockRow (tileOf q) y

/-- A position of the 2047 neighbour pairs along the last axis, as the pair's later entry … -/
abbrev yUp (y : (⟨3, ![8, 144, 2047]⟩ : Shape).Idx) : (⟨3, ![8, 144, 2048]⟩ : Shape).Idx :=
  ix3 (y 0) (y 1) ⟨(y 2).val + 1, by have h : (y 2).val < 2047 := (y 2).isLt; omega⟩

/-- … and as its earlier entry. -/
abbrev yLo (y : (⟨3, ![8, 144, 2047]⟩ : Shape).Idx) : (⟨3, ![8, 144, 2048]⟩ : Shape).Idx :=
  ix3 (y 0) (y 1) ⟨(y 2).val, by have h : (y 2).val < 2047 := (y 2).isLt; omega⟩

/-- The same for the whole arrays: the pair's later entry … -/
abbrev iUp (i : (⟨4, ![64, 24, 6, 2047]⟩ : Shape).Idx) : (⟨4, ![64, 24, 6, 2048]⟩ : Shape).Idx :=
  ix4 (i 0) (i 1) (i 2) ⟨(i 3).val + 1, by have h : (i 3).val < 2047 := (i 3).isLt; omega⟩

/-- … and its earlier entry. -/
abbrev iLo (i : (⟨4, ![64, 24, 6, 2047]⟩ : Shape).Idx) : (⟨4, ![64, 24, 6, 2048]⟩ : Shape).Idx :=
  ix4 (i 0) (i 1) (i 2) ⟨(i 3).val, by have h : (i 3).val < 2047 := (i 3).isLt; omega⟩

/-! ## The tile law with a sum inside each block -/

/-- Each cell of tile t holds Σ_y F t y (reals): the [64, 128] array summed and divided by 1024 is Σ_t Σ_y F t y. -/
theorem tile_bridge_64 {ι : Type*} [Fintype ι] (F : Fin 8 → ι → ℝ) :
    Ideal.div ((0 : EReal) + ∑ q : (⟨2, ![64, 128]⟩ : Shape).Idx, ∑ y : ι, ((F (tileOf q) y : ℝ) : EReal))
      (Ideal.ofBits .f32 0x44800000#32) = ((∑ t : Fin 8, ∑ y : ι, F t y : ℝ) : EReal) := by
  have h : ∀ q : (⟨2, ![64, 128]⟩ : Shape).Idx,
      ∑ y : ι, ((F (tileOf q) y : ℝ) : EReal) = (((fun t => ∑ y : ι, F t y) (tileOf q) : ℝ) : EReal) :=
    fun q => (Idealize.ShloMosaic.ERealSum.coe_finset_sum Finset.univ (fun y => F (tileOf q) y)).symm
  rw [Finset.sum_congr rfl fun q _ => h q]
  exact tiles_64x128 (fun t => ∑ y : ι, F t y)

/-! ## The two bridges -/

/-- For reals, the square of a difference on the extended reals is the image of the real square. -/
private theorem sq_sub_coe' (a b : ℝ) : ((a : EReal) - (b : EReal)) * ((a : EReal) - (b : EReal)) = (((a - b) * (a - b) : ℝ) : EReal) := by
  rw [← EReal.coe_sub, ← EReal.coe_mul]

/-- For reals, the square of a difference of differences on the extended reals is the image of the real square. -/
private theorem sq_sub_sub_coe' (a b c d : ℝ) :
    (((a : EReal) - (b : EReal)) - ((c : EReal) - (d : EReal))) * (((a : EReal) - (b : EReal)) - ((c : EReal) - (d : EReal)))
      = ((((a - b) - (c - d)) * ((a - b) - (c - d)) : ℝ) : EReal) := by
  rw [← EReal.coe_sub, ← EReal.coe_sub, ← EReal.coe_sub, ← EReal.coe_mul]

/-- THE FIRST BRIDGE: the tiles of block sums of (B0 − B1)², summed and divided by 1024, are the sum of (A0 − A1)² over
    the whole arrays, when B0, B1 are A0, A1 read through the reshape and every entry is a real. -/
theorem recon_bridge (A0 A1 : (⟨4, ![64, 24, 6, 2048]⟩ : Shape).Idx → EReal)
    (B0 B1 : (⟨3, ![64, 144, 2048]⟩ : Shape).Idx → EReal)
    (hB0 : ∀ j, B0 j = A0 (e2048 j)) (hB1 : ∀ j, B1 j = A1 (e2048 j))
    (h0 : ∀ i, ∃ r : ℝ, A0 i = r) (h1 : ∀ i, ∃ r : ℝ, A1 i = r) :
    Ideal.div ((0 : EReal) + ∑ q : (⟨2, ![64, 128]⟩ : Shape).Idx, ∑ y : (⟨3, ![8, 144, 2048]⟩ : Shape).Idx,
        (B0 (rowOf q y) - B1 (rowOf q y)) * (B0 (rowOf q y) - B1 (rowOf q y)))
      (Ideal.ofBits .f32 0x44800000#32)
      = (0 : EReal) + ∑ i : (⟨4, ![64, 24, 6, 2048]⟩ : Shape).Idx, (A0 i - A1 i) * (A0 i - A1 i) := by
  choose a0 ha0 using h0
  choose a1 ha1 using h1
  have hL : ∀ q : (⟨2, ![64, 128]⟩ : Shape).Idx, ∑ y : (⟨3, ![8, 144, 2048]⟩ : Shape).Idx,
        (B0 (rowOf q y) - B1 (rowOf q y)) * (B0 (rowOf q y) - B1 (rowOf q y))
      = ∑ y : (⟨3, ![8, 144, 2048]⟩ : Shape).Idx,
        (((fun (t : Fin 8) (y : (⟨3, ![8, 144, 2048]⟩ : Shape).Idx) =>
            (a0 (e2048 (blockRow t y)) - a1 (e2048 (blockRow t y))) * (a0 (e2048 (blockRow t y)) - a1 (e2048 (blockRow t y))))
          (tileOf q) y : ℝ) : EReal) :=
    fun q => Finset.sum_congr rfl fun y _ => by rw [hB0, hB1, ha0, ha1, sq_sub_coe']
  have hR : ∀ i : (⟨4, ![64, 24, 6, 2048]⟩ : Shape).Idx,
      (A0 i - A1 i) * (A0 i - A1 i) = (((a0 i - a1 i) * (a0 i - a1 i) : ℝ) : EReal) :=
    fun i => by rw [ha0, ha1, sq_sub_coe']
  have hT := tile_bridge_64 (fun (t : Fin 8) (y : (⟨3, ![8, 144, 2048]⟩ : Shape).Idx) =>
    (a0 (e2048 (blockRow t y)) - a1 (e2048 (blockRow t y))) * (a0 (e2048 (blockRow t y)) - a1 (e2048 (blockRow t y))))
  rw [Finset.sum_congr rfl fun q _ => hL q, hT, zero_add, Finset.sum_congr rfl fun i _ => hR i,
    ← Idealize.ShloMosaic.ERealSum.coe_finset_sum]
  congr 1
  exact (sum_merge_blocks_2048 (fun i => (a0 i - a1 i) * (a0 i - a1 i))).symm

/-- THE SECOND BRIDGE: the tiles of block sums of (D[y+1] − D[y])², D = B0 − B1, summed and divided by 1024, are the sum
    over the whole arrays of ((A0[t+1] − A0[t]) − (A1[t+1] − A1[t]))², under the same hypotheses. -/
theorem velocity_bridge (A0 A1 : (⟨4, ![64, 24, 6, 2048]⟩ : Shape).Idx → EReal)
    (B0 B1 : (⟨3, ![64, 144, 2048]⟩ : Shape).Idx → EReal)
    (hB0 : ∀ j, B0 j = A0 (e2048 j)) (hB1 : ∀ j, B1 j = A1 (e2048 j))
    (h0 : ∀ i, ∃ r : ℝ, A0 i = r) (h1 : ∀ i, ∃ r : ℝ, A1 i = r) :
    Ideal.div ((0 : EReal) + ∑ q : (⟨2, ![64, 128]⟩ : Shape).Idx, ∑ y : (⟨3, ![8, 144, 2047]⟩ : Shape).Idx,
        ((B0 (rowOf q (yUp y)) - B1 (rowOf q (yUp y))) - (B0 (rowOf q (yLo y)) - B1 (rowOf q (yLo y))))
          * ((B0 (rowOf q (yUp y)) - B1 (rowOf q (yUp y))) - (B0 (rowOf q (yLo y)) - B1 (rowOf q (yLo y)))))
      (Ideal.ofBits .f32 0x44800000#32)
      = (0 : EReal) + ∑ i : (⟨4, ![64, 24, 6, 2047]⟩ : Shape).Idx,
        ((A0 (iUp i) - A0 (iLo i)) - (A1 (iUp i) - A1 (iLo i))) * ((A0 (iUp i) - A0 (iLo i)) - (A1 (iUp i) - A1 (iLo i))) := by
  choose a0 ha0 using h0
  choose a1 ha1 using h1
  have hL : ∀ q : (⟨2, ![64, 128]⟩ : Shape).Idx, ∑ y : (⟨3, ![8, 144, 2047]⟩ : Shape).Idx,
        ((B0 (rowOf q (yUp y)) - B1 (rowOf q (yUp y))) - (B0 (rowOf q (yLo y)) - B1 (rowOf q (yLo y))))
          * ((B0 (rowOf q (yUp y)) - B1 (rowOf q (yUp y))) - (B0 (rowOf q (yLo y)) - B1 (rowOf q (yLo y))))
      = ∑ y : (⟨3, ![8, 144, 2047]⟩ : Shape).Idx,
        (((fun (t : Fin 8) (y : (⟨3, ![8, 144, 2047]⟩ : Shape).Idx) =>
            ((a0 (e2048 (blockRow t (yUp y))) - a1 (e2048 (blockRow t (yUp y))))
                - (a0 (e2048 (blockRow t (yLo y))) - a1 (e2048 (blockRow t (yLo y)))))
              * ((a0 (e2048 (blockRow t (yUp y))) - a1 (e2048 (blockRow t (yUp y))))
                - (a0 (e2048 (blockRow t (yLo y))) - a1 (e2048 (blockRow t (yLo y))))))
          (tileOf q) y : ℝ) : EReal) :=
    fun q => Finset.sum_congr rfl fun y _ => by rw [hB0, hB1, hB0, hB1, ha0, ha1, ha0, ha1, sq_sub_sub_coe']
  have hR : ∀ i : (⟨4, ![64, 24, 6, 2047]⟩ : Shape).Idx,
      ((A0 (iUp i) - A0 (iLo i)) - (A1 (iUp i) - A1 (iLo i))) * ((A0 (iUp i) - A0 (iLo i)) - (A1 (iUp i) - A1 (iLo i)))
        = ((((a0 (iUp i) - a0 (iLo i)) - (a1 (iUp i) - a1 (iLo i)))
            * ((a0 (iUp i) - a0 (iLo i)) - (a1 (iUp i) - a1 (iLo i))) : ℝ) : EReal) :=
    fun i => by rw [ha0, ha0, ha1, ha1, sq_sub_sub_coe']
  have hT := tile_bridge_64 (fun (t : Fin 8) (y : (⟨3, ![8, 144, 2047]⟩ : Shape).Idx) =>
    ((a0 (e2048 (blockRow t (yUp y))) - a1 (e2048 (blockRow t (yUp y))))
        - (a0 (e2048 (blockRow t (yLo y))) - a1 (e2048 (blockRow t (yLo y)))))
      * ((a0 (e2048 (blockRow t (yUp y))) - a1 (e2048 (blockRow t (yUp y))))
        - (a0 (e2048 (blockRow t (yLo y))) - a1 (e2048 (blockRow t (yLo y))))))
  rw [Finset.sum_congr rfl fun q _ => hL q, hT, zero_add, Finset.sum_congr rfl fun i _ => hR i,
    ← Idealize.ShloMosaic.ERealSum.coe_finset_sum]
  congr 1
  rw [sum_merge_blocks_2047 (fun i => ((a0 (iUp i) - a0 (iLo i)) - (a1 (iUp i) - a1 (iLo i)))
      * ((a0 (iUp i) - a0 (iLo i)) - (a1 (iUp i) - a1 (iLo i))))]
  have law : ∀ p q r s : ℝ, ((p - q) - (r - s)) * ((p - q) - (r - s)) = ((p - r) - (q - s)) * ((p - r) - (q - s)) := by
    intro p q r s; ring
  exact Finset.sum_congr rfl fun t _ => Finset.sum_congr rfl fun y _ => law _ _ _ _

end Cert.Math

end
-- ==== Proof.MathBridge23.lean ====
/-
  From the kernel's tile sums to the reference's sums, for the two terms built from the third input.

  The foot terms are sums over [64, 4, 2047]: 64 rows, 4 joints, 2047 neighbour pairs along the last axis. At row i,
  joint j and position s the contact weight is c = logistic((0.05 − h) · 20), h the joint's height (coordinate 1); a
  step s' → s'+1 weighs cw = (c[s'+1] + c[s']) · 0.5 and costs (vx² + vz²) · cw, v the forward difference of the
  coordinates 0 and 2. The kernel walks the rows in four blocks of 16 and, inside a block, the four joints one after the
  other, adding each joint's sum over [16, 2047] to an accumulator that started at 0; the accumulator is written into
  every cell of an [8, 128] tile of a [32, 128] array, and the host sums that array and divides by 1024. When every
  entry of the input is a real number every summand is one (the images of the reals are closed under sum, difference,
  product and the logistic function), and the quotient is the sum over the whole [64, 4, 2047] index set.
-/
import Idealize.ShloMosaic.Lib.ValueIdx
import proofs.«177773_j59631325938492_2_alg».proof.Proof.LibERealSum
import proofs.«177773_j59631325938492_2_alg».proof.Proof.MathTiles
import proofs.«177773_j59631325938492_2_alg».proof.Proof.MathBlocks

noncomputable section

open scoped BigOperators

namespace Cert.Math

open Idealize.ShloMosaic Idealize.ShloMosaic.ValueIdx

/-! ## Real values are closed under the operations -/

/-- The sum of two reals is a real. -/
theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The difference of two reals is a real. -/
theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

/-- The product of two reals is a real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- The negation of a real is a real. -/
theorem real_neg {x : EReal} (hx : ∃ r : ℝ, x = r) : ∃ r : ℝ, -x = r := by
  obtain ⟨a, rfl⟩ := hx; exact ⟨-a, (EReal.coe_neg a).symm⟩

/-- The logistic function of a real is a real. -/
theorem real_logistic {x : EReal} (hx : ∃ r : ℝ, x = r) : ∃ r : ℝ, Ideal.logistic x = r := by
  obtain ⟨a, rfl⟩ := hx; exact ⟨(1 + Real.exp (-a))⁻¹, Ideal.logistic_coe a⟩

/-- A finite sum of reals is a real. -/
theorem real_sum {ι : Type*} (s : Finset ι) (f : ι → EReal) (h : ∀ k, ∃ r : ℝ, f k = r) : ∃ r : ℝ, ∑ k ∈ s, f k = r := by
  choose g hg using h
  exact ⟨∑ k ∈ s, g k, by rw [Idealize.ShloMosaic.ERealSum.coe_finset_sum]; exact Finset.sum_congr rfl fun k _ => hg k⟩

/-- The float word of +0.0 denotes 0. -/
theorem word_zero : Ideal.ofBits .f32 0x00000000#32 = (0 : EReal) := by simp [Ideal.ofBits, Ideal.ieee]

/-- The float word of 0.05 denotes a real. -/
theorem real_word_005 : ∃ r : ℝ, Ideal.ofBits .f32 0x3D4CCCCD#32 = (r : EReal) := by
  simp [Ideal.ofBits, Ideal.ieee, -EReal.coe_mul]

/-- The float word of 20.0 denotes a real. -/
theorem real_word_20 : ∃ r : ℝ, Ideal.ofBits .f32 0x41A00000#32 = (r : EReal) := by
  simp [Ideal.ofBits, Ideal.ieee, -EReal.coe_mul]

/-- The float word of 0.5 denotes a real. -/
theorem real_word_half : ∃ r : ℝ, Ideal.ofBits .f32 0x3F000000#32 = (r : EReal) := by
  simp [Ideal.ofBits, Ideal.ieee, -EReal.coe_mul]

/-! ## The summands -/

section Summands
variable (A2 : (⟨4, ![64, 24, 3, 2048]⟩ : Shape).Idx → EReal)

/-- The contact weight at row i, joint j, position s: logistic((0.05 − height) · 20). -/
def contactW (i : Fin 64) (j : Fin 24) (s : Fin 2048) : EReal :=
  Ideal.logistic ((Ideal.ofBits .f32 0x3D4CCCCD#32 - A2 (ix4 i j (1 : Fin 3) s)) * Ideal.ofBits .f32 0x41A00000#32)

/-- The position after s' among the 2048. -/
abbrev sUp (s' : Fin 2047) : Fin 2048 := ⟨s'.val + 1, by have h := s'.isLt; omega⟩
/-- The position s' among the 2048. -/
abbrev sLo (s' : Fin 2047) : Fin 2048 := ⟨s'.val, by have h := s'.isLt; omega⟩

/-- The weight of the step s' → s'+1: the mean of the contact weights at its two ends. -/
def stepW (i : Fin 64) (j : Fin 24) (s' : Fin 2047) : EReal :=
  (contactW A2 i j (sUp s') + contactW A2 i j (sLo s')) * Ideal.ofBits .f32 0x3F000000#32

/-- The cost of the step: the squared horizontal speed (coordinates 0 and 2) times the step's weight. -/
def stepLoss (i : Fin 64) (j : Fin 24) (s' : Fin 2047) : EReal :=
  ((A2 (ix4 i j (0 : Fin 3) (sUp s')) - A2 (ix4 i j (0 : Fin 3) (sLo s')))
        * (A2 (ix4 i j (0 : Fin 3) (sUp s')) - A2 (ix4 i j (0 : Fin 3) (sLo s')))
      + (A2 (ix4 i j (2 : Fin 3) (sUp s')) - A2 (ix4 i j (2 : Fin 3) (sLo s')))
        * (A2 (ix4 i j (2 : Fin 3) (sUp s')) - A2 (ix4 i j (2 : Fin 3) (sLo s'))))
    * stepW A2 i j s'

variable {A2}

/-- With real entries the contact weight is a real … -/
theorem real_contactW (hA : ∀ i, ∃ r : ℝ, A2 i = r) (i : Fin 64) (j : Fin 24) (s : Fin 2048) :
    ∃ r : ℝ, contactW A2 i j s = r :=
  real_logistic (real_mul (real_sub real_word_005 (hA _)) real_word_20)

/-- … so is the step's weight … -/
theorem real_stepW (hA : ∀ i, ∃ r : ℝ, A2 i = r) (i : Fin 64) (j : Fin 24) (s' : Fin 2047) :
    ∃ r : ℝ, stepW A2 i j s' = r :=
  real_mul (real_add (real_contactW hA i j _) (real_contactW hA i j _)) real_word_half

/-- … and the step's cost. -/
theorem real_stepLoss (hA : ∀ i, ∃ r : ℝ, A2 i = r) (i : Fin 64) (j : Fin 24) (s' : Fin 2047) :
    ∃ r : ℝ, stepLoss A2 i j s' = r :=
  real_mul (real_add (real_mul (real_sub (hA _) (hA _)) (real_sub (hA _) (hA _)))
    (real_mul (real_sub (hA _) (hA _)) (real_sub (hA _) (hA _)))) (real_stepW hA i j s')

end Summands

/-! ## The tile law for four tiles, each holding an accumulator of four sums -/

/-- The row-block that cell q of the [32, 128] output belongs to: ⌊q₀ / 8⌋. -/
abbrev tileOf32 (q : (⟨2, ![32, 128]⟩ : Shape).Idx) : Fin 4 :=
  ⟨(q 0).val / 8, div_lt_blocks (n := 4) (R := 8) (idx2_lt0 q)⟩

/-- An accumulator that starts at the zero word and receives four sums of reals is the image of the real double sum. -/
theorem acc_four {ι : Type*} [Fintype ι] (h : Fin 4 → ι → ℝ) :
    ((((Ideal.ofBits .f32 0x00000000#32 + ∑ y : ι, ((h 0 y : ℝ) : EReal)) + ∑ y : ι, ((h 1 y : ℝ) : EReal))
        + ∑ y : ι, ((h 2 y : ℝ) : EReal)) + ∑ y : ι, ((h 3 y : ℝ) : EReal))
      = ((∑ f : Fin 4, ∑ y : ι, h f y : ℝ) : EReal) := by
  rw [word_zero, zero_add, Fin.sum_univ_four, EReal.coe_add, EReal.coe_add, EReal.coe_add,
    Idealize.ShloMosaic.ERealSum.coe_finset_sum, Idealize.ShloMosaic.ERealSum.coe_finset_sum,
    Idealize.ShloMosaic.ERealSum.coe_finset_sum, Idealize.ShloMosaic.ERealSum.coe_finset_sum]

/-- THE TILE LAW for accumulated sums: every cell of tile t holds the accumulator of Σ_y G t f y over the four f; the
    [32, 128] array summed from the zero word and divided by 1024 is Σ_t Σ_f Σ_y G t f y. -/
theorem tile_acc_bridge_32 {ι : Type*} [Fintype ι] (G : Fin 4 → Fin 4 → ι → ℝ) :
    Ideal.div (Ideal.ofBits .f32 0x00000000#32 + ∑ q : (⟨2, ![32, 128]⟩ : Shape).Idx,
        ((((Ideal.ofBits .f32 0x00000000#32 + ∑ y : ι, ((G (tileOf32 q) 0 y : ℝ) : EReal))
            + ∑ y : ι, ((G (tileOf32 q) 1 y : ℝ) : EReal)) + ∑ y : ι, ((G (tileOf32 q) 2 y : ℝ) : EReal))
          + ∑ y : ι, ((G (tileOf32 q) 3 y : ℝ) : EReal)))
      (Ideal.ofBits .f32 0x44800000#32) = ((∑ t : Fin 4, ∑ f : Fin 4, ∑ y : ι, G t f y : ℝ) : EReal) := by
  have hc : ∀ q : (⟨2, ![32, 128]⟩ : Shape).Idx,
      ((((Ideal.ofBits .f32 0x00000000#32 + ∑ y : ι, ((G (tileOf32 q) 0 y : ℝ) : EReal))
            + ∑ y : ι, ((G (tileOf32 q) 1 y : ℝ) : EReal)) + ∑ y : ι, ((G (tileOf32 q) 2 y : ℝ) : EReal))
          + ∑ y : ι, ((G (tileOf32 q) 3 y : ℝ) : EReal))
        = (((fun t : Fin 4 => ∑ f : Fin 4, ∑ y : ι, G t f y) (tileOf32 q) : ℝ) : EReal) :=
    fun q => acc_four (fun f y => G (tileOf32 q) f y)
  rw [Finset.sum_congr rfl fun q _ => hc q, word_zero]
  exact tiles_32x128 (fun t : Fin 4 => ∑ f : Fin 4, ∑ y : ι, G t f y)

/-! ## The foot bridge -/

/-- Entry y of row-block t of the 64 rows, at joint slot f: row 16·t + y₀. -/
abbrev footRow (t : Fin 4) (f : Fin 4) (y : (⟨2, ![16, 2047]⟩ : Shape).Idx) : (⟨3, ![64, 4, 2047]⟩ : Shape).Idx :=
  ix3 ⟨16 * t.val + (y 0).val, block_pos_lt (n := 4) (B := 16) t (y 0)⟩ f (y 1)

/-- THE FOOT BRIDGE for a real summand H over [64, 4, 2047]: the tiles of accumulators of the four joints' sums over
    [16, 2047], summed and divided by 1024, are the sum of H over the whole index set. -/
theorem foot_bridge (H : (⟨3, ![64, 4, 2047]⟩ : Shape).Idx → EReal) (hH : ∀ i, ∃ r : ℝ, H i = r) :
    Ideal.div (Ideal.ofBits .f32 0x00000000#32 + ∑ q : (⟨2, ![32, 128]⟩ : Shape).Idx,
        ((((Ideal.ofBits .f32 0x00000000#32 + ∑ y : (⟨2, ![16, 2047]⟩ : Shape).Idx, H (footRow (tileOf32 q) 0 y))
            + ∑ y : (⟨2, ![16, 2047]⟩ : Shape).Idx, H (footRow (tileOf32 q) 1 y))
          + ∑ y : (⟨2, ![16, 2047]⟩ : Shape).Idx, H (footRow (tileOf32 q) 2 y))
        + ∑ y : (⟨2, ![16, 2047]⟩ : Shape).Idx, H (footRow (tileOf32 q) 3 y)))
      (Ideal.ofBits .f32 0x44800000#32)
      = (0 : EReal) + ∑ i : (⟨3, ![64, 4, 2047]⟩ : Shape).Idx, H i := by
  choose g hg using hH
  have hT := tile_acc_bridge_32 (fun (t f : Fin 4) (y : (⟨2, ![16, 2047]⟩ : Shape).Idx) => g (footRow t f y))
  simp only [hg]
  rw [hT, zero_add, ← Idealize.ShloMosaic.ERealSum.coe_finset_sum]
  congr 1
  exact (sum_blocks_64x4x2047 g).symm

/-- The bridge for the weighted squared speeds, with J the four gathered joints. -/
theorem foot_loss_bridge (A2 : (⟨4, ![64, 24, 3, 2048]⟩ : Shape).Idx → EReal) (hA : ∀ i, ∃ r : ℝ, A2 i = r)
    (J : Fin 4 → Fin 24) :
    Ideal.div (Ideal.ofBits .f32 0x00000000#32 + ∑ q : (⟨2, ![32, 128]⟩ : Shape).Idx,
        ((((Ideal.ofBits .f32 0x00000000#32
              + ∑ y : (⟨2, ![16, 2047]⟩ : Shape).Idx,
                  stepLoss A2 ⟨16 * (tileOf32 q).val + (y 0).val, block_pos_lt (n := 4) (B := 16) (tileOf32 q) (y 0)⟩ (J 0) (y 1))
            + ∑ y : (⟨2, ![16, 2047]⟩ : Shape).Idx,
                  stepLoss A2 ⟨16 * (tileOf32 q).val + (y 0).val, block_pos_lt (n := 4) (B := 16) (tileOf32 q) (y 0)⟩ (J 1) (y 1))
          + ∑ y : (⟨2, ![16, 2047]⟩ : Shape).Idx,
                  stepLoss A2 ⟨16 * (tileOf32 q).val + (y 0).val, block_pos_lt (n := 4) (B := 16) (tileOf32 q) (y 0)⟩ (J 2) (y 1))
        + ∑ y : (⟨2, ![16, 2047]⟩ : Shape).Idx,
                  stepLoss A2 ⟨16 * (tileOf32 q).val + (y 0).val, block_pos_lt (n := 4) (B := 16) (tileOf32 q) (y 0)⟩ (J 3) (y 1)))
      (Ideal.ofBits .f32 0x44800000#32)
      = (0 : EReal) + ∑ i : (⟨3, ![64, 4, 2047]⟩ : Shape).Idx, stepLoss A2 (i 0) (J (i 1)) (i 2) :=
  foot_bridge (fun i => stepLoss A2 (i 0) (J (i 1)) (i 2)) (fun i => real_stepLoss hA _ _ _)

/-- The bridge for the step weights. -/
theorem foot_weight_bridge (A2 : (⟨4, ![64, 24, 3, 2048]⟩ : Shape).Idx → EReal) (hA : ∀ i, ∃ r : ℝ, A2 i = r)
    (J : Fin 4 → Fin 24) :
    Ideal.div (Ideal.ofBits .f32 0x00000000#32 + ∑ q : (⟨2, ![32, 128]⟩ : Shape).Idx,
        ((((Ideal.ofBits .f32 0x00000000#32
              + ∑ y : (⟨2, ![16, 2047]⟩ : Shape).Idx,
                  stepW A2 ⟨16 * (tileOf32 q).val + (y 0).val, block_pos_lt (n := 4) (B := 16) (tileOf32 q) (y 0)⟩ (J 0) (y 1))
            + ∑ y : (⟨2, ![16, 2047]⟩ : Shape).Idx,
                  stepW A2 ⟨16 * (tileOf32 q).val + (y 0).val, block_pos_lt (n := 4) (B := 16) (tileOf32 q) (y 0)⟩ (J 1) (y 1))
          + ∑ y : (⟨2, ![16, 2047]⟩ : Shape).Idx,
                  stepW A2 ⟨16 * (tileOf32 q).val + (y 0).val, block_pos_lt (n := 4) (B := 16) (tileOf32 q) (y 0)⟩ (J 2) (y 1))
        + ∑ y : (⟨2, ![16, 2047]⟩ : Shape).Idx,
                  stepW A2 ⟨16 * (tileOf32 q).val + (y 0).val, block_pos_lt (n := 4) (B := 16) (tileOf32 q) (y 0)⟩ (J 3) (y 1)))
      (Ideal.ofBits .f32 0x44800000#32)
      = (0 : EReal) + ∑ i : (⟨3, ![64, 4, 2047]⟩ : Shape).Idx, stepW A2 (i 0) (J (i 1)) (i 2) :=
  foot_bridge (fun i => stepW A2 (i 0) (J (i 1)) (i 2)) (fun i => real_stepW hA _ _ _)

end Cert.Math

end
-- ==== Proof.MathLogistic.lean ====
/-
  The two spellings of the sigmoid agree on every extended real.

  One program writes 1 / (1 + exp(−x)) out with the float word of 1.0 for both ones; the other names the logistic
  function, which on the extended reals is defined as that same quotient with the number 1. The word 0x3F800000 denotes
  the real 1, so the two are the same expression — at ⊤ and ⊥ too, where exp(−x) is 0 and ⊤ and the quotient is 1 and 0.
-/
import Idealize.ShloMosaic.PureOps.Ideal

noncomputable section

namespace Cert.Math

open Idealize.ShloMosaic

/-- The float word 0x3F800000 denotes 1. -/
theorem word_one : Ideal.ofBits .f32 0x3F800000#32 = (1 : EReal) := by
  simp [Ideal.ofBits, Ideal.ieee, -EReal.coe_mul]; norm_num

/-- 1 / (1 + exp(−x)), the ones spelled by their float word, is the logistic function, for every extended real x. -/
theorem sigmoid_eq_logistic (x : EReal) :
    Ideal.div (Ideal.ofBits .f32 0x3F800000#32) (Ideal.ofBits .f32 0x3F800000#32 + Ideal.exp (-x)) = Ideal.logistic x := by
  rw [word_one]
  rfl

/-- The same in the operations' own names: the host's quotient, sum, exponential and negation against the kernel's
    logistic, at one element. -/
theorem sigmoid_ops_eq_logistic (x : Ideal .f32) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) .exp (φ := .f32) (FloatOps.hostNegf (F := Ideal) (φ := .f32) x)))
      = FloatOps.logistic (F := Ideal) (φ := .f32) x :=
  sigmoid_eq_logistic x

/-- The logistic function of a real is a real: 1 / (1 + exp(−r)). -/
theorem logistic_real (r : ℝ) : Ideal.logistic (r : EReal) = (((1 + Real.exp (-r))⁻¹ : ℝ) : EReal) :=
  Ideal.logistic_coe r

end Cert.Math

end
-- ==== Proof.MathRefFoot.lean ====
/-
  The reference's two foot sums in the summands of the tile bridges.

  The reference spells the contact weight as 1 / (1 + exp(−z)) and the squared horizontal speed as a sum over the two
  gathered coordinates started from 0; the tile bridges are stated with the logistic function and with vx² + vz².
  The two spellings agree at every index, on every extended real (no finiteness is needed for this step): the sigmoid
  is the logistic function, and 0 + (a + b) = a + b.
-/
import proofs.«177773_j59631325938492_2_alg».proof.Proof.RefRead
import proofs.«177773_j59631325938492_2_alg».proof.Proof.MathLogistic
import proofs.«177773_j59631325938492_2_alg».proof.Proof.MathBridge23

noncomputable section

open scoped BigOperators

namespace Cert.Math

open Idealize.ShloMosaic Idealize.ShloMosaic.ValueIdx Cert.ReferenceIdeal Cert.ReferenceIdeal.HandRun

/-- The reference's contact weight of a height is the logistic function of (0.05 − height) · 20. -/
theorem sigm_eq_logistic (x : EReal) :
    sigm x = Ideal.logistic ((Ideal.ofBits .f32 0x3D4CCCCD#32 - x) * Ideal.ofBits .f32 0x41A00000#32) :=
  sigmoid_eq_logistic _

/-- The reference's step weight at an index is the bridges' step weight at the gathered joint. -/
theorem cw_eq_stepW (a2 : FVec Ideal S64x24x3x2048 .f32) (i : S64x4x2047.Idx) :
    cw a2 i = stepW a2 (i 0) (jointOf (i 1)) (i 2) := by
  rw [cw_apply, height_apply, height_apply, sigm_eq_logistic, sigm_eq_logistic]
  rfl

/-- The reference's weighted squared speed at an index is the bridges' step cost at the gathered joint. -/
theorem speed2_cw_eq_stepLoss (a2 : FVec Ideal S64x24x3x2048 .f32) (i : S64x4x2047.Idx) :
    speed2 a2 i * cw a2 i = stepLoss a2 (i 0) (jointOf (i 1)) (i 2) := by
  rw [speed2_apply, Fin.sum_univ_two, velxz_apply, velxz_apply, vel_apply, vel_apply, zero_add, cw_eq_stepW]
  rfl

/-- The reference's sum of step weights, in the bridges' summand. -/
theorem r3_eq_sum_stepW (a2 : FVec Ideal S64x24x3x2048 .f32) :
    r3 a2 ix0 = (0 : EReal) + ∑ i : (⟨3, ![64, 4, 2047]⟩ : Shape).Idx, stepW a2 (i 0) (jointOf (i 1)) (i 2) := by
  rw [r3_apply]
  exact congrArg (0 + ·) (Finset.sum_congr rfl fun i _ => cw_eq_stepW a2 i)

/-- The reference's sum of weighted squared speeds, in the bridges' summand. -/
theorem r2_eq_sum_stepLoss (a2 : FVec Ideal S64x24x3x2048 .f32) :
    r2 a2 ix0 = (0 : EReal) + ∑ i : (⟨3, ![64, 4, 2047]⟩ : Shape).Idx, stepLoss a2 (i 0) (jointOf (i 1)) (i 2) := by
  rw [r2_apply]
  exact congrArg (0 + ·) (Finset.sum_congr rfl fun i _ => speed2_cw_eq_stepLoss a2 i)

end Cert.Math

end
-- ==== Proof.MathRefAll.lean ====
/-
  The four tile quotients against the reference's four sums.

  Each bridge ends in a plain sum over the reference's index set; the reference's sums read at the scalar index are
  those same sums. Composed: each of the kernel's four tile quotients is the reference's corresponding sum.
-/
import proofs.«177773_j59631325938492_2_alg».proof.Proof.RefRead
import proofs.«177773_j59631325938492_2_alg».proof.Proof.MathBridge01
import proofs.«177773_j59631325938492_2_alg».proof.Proof.MathBridge23
import proofs.«177773_j59631325938492_2_alg».proof.Proof.MathRefFoot

noncomputable section

open scoped BigOperators

namespace Cert.Math

open Idealize.ShloMosaic Idealize.ShloMosaic.ValueIdx Cert.ReferenceIdeal Cert.ReferenceIdeal.HandRun

/-- The tiles of block sums of (B0 − B1)² against the reference's first sum. -/
theorem recon_bridge_r0 (a0 a1 : FVec Ideal S64x24x6x2048 .f32)
    (B0 B1 : (⟨3, ![64, 144, 2048]⟩ : Shape).Idx → EReal)
    (hB0 : ∀ j, B0 j = a0 (e2048 j)) (hB1 : ∀ j, B1 j = a1 (e2048 j))
    (h0 : ∀ i, ∃ r : ℝ, a0 i = r) (h1 : ∀ i, ∃ r : ℝ, a1 i = r) :
    Ideal.div ((0 : EReal) + ∑ q : (⟨2, ![64, 128]⟩ : Shape).Idx, ∑ y : (⟨3, ![8, 144, 2048]⟩ : Shape).Idx,
        (B0 (rowOf q y) - B1 (rowOf q y)) * (B0 (rowOf q y) - B1 (rowOf q y)))
      (Ideal.ofBits .f32 0x44800000#32) = r0 a0 a1 ix0 :=
  (recon_bridge a0 a1 B0 B1 hB0 hB1 h0 h1).trans (r0_apply a0 a1).symm

/-- The tiles of block sums of the squared neighbour differences against the reference's second sum. -/
theorem velocity_bridge_r1 (a0 a1 : FVec Ideal S64x24x6x2048 .f32)
    (B0 B1 : (⟨3, ![64, 144, 2048]⟩ : Shape).Idx → EReal)
    (hB0 : ∀ j, B0 j = a0 (e2048 j)) (hB1 : ∀ j, B1 j = a1 (e2048 j))
    (h0 : ∀ i, ∃ r : ℝ, a0 i = r) (h1 : ∀ i, ∃ r : ℝ, a1 i = r) :
    Ideal.div ((0 : EReal) + ∑ q : (⟨2, ![64, 128]⟩ : Shape).Idx, ∑ y : (⟨3, ![8, 144, 2047]⟩ : Shape).Idx,
        ((B0 (rowOf q (yUp y)) - B1 (rowOf q (yUp y))) - (B0 (rowOf q (yLo y)) - B1 (rowOf q (yLo y))))
          * ((B0 (rowOf q (yUp y)) - B1 (rowOf q (yUp y))) - (B0 (rowOf q (yLo y)) - B1 (rowOf q (yLo y)))))
      (Ideal.ofBits .f32 0x44800000#32) = r1 a0 a1 ix0 :=
  (velocity_bridge a0 a1 B0 B1 hB0 hB1 h0 h1).trans (r1_apply a0 a1).symm

/-- The tiles of accumulated step costs against the reference's third sum. -/
theorem foot_loss_bridge_r2 (a2 : FVec Ideal S64x24x3x2048 .f32) (hA : ∀ i, ∃ r : ℝ, a2 i = r) :
    Ideal.div (Ideal.ofBits .f32 0x00000000#32 + ∑ q : (⟨2, ![32, 128]⟩ : Shape).Idx,
        ((((Ideal.ofBits .f32 0x00000000#32
              + ∑ y : (⟨2, ![16, 2047]⟩ : Shape).Idx,
                  stepLoss a2 ⟨16 * (tileOf32 q).val + (y 0).val, block_pos_lt (n := 4) (B := 16) (tileOf32 q) (y 0)⟩ (jointOf 0) (y 1))
            + ∑ y : (⟨2, ![16, 2047]⟩ : Shape).Idx,
                  stepLoss a2 ⟨16 * (tileOf32 q).val + (y 0).val, block_pos_lt (n := 4) (B := 16) (tileOf32 q) (y 0)⟩ (jointOf 1) (y 1))
          + ∑ y : (⟨2, ![16, 2047]⟩ : Shape).Idx,
                  stepLoss a2 ⟨16 * (tileOf32 q).val + (y 0).val, block_pos_lt (n := 4) (B := 16) (tileOf32 q) (y 0)⟩ (jointOf 2) (y 1))
        + ∑ y : (⟨2, ![16, 2047]⟩ : Shape).Idx,
                  stepLoss a2 ⟨16 * (tileOf32 q).val + (y 0).val, block_pos_lt (n := 4) (B := 16) (tileOf32 q) (y 0)⟩ (jointOf 3) (y 1)))
      (Ideal.ofBits .f32 0x44800000#32) = r2 a2 ix0 :=
  (foot_loss_bridge a2 hA jointOf).trans (r2_eq_sum_stepLoss a2).symm

/-- The tiles of accumulated step weights against the reference's fourth sum. -/
theorem foot_weight_bridge_r3 (a2 : FVec Ideal S64x24x3x2048 .f32) (hA : ∀ i, ∃ r : ℝ, a2 i = r) :
    Ideal.div (Ideal.ofBits .f32 0x00000000#32 + ∑ q : (⟨2, ![32, 128]⟩ : Shape).Idx,
        ((((Ideal.ofBits .f32 0x00000000#32
              + ∑ y : (⟨2, ![16, 2047]⟩ : Shape).Idx,
                  stepW a2 ⟨16 * (tileOf32 q).val + (y 0).val, block_pos_lt (n := 4) (B := 16) (tileOf32 q) (y 0)⟩ (jointOf 0) (y 1))
            + ∑ y : (⟨2, ![16, 2047]⟩ : Shape).Idx,
                  stepW a2 ⟨16 * (tileOf32 q).val + (y 0).val, block_pos_lt (n := 4) (B := 16) (tileOf32 q) (y 0)⟩ (jointOf 1) (y 1))
          + ∑ y : (⟨2, ![16, 2047]⟩ : Shape).Idx,
                  stepW a2 ⟨16 * (tileOf32 q).val + (y 0).val, block_pos_lt (n := 4) (B := 16) (tileOf32 q) (y 0)⟩ (jointOf 2) (y 1))
        + ∑ y : (⟨2, ![16, 2047]⟩ : Shape).Idx,
                  stepW a2 ⟨16 * (tileOf32 q).val + (y 0).val, block_pos_lt (n := 4) (B := 16) (tileOf32 q) (y 0)⟩ (jointOf 3) (y 1)))
      (Ideal.ofBits .f32 0x44800000#32) = r3 a2 ix0 :=
  (foot_weight_bridge a2 hA jointOf).trans (r3_eq_sum_stepW a2).symm

end Cert.Math

end
-- ==== Proof.Bridge.lean ====
/-
  The kernel's host stretch against the reference's result.

  After the two kernels the host sums each output array from the zero word and divides by 1024 — four quotients — and
  combines them by the same scalar tail the reference applies to its four sums. Each quotient, read at the scalar
  shape's one index, is the quotient the tile bridges are stated for; with real inputs each equals the reference's
  corresponding sum, so the two tails are applied to equal arguments.
-/
import Idealize.ShloMosaic.Lib.IdealHost
import Idealize.ShloMosaic.PureOps.Ideal.Laws
import proofs.«177773_j59631325938492_2_alg».proof.Proof.RefRead
import proofs.«177773_j59631325938492_2_alg».proof.Proof.KIHost
import proofs.«177773_j59631325938492_2_alg».proof.Proof.KIValue0
import proofs.«177773_j59631325938492_2_alg».proof.Proof.MathBridge01
import proofs.«177773_j59631325938492_2_alg».proof.Proof.MathBridge23
import proofs.«177773_j59631325938492_2_alg».proof.Proof.MathRefAll

noncomputable section

open scoped BigOperators

namespace Cert.Bridge

open Idealize.ShloMosaic Idealize.ShloMosaic.ValueIdx Cert.ReferenceIdeal Cert.ReferenceIdeal.HandRun Cert.Math

/-! ## The host's quotient of an output array -/

/-- The [64, 128] output summed from the zero word and divided by the word of 1024, as the host computes it. -/
def quot64 (x : FVec Ideal (⟨2, ![64, 128]⟩ : Shape) .f32)
    (hr : Shape.ReducesTo (⟨2, ![64, 128]⟩ : Shape) [0, 1] (⟨0, ![]⟩ : Shape)) (hp : 0 < (⟨0, ![]⟩ : Shape).numel) :
    FVec Ideal (⟨0, ![]⟩ : Shape) .f32 :=
  Host.divf (F := Ideal) (Host.reduceAdd (F := Ideal) x (constant (F := Ideal) ⟨0, ![]⟩ .f32 0x00000000#32) hr hp)
    (constant (F := Ideal) ⟨0, ![]⟩ .f32 0x44800000#32)

/-- The same for the [32, 128] output. -/
def quot32 (x : FVec Ideal (⟨2, ![32, 128]⟩ : Shape) .f32)
    (hr : Shape.ReducesTo (⟨2, ![32, 128]⟩ : Shape) [0, 1] (⟨0, ![]⟩ : Shape)) (hp : 0 < (⟨0, ![]⟩ : Shape).numel) :
    FVec Ideal (⟨0, ![]⟩ : Shape) .f32 :=
  Host.divf (F := Ideal) (Host.reduceAdd (F := Ideal) x (constant (F := Ideal) ⟨0, ![]⟩ .f32 0x00000000#32) hr hp)
    (constant (F := Ideal) ⟨0, ![]⟩ .f32 0x44800000#32)

/-- The quotient at the one index: the sum over all cells, started from the zero word, divided by the word of 1024. -/
theorem quot64_apply (x : FVec Ideal (⟨2, ![64, 128]⟩ : Shape) .f32)
    (hr : Shape.ReducesTo (⟨2, ![64, 128]⟩ : Shape) [0, 1] (⟨0, ![]⟩ : Shape)) (hp : 0 < (⟨0, ![]⟩ : Shape).numel) :
    quot64 x hr hp ix0
      = Ideal.div (Ideal.ofBits .f32 0x00000000#32 + ∑ q, x q) (Ideal.ofBits .f32 0x44800000#32) := by
  unfold quot64
  show Ideal.div (Host.reduceAdd (F := Ideal) x (constant (F := Ideal) ⟨0, ![]⟩ .f32 0x00000000#32) hr hp ix0)
    (Ideal.ofBits .f32 0x44800000#32) = _
  rw [hostReduceAdd_apply, Ideal.hostReduceAdd_total _ (fun b => b.elim0)]
  rfl

/-- The same for the [32, 128] output. -/
theorem quot32_apply (x : FVec Ideal (⟨2, ![32, 128]⟩ : Shape) .f32)
    (hr : Shape.ReducesTo (⟨2, ![32, 128]⟩ : Shape) [0, 1] (⟨0, ![]⟩ : Shape)) (hp : 0 < (⟨0, ![]⟩ : Shape).numel) :
    quot32 x hr hp ix0
      = Ideal.div (Ideal.ofBits .f32 0x00000000#32 + ∑ q, x q) (Ideal.ofBits .f32 0x44800000#32) := by
  unfold quot32
  show Ideal.div (Host.reduceAdd (F := Ideal) x (constant (F := Ideal) ⟨0, ![]⟩ .f32 0x00000000#32) hr hp ix0)
    (Ideal.ofBits .f32 0x44800000#32) = _
  rw [hostReduceAdd_apply, Ideal.hostReduceAdd_total _ (fun b => b.elim0)]
  rfl

/-! ## What the four output arrays hold -/

/-- Cell q of the first output: its row-block's sum of (B0 − B1)². -/
def reconTile (B0 B1 : (⟨3, ![64, 144, 2048]⟩ : Shape).Idx → EReal) (q : (⟨2, ![64, 128]⟩ : Shape).Idx) : EReal :=
  ∑ y : (⟨3, ![8, 144, 2048]⟩ : Shape).Idx, (B0 (rowOf q y) - B1 (rowOf q y)) * (B0 (rowOf q y) - B1 (rowOf q y))

/-- Cell q of the second output: its row-block's sum of the squared neighbour differences of B0 − B1. -/
def velTile (B0 B1 : (⟨3, ![64, 144, 2048]⟩ : Shape).Idx → EReal) (q : (⟨2, ![64, 128]⟩ : Shape).Idx) : EReal :=
  ∑ y : (⟨3, ![8, 144, 2047]⟩ : Shape).Idx,
    ((B0 (rowOf q (yUp y)) - B1 (rowOf q (yUp y))) - (B0 (rowOf q (yLo y)) - B1 (rowOf q (yLo y))))
      * ((B0 (rowOf q (yUp y)) - B1 (rowOf q (yUp y))) - (B0 (rowOf q (yLo y)) - B1 (rowOf q (yLo y))))

/-- The accumulator of four joint sums of a summand over the [16, 2047] block of cell q's row-block. -/
def accTile (S : Fin 64 → Fin 24 → Fin 2047 → EReal) (J : Fin 4 → Fin 24) (q : (⟨2, ![32, 128]⟩ : Shape).Idx) : EReal :=
  ((((Ideal.ofBits .f32 0x00000000#32
        + ∑ y : (⟨2, ![16, 2047]⟩ : Shape).Idx,
            S ⟨16 * (tileOf32 q).val + (y 0).val, block_pos_lt (n := 4) (B := 16) (tileOf32 q) (y 0)⟩ (J 0) (y 1))
      + ∑ y : (⟨2, ![16, 2047]⟩ : Shape).Idx,
            S ⟨16 * (tileOf32 q).val + (y 0).val, block_pos_lt (n := 4) (B := 16) (tileOf32 q) (y 0)⟩ (J 1) (y 1))
    + ∑ y : (⟨2, ![16, 2047]⟩ : Shape).Idx,
            S ⟨16 * (tileOf32 q).val + (y 0).val, block_pos_lt (n := 4) (B := 16) (tileOf32 q) (y 0)⟩ (J 2) (y 1))
  + ∑ y : (⟨2, ![16, 2047]⟩ : Shape).Idx,
            S ⟨16 * (tileOf32 q).val + (y 0).val, block_pos_lt (n := 4) (B := 16) (tileOf32 q) (y 0)⟩ (J 3) (y 1))

/-! ## The four quotients are the reference's four sums -/

section Quotients
variable (A0 A1 : FVec Ideal S64x24x6x2048 .f32) (A2 : FVec Ideal S64x24x3x2048 .f32)
  (h0 : ∀ i, ∃ r : ℝ, A0 i = r) (h1 : ∀ i, ∃ r : ℝ, A1 i = r) (h2 : ∀ i, ∃ r : ℝ, A2 i = r)
  (B0 B1 : (⟨3, ![64, 144, 2048]⟩ : Shape).Idx → EReal)
  (hB0 : ∀ j, B0 j = A0 (e2048 j)) (hB1 : ∀ j, B1 j = A1 (e2048 j))
  (hr64 : Shape.ReducesTo (⟨2, ![64, 128]⟩ : Shape) [0, 1] (⟨0, ![]⟩ : Shape))
  (hr32 : Shape.ReducesTo (⟨2, ![32, 128]⟩ : Shape) [0, 1] (⟨0, ![]⟩ : Shape))
  (hp : 0 < (⟨0, ![]⟩ : Shape).numel)

include h0 h1 hB0 hB1 in
/-- The first quotient is the reference's first sum. -/
theorem quot_recon (o0 : FVec Ideal (⟨2, ![64, 128]⟩ : Shape) .f32) (e0 : ∀ q, o0 q = reconTile B0 B1 q) :
    quot64 o0 hr64 hp = r0 A0 A1 := by
  funext i
  rw [eq_ix0 i, quot64_apply, Math.word_zero, Finset.sum_congr rfl fun q _ => e0 q]
  exact recon_bridge_r0 A0 A1 B0 B1 hB0 hB1 h0 h1

include h0 h1 hB0 hB1 in
/-- The second quotient is the reference's second sum. -/
theorem quot_vel (o1 : FVec Ideal (⟨2, ![64, 128]⟩ : Shape) .f32) (e1 : ∀ q, o1 q = velTile B0 B1 q) :
    quot64 o1 hr64 hp = r1 A0 A1 := by
  funext i
  rw [eq_ix0 i, quot64_apply, Math.word_zero, Finset.sum_congr rfl fun q _ => e1 q]
  exact velocity_bridge_r1 A0 A1 B0 B1 hB0 hB1 h0 h1

include h2 in
/-- The third quotient is the reference's third sum. -/
theorem quot_loss (o2 : FVec Ideal (⟨2, ![32, 128]⟩ : Shape) .f32) (e2 : ∀ q, o2 q = accTile (stepLoss A2) jointOf q) :
    quot32 o2 hr32 hp = r2 A2 := by
  funext i
  rw [eq_ix0 i, quot32_apply, Finset.sum_congr rfl fun q _ => e2 q]
  exact foot_loss_bridge_r2 A2 h2

include h2 in
/-- The fourth quotient is the reference's fourth sum. -/
theorem quot_weight (o3 : FVec Ideal (⟨2, ![32, 128]⟩ : Shape) .f32) (e3 : ∀ q, o3 q = accTile (stepW A2) jointOf q) :
    quot32 o3 hr32 hp = r3 A2 := by
  funext i
  rw [eq_ix0 i, quot32_apply, Finset.sum_congr rfl fun q _ => e3 q]
  exact foot_weight_bridge_r3 A2 h2

include h0 h1 h2 hB0 hB1 in
/-- THE TOTAL: the scalar tail of the kernel's four quotients is the scalar tail of the reference's four sums. -/
theorem total_eq (o0 o1 : FVec Ideal (⟨2, ![64, 128]⟩ : Shape) .f32) (o2 o3 : FVec Ideal (⟨2, ![32, 128]⟩ : Shape) .f32)
    (e0 : ∀ q, o0 q = reconTile B0 B1 q) (e1 : ∀ q, o1 q = velTile B0 B1 q)
    (e2 : ∀ q, o2 q = accTile (stepLoss A2) jointOf q) (e3 : ∀ q, o3 q = accTile (stepW A2) jointOf q) :
    tail (quot64 o0 hr64 hp) (quot64 o1 hr64 hp) (quot32 o2 hr32 hp) (quot32 o3 hr32 hp)
      = tail (r0 A0 A1) (r1 A0 A1) (r2 A2) (r3 A2) := by
  rw [quot_recon A0 A1 h0 h1 B0 B1 hB0 hB1 hr64 hp o0 e0, quot_vel A0 A1 h0 h1 B0 B1 hB0 hB1 hr64 hp o1 e1,
    quot_loss A2 h2 hr32 hp o2 e2, quot_weight A2 h2 hr32 hp o3 e3]

end Quotients

/-! ## The same over the kernel program's own names -/

section Kernel
variable (A0 A1 : FVec Ideal (⟨4, ![64, 24, 6, 2048]⟩ : Shape) .f32) (A2 : FVec Ideal (⟨4, ![64, 24, 3, 2048]⟩ : Shape) .f32)
  (h0 : ∀ i, ∃ r : ℝ, A0 i = r) (h1 : ∀ i, ∃ r : ℝ, A1 i = r) (h2 : ∀ i, ∃ r : ℝ, A2 i = r)
  (B0 B1 : (⟨3, ![64, 144, 2048]⟩ : Shape).Idx → EReal)
  (hB0 : ∀ j, B0 j = A0 (e2048 j)) (hB1 : ∀ j, B1 j = A1 (e2048 j))

/-- The first region's first output array, as the kernel's value lemma names it, is the tile of (B0 − B1)² block sums. -/
theorem G2_eq_reconTile (q : (⟨2, ![64, 128]⟩ : Shape).Idx) : Cert.KernelIdeal.Hand0.G2 B0 B1 q = reconTile B0 B1 q := rfl

/-- The first region's second output array is the tile of squared neighbour-difference block sums. -/
theorem G3_eq_velTile (q : (⟨2, ![64, 128]⟩ : Shape).Idx) : Cert.KernelIdeal.Hand0.G3 B0 B1 q = velTile B0 B1 q := rfl

include h0 h1 h2 hB0 hB1 in
/-- THE TOTAL over the kernel program's host sums: the tail of the four scaled sums of the output arrays is the tail of
    the reference's four sums. -/
theorem total_eq_k (o0 o1 : FVec Ideal (⟨2, ![64, 128]⟩ : Shape) .f32) (o2 o3 : FVec Ideal (⟨2, ![32, 128]⟩ : Shape) .f32)
    (e0 : ∀ q, o0 q = Cert.KernelIdeal.Hand0.G2 B0 B1 q) (e1 : ∀ q, o1 q = Cert.KernelIdeal.Hand0.G3 B0 B1 q)
    (e2 : ∀ q, o2 q = accTile (stepLoss A2) jointOf q) (e3 : ∀ q, o3 q = accTile (stepW A2) jointOf q) :
    Cert.ReferenceIdeal.HandRun.tail (Cert.KernelIdeal.HandRun.ksumA (F := Ideal) o0) (Cert.KernelIdeal.HandRun.ksumA (F := Ideal) o1)
        (Cert.KernelIdeal.HandRun.ksumB (F := Ideal) o2) (Cert.KernelIdeal.HandRun.ksumB (F := Ideal) o3)
      = Cert.ReferenceIdeal.HandRun.tail (r0 A0 A1) (r1 A0 A1) (r2 A2) (r3 A2) :=
  total_eq A0 A1 A2 h0 h1 h2 B0 B1 hB0 hB1 _ _ _ o0 o1 o2 o3
    (fun q => (e0 q).trans (G2_eq_reconTile B0 B1 q)) (fun q => (e1 q).trans (G3_eq_velTile B0 B1 q)) e2 e3

end Kernel

end Cert.Bridge

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.MathFinite.lean ====
/-
  From the precondition "every entry of the three inputs is finite" to "every entry is the image of a real number".

  The predicate tests, for each input array x, whether |x| < +∞ holds at every entry (a reduction by "and" over all axes,
  started from true) and conjoins the three results. If the conjunction is true, each of the three reductions is true,
  so each entry passes its test, and an extended real whose absolute value is below ⊤ is a real.
-/
import Idealize.ShloMosaic.Lib.ReduceAll
import Idealize.ShloMosaic.Lib.ValueIdx
import proofs.«177773_j59631325938492_2_alg».proof.Pre_finite_inputs
import proofs.«177773_j59631325938492_2_alg».proof.Proof.Gen.Pre_finite_inputs
import proofs.«177773_j59631325938492_2_alg».proof.Proof.LibFiniteTest

noncomputable section

namespace Cert.Math

open Idealize.ShloMosaic Idealize.ShloMosaic.ValueIdx Cert.Pre_finite_inputs

/-- Inputs that satisfy the finiteness predicate have a real number at every entry. -/
theorem real_entries (a0 a1 : FVec Ideal S64x24x6x2048 .f32) (a2 : FVec Ideal S64x24x3x2048 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  haveI := Idealize.ShloMosaic.FiniteTest.subsingleton_scalarIdx
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact Idealize.ShloMosaic.FiniteTest.real_of_test a0 _ i (Host.reduce_andi_all _ _ _ _ _ h0' i)
  · exact Idealize.ShloMosaic.FiniteTest.real_of_test a1 _ i (Host.reduce_andi_all _ _ _ _ _ h1 i)
  · exact Idealize.ShloMosaic.FiniteTest.real_of_test a2 _ i (Host.reduce_andi_all _ _ _ _ _ h2 i)

end Cert.Math

end
-- ==== Proof.KIPieces1.lean ====
import proofs.«177773_j59631325938492_2_alg».proof.Proof.KIRegion1
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What each control case leaves in each tile, as the payload of the values it loaded -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Middle case, first scratch tile: the running total plus the block's loss sum. -/
theorem piece_B_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i) (x0 : Vec F S16x1x3x2048 .f32) (xs0 xs1 : Vec F S8x128 .f32) :
    rb (kernelRun1_B c i arg2 harg2 arg3 harg3 arg4 harg4 arg5 harg5 arg6 harg6 arg7 harg7 hc0 hc1 x0 xs0 xs1).1 = k1_pay6 x0 xs0 := by
  unfold rb
  rw [View.read_writes_eq_canon _ _ _ (scover1_B_0 c i arg2 harg2 arg3 harg3 arg4 harg4 arg5 harg5 arg6 harg6 arg7 harg7 hc0 hc1 x0 xs0 xs1)]
  unfold kernelRun1_B
  dsimp only
  rw [View.canon_unit_zero hz2]
  simp only [View.readAt_eq_ld, harg3.read_unread, harg6.read_unread, View.ld_unit_zero (S := S16x1x3x2048) hz4, View.ld_unit_zero (S := S8x128) hz2]

/-- Middle case, second scratch tile: the running total plus the block's contact-weight sum. -/
theorem piece_B_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : ¬cond1_1 i) (x0 : Vec F S16x1x3x2048 .f32) (xs0 xs1 : Vec F S8x128 .f32) :
    rb (kernelRun1_B c i arg2 harg2 arg3 harg3 arg4 harg4 arg5 harg5 arg6 harg6 arg7 harg7 hc0 hc1 x0 xs0 xs1).2.1 = k1_pay1 (k1_pay5 x0) xs1 := by
  unfold rb
  rw [View.read_writes_eq_canon _ _ _ (scover1_B_1 c i arg2 harg2 arg3 harg3 arg4 harg4 arg5 harg5 arg6 harg6 arg7 harg7 hc0 hc1 x0 xs0 xs1)]
  unfold kernelRun1_B
  dsimp only
  rw [View.canon_unit_zero hz2]
  simp only [View.readAt_eq_ld, harg3.read_unread, harg7.read_unread, View.ld_unit_zero (S := S16x1x3x2048) hz4, View.ld_unit_zero (S := S8x128) hz2]

/-- First case, first scratch tile: the zero tile plus the block's loss sum (the cleared tile is what the add reads). -/
theorem piece_A_0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i) (x0 : Vec F S16x1x3x2048 .f32) :
    rb (kernelRun1_A c i arg2 harg2 arg3 harg3 arg4 harg4 arg5 harg5 arg6 harg6 arg7 harg7 hc0 hc1 x0).1 = k1_pay6 x0 (k1_pay2 (F := F)) := by
  unfold rb
  rw [View.read_writes_eq_canon _ _ _ (scover1_A_0 c i arg2 harg2 arg3 harg3 arg4 harg4 arg5 harg5 arg6 harg6 arg7 harg7 hc0 hc1 x0)]
  unfold kernelRun1_A
  dsimp only
  sl_unfold_words
  rw [View.canon_cons_unit_zero (S := S8x128) hz2, View.readCov_unit_zero (S := S8x128) _ hz2]
  simp only [View.readAt_eq_ld, harg3.read_unread, View.ld_unit_zero (S := S16x1x3x2048) hz4]

/-- First case, second scratch tile: the zero tile plus the block's contact-weight sum. -/
theorem piece_A_1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : cond1_0 i) (hc1 : ¬cond1_1 i) (x0 : Vec F S16x1x3x2048 .f32) :
    rb (kernelRun1_A c i arg2 harg2 arg3 harg3 arg4 harg4 arg5 harg5 arg6 harg6 arg7 harg7 hc0 hc1 x0).2.1 = k1_pay1 (k1_pay5 x0) (k1_pay3 (F := F)) := by
  unfold rb
  rw [View.read_writes_eq_canon _ _ _ (scover1_A_1 c i arg2 harg2 arg3 harg3 arg4 harg4 arg5 harg5 arg6 harg6 arg7 harg7 hc0 hc1 x0)]
  unfold kernelRun1_A
  dsimp only
  sl_unfold_words
  rw [View.canon_cons_unit_zero (S := S8x128) hz2, View.readCov_unit_zero (S := S8x128) _ hz2]
  simp only [View.readAt_eq_ld, harg3.read_unread, View.ld_unit_zero (S := S16x1x3x2048) hz4]

/-- Last case, first scratch tile: as in the middle case. -/
theorem piece_C_s0 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) :
    rb (kernelRun1_C c i arg2 harg2 arg3 harg3 arg4 harg4 arg5 harg5 arg6 harg6 arg7 harg7 hc0 hc1 x0 xs0 xs1).2.2.1 = k1_pay6 x0 xs0 := by
  unfold rb
  rw [View.read_writes_eq_canon _ _ _ (scover1_C_0 c i arg2 harg2 arg3 harg3 arg4 harg4 arg5 harg5 arg6 harg6 arg7 harg7 hc0 hc1 x0 xs0 xs1)]
  unfold kernelRun1_C
  dsimp only
  sl_unfold_words
  rw [View.canon_unit_zero hz2]
  simp only [View.readAt_eq_ld, harg3.read_unread, harg6.read_unread, View.ld_unit_zero (S := S16x1x3x2048) hz4, View.ld_unit_zero (S := S8x128) hz2]

/-- Last case, second scratch tile: as in the middle case. -/
theorem piece_C_s1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) :
    rb (kernelRun1_C c i arg2 harg2 arg3 harg3 arg4 harg4 arg5 harg5 arg6 harg6 arg7 harg7 hc0 hc1 x0 xs0 xs1).2.2.2.1 = k1_pay1 (k1_pay5 x0) xs1 := by
  unfold rb
  rw [View.read_writes_eq_canon _ _ _ (scover1_C_1 c i arg2 harg2 arg3 harg3 arg4 harg4 arg5 harg5 arg6 harg6 arg7 harg7 hc0 hc1 x0 xs0 xs1)]
  unfold kernelRun1_C
  dsimp only
  sl_unfold_words
  rw [View.canon_unit_zero hz2]
  simp only [View.readAt_eq_ld, harg3.read_unread, harg7.read_unread, View.ld_unit_zero (S := S16x1x3x2048) hz4, View.ld_unit_zero (S := S8x128) hz2]

/-- Last case, first output tile: a copy of the first scratch tile after its store. -/
theorem piece_C_o1 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) :
    rb (kernelRun1_C c i arg2 harg2 arg3 harg3 arg4 harg4 arg5 harg5 arg6 harg6 arg7 harg7 hc0 hc1 x0 xs0 xs1).1 = k1_pay6 x0 xs0 := by
  unfold rb
  rw [View.read_writes_eq_canon _ _ _ (cover1_C_1 c i arg2 harg2 arg3 harg3 arg4 harg4 arg5 harg5 arg6 harg6 arg7 harg7 hc0 hc1 x0 xs0 xs1)]
  unfold kernelRun1_C
  dsimp only
  sl_unfold_words
  rw [View.canon_unit_zero hz2, View.readCov_unit_zero (S := S8x128) _ hz2]
  simp only [View.readAt_eq_ld, harg3.read_unread, harg6.read_unread, View.ld_unit_zero (S := S16x1x3x2048) hz4, View.ld_unit_zero (S := S8x128) hz2]

/-- Last case, second output tile: a copy of the second scratch tile after its store. -/
theorem piece_C_o2 (c : Dev nD) (i : grid1.Coords) (arg2 : Memref sig .tc .smem S4 .i32) (harg2 : arg2.IsWhole)
    (arg3 : Memref sig .tc .vmem S16x1x3x2048 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole) (hc0 : ¬cond1_0 i) (hc1 : cond1_1 i) (x0 : Vec F S16x1x3x2048 .f32) (xs0 xs1 : Vec F S8x128 .f32) :
    rb (kernelRun1_C c i arg2 harg2 arg3 harg3 arg4 harg4 arg5 harg5 arg6 harg6 arg7 harg7 hc0 hc1 x0 xs0 xs1).2.1 = k1_pay1 (k1_pay5 x0) xs1 := by
  unfold rb
  rw [View.read_writes_eq_canon _ _ _ (cover1_C_2 c i arg2 harg2 arg3 harg3 arg4 harg4 arg5 harg5 arg6 harg6 arg7 harg7 hc0 hc1 x0 xs0 xs1)]
  unfold kernelRun1_C
  dsimp only
  sl_unfold_words
  rw [View.canon_unit_zero hz2, View.readCov_unit_zero (S := S8x128) _ hz2]
  simp only [View.readAt_eq_ld, harg3.read_unread, harg7.read_unread, View.ld_unit_zero (S := S16x1x3x2048) hz4, View.ld_unit_zero (S := S8x128) hz2]

end Cert.KernelIdeal.Hand1

end
-- ==== Proof.KIAccum1.lean ====
import proofs.«177773_j59631325938492_2_alg».proof.Proof.KIPieces1

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The two running totals, point by point (any float values)

Each store into a scratch tile writes the tile's previous contents plus one number broadcast over the tile: the sum,
over the 16 x 2047 positions of the block, of the loss (first tile) or of the contact weight (second tile). -/

/-- The loss at every position of a block: the squared horizontal displacement between consecutive frames
    (channels 0 and 2) times the contact weight. -/
def lossVec (v3 : Vec F S16x1x3x2048 .f32) : FVec F S16x2047 .f32 :=
  mulf (addf
      (mulf (subf (shapeCast S16x2047 (extractStridedSlice S16x1x2047 ![0, 0, 1] (k1_pay4 v3) slices_S16x3x2048_o0_0_1_S16x1x2047) shapeCasts_S16x1x2047_S16x2047)
                  (shapeCast S16x2047 (extractStridedSlice S16x1x2047 ![0, 0, 0] (k1_pay4 v3) slices_S16x3x2048_o0_0_0_S16x1x2047) shapeCasts_S16x1x2047_S16x2047))
            (subf (shapeCast S16x2047 (extractStridedSlice S16x1x2047 ![0, 0, 1] (k1_pay4 v3) slices_S16x3x2048_o0_0_1_S16x1x2047) shapeCasts_S16x1x2047_S16x2047)
                  (shapeCast S16x2047 (extractStridedSlice S16x1x2047 ![0, 0, 0] (k1_pay4 v3) slices_S16x3x2048_o0_0_0_S16x1x2047) shapeCasts_S16x1x2047_S16x2047)))
      (mulf (subf (shapeCast S16x2047 (extractStridedSlice S16x1x2047 ![0, 2, 1] (k1_pay4 v3) slices_S16x3x2048_o0_2_1_S16x1x2047) shapeCasts_S16x1x2047_S16x2047)
                  (shapeCast S16x2047 (extractStridedSlice S16x1x2047 ![0, 2, 0] (k1_pay4 v3) slices_S16x3x2048_o0_2_0_S16x1x2047) shapeCasts_S16x1x2047_S16x2047))
            (subf (shapeCast S16x2047 (extractStridedSlice S16x1x2047 ![0, 2, 1] (k1_pay4 v3) slices_S16x3x2048_o0_2_1_S16x1x2047) shapeCasts_S16x1x2047_S16x2047)
                  (shapeCast S16x2047 (extractStridedSlice S16x1x2047 ![0, 2, 0] (k1_pay4 v3) slices_S16x3x2048_o0_2_0_S16x1x2047) shapeCasts_S16x1x2047_S16x2047))))
    (k1_pay5 v3)

/-- The sum of a 16 x 2047 array as the kernel takes it: one reduction over both axes, its one entry extracted. -/
def totOf (w : FVec F S16x2047 .f32) : F .f32 :=
  extractAt ![0, 0, 0]
    (shapeCast S1x1x1 (multiReduction .add [1, 2] S1 (shapeCast S1x16x2047 w shapeCasts_S16x2047_S1x16x2047) 0x00000000#32 reduces_S1x16x2047_S1 (.inl rfl) rfl) shapeCasts_S1_S1x1x1)
    inpos_S1x1x1_p0_0_0

/-- The first tile's store: the tile it read plus the block's loss sum on every entry. -/
theorem k1_pay6_eq (v3 : Vec F S16x1x3x2048 .f32) (v31 : Vec F S8x128 .f32) :
    k1_pay6 v3 v31 = addf v31 (broadcast S8x128 (totOf (lossVec v3))) := by
  unfold k1_pay6 lossVec totOf
  exact shapeCast_self _ _

/-- The second tile's store: the tile it read plus the given array's sum on every entry. -/
theorem k1_pay1_eq (v26 : FVec F S16x2047 .f32) (v41 : Vec F S8x128 .f32) :
    k1_pay1 v26 v41 = addf v41 (broadcast S8x128 (totOf v26)) := by
  unfold k1_pay1 totOf
  exact shapeCast_self _ _

/-- The zero tile the first point of a row block stores. -/
abbrev zeroTile : Vec F S8x128 .f32 := broadcast S8x128 (Scalar.ofBits .f32 0x00000000#32)

theorem k1_pay2_eq : k1_pay2 (F := F) = zeroTile := by unfold k1_pay2; exact shapeCast_self _ _
theorem k1_pay3_eq : k1_pay3 (F := F) = zeroTile := by unfold k1_pay3; exact shapeCast_self _ _

/-- What a point adds to the first tile, to the second tile, given the block it reads. -/
def add0 (x : Vec F S16x1x3x2048 .f32) : Vec F S8x128 .f32 := broadcast S8x128 (totOf (lossVec x))
def add1 (x : Vec F S16x1x3x2048 .f32) : Vec F S8x128 .f32 := broadcast S8x128 (totOf (k1_pay5 x))

variable (a : (pcfg1 (F := F)).Adm)
variable (V : (c : Dev nD) → (b : Ref sig .tc) → Buf (Elt F) ((c : Thread nD τ).loc b))

/-! ## The three cases, at a point -/

theorem tilesA_s0 (c : Dev nD) (t : Fin (cfg1 a).N) (h0 : cond1_0 (grid1.coords t)) (h1 : ¬cond1_1 (grid1.coords t)) :
    (tilesA a V c t h0 h1).2.2.1 = addf zeroTile (add0 (iblk1 a V c 0 t)) := by
  unfold tilesA; dsimp only
  exact (piece_A_0 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t)).trans ((k1_pay6_eq _ _).trans (by rw [k1_pay2_eq]; rfl))
theorem tilesA_s1 (c : Dev nD) (t : Fin (cfg1 a).N) (h0 : cond1_0 (grid1.coords t)) (h1 : ¬cond1_1 (grid1.coords t)) :
    (tilesA a V c t h0 h1).2.2.2 = addf zeroTile (add1 (iblk1 a V c 0 t)) := by
  unfold tilesA; dsimp only
  exact (piece_A_1 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t)).trans ((k1_pay1_eq _ _).trans (by rw [k1_pay3_eq]; rfl))
theorem tilesB_s0 (c : Dev nD) (t : Fin (cfg1 a).N) (h0 : ¬cond1_0 (grid1.coords t)) (h1 : ¬cond1_1 (grid1.coords t)) (p : Tiles F) :
    (tilesB a V c t h0 h1 p).2.2.1 = addf p.2.2.1 (add0 (iblk1 a V c 0 t)) := by
  unfold tilesB; dsimp only
  exact (piece_B_0 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).trans (k1_pay6_eq _ _)
theorem tilesB_s1 (c : Dev nD) (t : Fin (cfg1 a).N) (h0 : ¬cond1_0 (grid1.coords t)) (h1 : ¬cond1_1 (grid1.coords t)) (p : Tiles F) :
    (tilesB a V c t h0 h1 p).2.2.2 = addf p.2.2.2 (add1 (iblk1 a V c 0 t)) := by
  unfold tilesB; dsimp only
  exact (piece_B_1 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).trans (k1_pay1_eq _ _)
theorem tilesC_s0 (c : Dev nD) (t : Fin (cfg1 a).N) (h0 : ¬cond1_0 (grid1.coords t)) (h1 : cond1_1 (grid1.coords t)) (p : Tiles F) :
    (tilesC a V c t h0 h1 p).2.2.1 = addf p.2.2.1 (add0 (iblk1 a V c 0 t)) := by
  unfold tilesC; dsimp only
  exact (piece_C_s0 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).trans (k1_pay6_eq _ _)
theorem tilesC_s1 (c : Dev nD) (t : Fin (cfg1 a).N) (h0 : ¬cond1_0 (grid1.coords t)) (h1 : cond1_1 (grid1.coords t)) (p : Tiles F) :
    (tilesC a V c t h0 h1 p).2.2.2 = addf p.2.2.2 (add1 (iblk1 a V c 0 t)) := by
  unfold tilesC; dsimp only
  exact (piece_C_s1 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).trans (k1_pay1_eq _ _)
theorem tilesC_o1 (c : Dev nD) (t : Fin (cfg1 a).N) (h0 : ¬cond1_0 (grid1.coords t)) (h1 : cond1_1 (grid1.coords t)) (p : Tiles F) :
    (tilesC a V c t h0 h1 p).1 = addf p.2.2.1 (add0 (iblk1 a V c 0 t)) := by
  unfold tilesC; dsimp only
  exact (piece_C_o1 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).trans (k1_pay6_eq _ _)
theorem tilesC_o2 (c : Dev nD) (t : Fin (cfg1 a).N) (h0 : ¬cond1_0 (grid1.coords t)) (h1 : cond1_1 (grid1.coords t)) (p : Tiles F) :
    (tilesC a V c t h0 h1 p).2.1 = addf p.2.2.2 (add1 (iblk1 a V c 0 t)) := by
  unfold tilesC; dsimp only
  exact (piece_C_o2 c (grid1.coords t) (Memref.whole main_c) (Memref.isWhole_whole _) (ms1_0 a t) (hs1_0 a t) (ms1_1 a t) (hs1_1 a t) (ms1_2 a t) (hs1_2 a t) scM1_0 (Memref.isWhole_whole _) scM1_1 (Memref.isWhole_whole _) h0 h1 (iblk1 a V c 0 t) p.2.2.1 p.2.2.2).trans (k1_pay1_eq _ _)

/-- What point `n` adds to the first tile. -/
def addAt0 (c : Dev nD) (n : ℕ) (h : n < (cfg1 a).N) : Vec F S8x128 .f32 := add0 (iblk1 a V c 0 ⟨n, h⟩)

/-- The first running total after point `n`: restarted from the zero tile at the first point of a row block,
    continued at the others. -/
def chain0 (c : Dev nD) : (n : ℕ) → n < (cfg1 a).N → Vec F S8x128 .f32
  | 0, h => addf zeroTile (addAt0 a V c 0 h)
  | n + 1, h => if (n + 1) % 4 = 0 then addf zeroTile (addAt0 a V c (n + 1) h)
      else addf (chain0 c n (Nat.lt_of_succ_lt h)) (addAt0 a V c (n + 1) h)

theorem chain0_reset (c : Dev nD) (n : ℕ) (h : n < (cfg1 a).N) (h0 : n % 4 = 0) :
    chain0 a V c n h = addf zeroTile (addAt0 a V c n h) := by
  cases n with
  | zero => rfl
  | succ n => exact if_pos h0
theorem chain0_step (c : Dev nD) (n : ℕ) (h : n + 1 < (cfg1 a).N) (h0 : ¬(n + 1) % 4 = 0) :
    chain0 a V c (n + 1) h = addf (chain0 a V c n (Nat.lt_of_succ_lt h)) (addAt0 a V c (n + 1) h) := if_neg h0

/-- At the last point of a row block the total is the four addends of the block's points, added in order to the zero tile. -/
theorem chain0_last (c : Dev nD) (n : ℕ) (h : n + 3 < (cfg1 a).N) (h0 : n % 4 = 0) :
    chain0 a V c (n + 3) h
      = addf (addf (addf (addf zeroTile (addAt0 a V c n (by omega))) (addAt0 a V c (n + 1) (by omega))) (addAt0 a V c (n + 2) (by omega))) (addAt0 a V c (n + 3) h) := by
  rw [chain0_step a V c (n + 2) h (by omega), chain0_step a V c (n + 1) (by omega) (by omega), chain0_step a V c n (by omega) (by omega),
    chain0_reset a V c n (by omega) h0]

/-- What point `n` adds to the second tile. -/
def addAt1 (c : Dev nD) (n : ℕ) (h : n < (cfg1 a).N) : Vec F S8x128 .f32 := add1 (iblk1 a V c 0 ⟨n, h⟩)

/-- The second running total after point `n`: restarted from the zero tile at the first point of a row block,
    continued at the others. -/
def chain1 (c : Dev nD) : (n : ℕ) → n < (cfg1 a).N → Vec F S8x128 .f32
  | 0, h => addf zeroTile (addAt1 a V c 0 h)
  | n + 1, h => if (n + 1) % 4 = 0 then addf zeroTile (addAt1 a V c (n + 1) h)
      else addf (chain1 c n (Nat.lt_of_succ_lt h)) (addAt1 a V c (n + 1) h)

theorem chain1_reset (c : Dev nD) (n : ℕ) (h : n < (cfg1 a).N) (h0 : n % 4 = 0) :
    chain1 a V c n h = addf zeroTile (addAt1 a V c n h) := by
  cases n with
  | zero => rfl
  | succ n => exact if_pos h0
theorem chain1_step (c : Dev nD) (n : ℕ) (h : n + 1 < (cfg1 a).N) (h0 : ¬(n + 1) % 4 = 0) :
    chain1 a V c (n + 1) h = addf (chain1 a V c n (Nat.lt_of_succ_lt h)) (addAt1 a V c (n + 1) h) := if_neg h0

/-- At the last point of a row block the total is the four addends of the block's points, added in order to the zero tile. -/
theorem chain1_last (c : Dev nD) (n : ℕ) (h : n + 3 < (cfg1 a).N) (h0 : n % 4 = 0) :
    chain1 a V c (n + 3) h
      = addf (addf (addf (addf zeroTile (addAt1 a V c n (by omega))) (addAt1 a V c (n + 1) (by omega))) (addAt1 a V c (n + 2) (by omega))) (addAt1 a V c (n + 3) h) := by
  rw [chain1_step a V c (n + 2) h (by omega), chain1_step a V c (n + 1) (by omega) (by omega), chain1_step a V c n (by omega) (by omega),
    chain1_reset a V c n (by omega) h0]

/-! ## The tiles are the running totals -/

/-- After every point the two scratch tiles hold the two running totals. -/
theorem scr_eq (c : Dev nD) : ∀ (n : ℕ) (h : n < (cfg1 a).N),
    (outsAt1 a V c n h).2.2.1 = chain0 a V c n h ∧ (outsAt1 a V c n h).2.2.2 = chain1 a V c n h
  | 0, h => by
    rw [outsAt1_A a V c ⟨0, h⟩ rfl]
    exact ⟨tilesA_s0 a V c ⟨0, h⟩ _ _, tilesA_s1 a V c ⟨0, h⟩ _ _⟩
  | n + 1, h => by
    obtain ⟨ih0, ih1⟩ := scr_eq c n (Nat.lt_of_succ_lt h)
    by_cases h0 : (n + 1) % 4 = 0
    · rw [outsAt1_A a V c ⟨n + 1, h⟩ h0]
      exact ⟨(tilesA_s0 a V c ⟨n + 1, h⟩ _ _).trans (chain0_reset a V c (n + 1) h h0).symm,
        (tilesA_s1 a V c ⟨n + 1, h⟩ _ _).trans (chain1_reset a V c (n + 1) h h0).symm⟩
    · by_cases h1 : (n + 1) % 4 = 3
      · rw [outsAt1_C a V c ⟨n + 1, h⟩ h0 h1]
        refine ⟨(tilesC_s0 a V c ⟨n + 1, h⟩ _ _ _).trans ?_, (tilesC_s1 a V c ⟨n + 1, h⟩ _ _ _).trans ?_⟩
        · rw [chain0_step a V c n h h0]
          show addf (outsAt1 a V c n _).2.2.1 _ = _
          rw [ih0]; rfl
        · rw [chain1_step a V c n h h0]
          show addf (outsAt1 a V c n _).2.2.2 _ = _
          rw [ih1]; rfl
      · rw [outsAt1_B a V c ⟨n + 1, h⟩ h0 h1]
        refine ⟨(tilesB_s0 a V c ⟨n + 1, h⟩ _ _ _).trans ?_, (tilesB_s1 a V c ⟨n + 1, h⟩ _ _ _).trans ?_⟩
        · rw [chain0_step a V c n h h0]
          show addf (outsAt1 a V c n _).2.2.1 _ = _
          rw [ih0]; rfl
        · rw [chain1_step a V c n h h0]
          show addf (outsAt1 a V c n _).2.2.2 _ = _
          rw [ih1]; rfl

/-- At the last point of a row block the two output tiles receive the two running totals. -/
theorem out_eq (c : Dev nD) (t : Fin (cfg1 a).N) (h3 : t.val % 4 = 3) :
    (outsAt1 a V c t.val t.isLt).1 = chain0 a V c t.val t.isLt ∧ (outsAt1 a V c t.val t.isLt).2.1 = chain1 a V c t.val t.isLt := by
  have h0 : ¬t.val % 4 = 0 := by omega
  obtain ⟨n, hn⟩ := t
  cases n with
  | zero => exact absurd h3 (show ¬(0 % 4 = 3) by decide)
  | succ n =>
    obtain ⟨ih0, ih1⟩ := scr_eq a V c n (Nat.lt_of_succ_lt hn)
    rw [outsAt1_C a V c ⟨n + 1, hn⟩ h0 h3]
    refine ⟨(tilesC_o1 a V c ⟨n + 1, hn⟩ _ _ _).trans ?_, (tilesC_o2 a V c ⟨n + 1, hn⟩ _ _ _).trans ?_⟩
    · show _ = chain0 a V c (n + 1) hn
      rw [chain0_step a V c n hn h0]
      show addf (outsAt1 a V c n _).2.2.1 _ = _
      rw [ih0]; rfl
    · show _ = chain1 a V c (n + 1) hn
      rw [chain1_step a V c n hn h0]
      show addf (outsAt1 a V c n _).2.2.2 _ = _
      rw [ih1]; rfl

end Cert.KernelIdeal.Hand1

end
-- ==== Proof.KIBlocks1.lean ====
import proofs.«177773_j59631325938492_2_alg».proof.Proof.KIAccum1
import Idealize.ShloMosaic.Lib.Pipeline.Value
import Idealize.ShloMosaic.Lib.ValueLayout

/-! # The second pallas_call's windows: index maps, blocks, write-backs and cover

Point t = 4 i + f of the 4 x 4 grid reads the block (i, J f, 0, 0) of the joints array [64,24,3,2048] in blocks
[16,1,3,2048] (J the prefetched table's four entries) and, at f = 3, writes back block (i, 0) of the two [32,128] output
arrays in blocks [8,128]. Every row of an output array is in the block of the last point of its row block. -/

set_option maxRecDepth 16384

noncomputable section

namespace Cert.KernelIdeal.Hand1

open Cert.KernelIdeal Cert.KernelIdeal.Gen
open Idealize.ShloMosaic Idealize.ShloMosaic.TcCoe Idealize.SL.Sem
open Idealize.ShloMosaic.Pipeline (Dat Cfg Window)
open scoped BigOperators

/-! ## The index maps -/

/-- Entry f of the joint table, as a number. -/
def tblIdx {F : FTy → Type} [FloatOps F] (pf : pre1.Contents (Elt F)) (ix : S4.Idx) : ℕ :=
  BitVec.toNat (w := 32) (pf 0 ix)
def tblAt {F : FTy → Type} [FloatOps F] (pf : pre1.Contents (Elt F)) (f : Fin 4) : ℕ := tblIdx pf (ValueIdx.ix1 f)

/-- The grid coordinates of point t, as words, are t / 4 and t % 4; the table is read at its entry t % 4. -/
theorem coords_facts1 : ∀ t : Fin grid1.N,
    (BitVec.ofNat 32 ((grid1.coords t) 0).val).toNat = t.val / 4
    ∧ cc1_transform_1 (grid1.coords t) (0 : Fin 2) = t.val / 4 ∧ cc1_transform_1 (grid1.coords t) (1 : Fin 2) = 0
    ∧ cc1_transform_2 (grid1.coords t) (0 : Fin 2) = t.val / 4 ∧ cc1_transform_2 (grid1.coords t) (1 : Fin 2) = 0 :=
  (by decide +kernel : ∀ t : Fin grid1.N, _)

theorem tbl_pos1 : ∀ t : Fin grid1.N,
    (Rect.unit (s := S4) ![(Scalar.indexCast (BitVec.ofNat 32 ((grid1.coords t) 1).val)).toNat] S1.size (k1_off1_inb (grid1.coords t))).emb
        (Shape.Idx.first (numel1_S1.symm ▸ Nat.one_pos))
      = ValueIdx.ix1 (⟨t.val % 4, Nat.mod_lt _ (by decide)⟩ : Fin 4) :=
  (by decide +kernel : ∀ t : Fin grid1.N, _)

section IndexMaps
variable {F : FTy → Type} [FloatOps F] (a : (pcfg1 (F := F)).Adm)

/-- The input window's block index at point t: row block t / 4, the table's joint t % 4, the two trailing axes whole. -/
theorem idx1_0 (t : Fin (cfg1 a).N) :
    ((cfg1 a).win 0).index t (0 : Fin 4) = t.val / 4
    ∧ ((cfg1 a).win 0).index t (1 : Fin 4) = tblAt a.1 ⟨t.val % 4, Nat.mod_lt _ (by decide)⟩
    ∧ ((cfg1 a).win 0).index t (2 : Fin 4) = 0 ∧ ((cfg1 a).win 0).index t (3 : Fin 4) = 0 := by
  refine ⟨(coords_facts1 t).1, ?_, rfl, rfl⟩
  exact congrArg (tblIdx a.1) (tbl_pos1 t)

end IndexMaps

section Blocks
variable {F : FTy → Type} [FloatOps F] (a : (pcfg1 (F := F)).Adm)
variable (V : (c : Dev nD) → (b : Ref sig .tc) → Buf (Elt F) ((c : Thread nD τ).loc b))

/-- The two output windows' block index at point t: row block t / 4, the one column block. -/
theorem idx1_1 (t : Fin (cfg1 a).N) : ((cfg1 a).win 1).index t (0 : Fin 2) = t.val / 4 ∧ ((cfg1 a).win 1).index t (1 : Fin 2) = 0 :=
  ⟨(coords_facts1 t).2.1, (coords_facts1 t).2.2.1⟩
theorem idx1_2 (t : Fin (cfg1 a).N) : ((cfg1 a).win 2).index t (0 : Fin 2) = t.val / 4 ∧ ((cfg1 a).win 2).index t (1 : Fin 2) = 0 :=
  ⟨(coords_facts1 t).2.2.2.1, (coords_facts1 t).2.2.2.2⟩

/-- The input block at point t, read at (r, ·, ch, s), is the joints array at row 16 (t / 4) + r, the table's joint t % 4,
    channel ch, position s. -/
theorem iblk1_apply (c : Dev nD) (t : Fin (cfg1 a).N) (r : Fin 16) (u : Fin 1) (ch : Fin 3) (s : Fin 2048) (k : S64x24x3x2048.Idx)
    (hk0 : (k 0).val = 16 * (t.val / 4) + r.val) (hk1 : (k 1).val = tblAt a.1 ⟨t.val % 4, Nat.mod_lt _ (by decide)⟩)
    (hk2 : (k 2).val = ch.val) (hk3 : (k 3).val = s.val) :
    iblk1 a V c 0 t (ValueIdx.ix4 r u ch s) = V c main_arg2 k := by
  show V c main_arg2 ((((cfg1 a).win 0).blk t).view.emb (ValueIdx.ix4 r u ch s)) = V c main_arg2 k
  refine congrArg _ ?_
  obtain ⟨e0, e1, e2, e3⟩ := idx1_0 a t
  have hu : u.val = 0 := by omega
  funext b; apply Fin.ext
  match b with
  | ⟨0, _⟩ => show ((cfg1 a).win 0).index t (0 : Fin 4) * 16 + 1 * r.val = (k 0).val; omega
  | ⟨1, _⟩ => show ((cfg1 a).win 0).index t (1 : Fin 4) * 1 + 1 * u.val = (k 1).val; omega
  | ⟨2, _⟩ => show ((cfg1 a).win 0).index t (2 : Fin 4) * 3 + 1 * ch.val = (k 2).val; omega
  | ⟨3, _⟩ => show ((cfg1 a).win 0).index t (3 : Fin 4) * 2048 + 1 * s.val = (k 3).val; omega

/-- A tile whose every entry is the array function G at the entry's place in the array is block t of G. -/
theorem cut_eq_read1_1 (t : Fin (cfg1 a).N) (P : Vec F S8x128 .f32) (G : S32x128.Idx → Elt F .f32)
    (h : ∀ j : S8x128.Idx, P j = G ((((cfg1 a).win 1).blk t).view.emb j)) :
    ((cfg1 a).win 1).cut ((cfg1 a).grid.coords t) P = (((cfg1 a).win 1).blk t).view.read (Elt F) G := by
  funext j; exact h j
theorem cut_eq_read1_2 (t : Fin (cfg1 a).N) (P : Vec F S8x128 .f32) (G : S32x128.Idx → Elt F .f32)
    (h : ∀ j : S8x128.Idx, P j = G ((((cfg1 a).win 2).blk t).view.emb j)) :
    ((cfg1 a).win 2).cut ((cfg1 a).grid.coords t) P = (((cfg1 a).win 2).blk t).view.read (Elt F) G := by
  funext j; exact h j

/-- The row block of an entry of output block t. -/
theorem emb1_1_row (t : Fin (cfg1 a).N) (j : S8x128.Idx) : (((((cfg1 a).win 1).blk t).view.emb j : S32x128.Idx) (0 : Fin 2)).val / 8 = t.val / 4 := by
  show (((cfg1 a).win 1).index t (0 : Fin 2) * 8 + 1 * (j 0).val) / 8 = _
  have hj : (j 0).val < 8 := (j 0).isLt
  have e := (idx1_1 a t).1
  omega
theorem emb1_2_row (t : Fin (cfg1 a).N) (j : S8x128.Idx) : (((((cfg1 a).win 2).blk t).view.emb j : S32x128.Idx) (0 : Fin 2)).val / 8 = t.val / 4 := by
  show (((cfg1 a).win 2).index t (0 : Fin 2) * 8 + 1 * (j 0).val) / 8 = _
  have hj : (j 0).val < 8 := (j 0).isLt
  have e := (idx1_2 a t).1
  omega

/-- An index of an output array is in point t's block iff each coordinate is in the block's range on its axis. -/
theorem mem_blk1_1 (t : Fin (cfg1 a).N) (i : S32x128.Idx) :
    i ∈ (((cfg1 a).win 1).blk t).view.set ↔ ∀ b : Fin 2, ((cfg1 a).win 1).index t b * S8x128.size b ≤ (i b).val ∧ (i b).val < ((cfg1 a).win 1).index t b * S8x128.size b + S8x128.size b := by
  exact (Finset.ext_iff.mp (View.set_slice_whole main_v9_0 (((cfg1 a).win 1).rect t)) i).trans Rect.mem_set_unit
theorem mem_blk1_2 (t : Fin (cfg1 a).N) (i : S32x128.Idx) :
    i ∈ (((cfg1 a).win 2).blk t).view.set ↔ ∀ b : Fin 2, ((cfg1 a).win 2).index t b * S8x128.size b ≤ (i b).val ∧ (i b).val < ((cfg1 a).win 2).index t b * S8x128.size b + S8x128.size b := by
  exact (Finset.ext_iff.mp (View.set_slice_whole main_v9_1 (((cfg1 a).win 2).rect t)) i).trans Rect.mem_set_unit

/-- The output tiles are written back at the last point of each row block. -/
theorem flush_facts1 : ∀ t : Fin grid1.N, t.val % 4 = 3 → ((t.val + 1 = grid1.N) ∨ ∃ h : t.val + 1 < grid1.N, cc1_transform_1 (grid1.coords ⟨t.val + 1, h⟩) ≠ cc1_transform_1 (grid1.coords t)) ∧ ((t.val + 1 = grid1.N) ∨ ∃ h : t.val + 1 < grid1.N, cc1_transform_2 (grid1.coords ⟨t.val + 1, h⟩) ≠ cc1_transform_2 (grid1.coords t)) := by
  decide +kernel

end Blocks

section Cover
variable {F : FTy → Type} [FloatOps F] (a : (pcfg1 (F := F)).Adm)

theorem flush1_1 (t : Fin (cfg1 a).N) (h : t.val % 4 = 3) : ((cfg1 a).win 1).flush t = true := by
  have hst := (flush_facts1 ⟨t.val, t.isLt⟩ h).1
  unfold Pipeline.Window.flush
  simp only [Bool.and_eq_true, Bool.or_eq_true, decide_eq_true_eq]
  exact ⟨rfl, hst⟩
theorem flush1_2 (t : Fin (cfg1 a).N) (h : t.val % 4 = 3) : ((cfg1 a).win 2).flush t = true := by
  have hst := (flush_facts1 ⟨t.val, t.isLt⟩ h).2
  unfold Pipeline.Window.flush
  simp only [Bool.and_eq_true, Bool.or_eq_true, decide_eq_true_eq]
  exact ⟨rfl, hst⟩

/-- Every index of an output array is in the block of the last point of its row block, which is written back. -/
theorem cover1_1 (i : S32x128.Idx) : ∃ t : Fin (cfg1 a).N, ((cfg1 a).win 1).flush t = true ∧ i ∈ (((cfg1 a).win 1).blk t).view.set := by
  have hi0 : (i 0).val < 32 := (i 0).isLt
  have hi1 : (i 1).val < 128 := (i 1).isLt
  have hN : (cfg1 a).N = 16 := N_1a a
  obtain ⟨t, ht⟩ : ∃ t : Fin (cfg1 a).N, t.val = 4 * ((i 0).val / 8) + 3 := ⟨⟨4 * ((i 0).val / 8) + 3, by omega⟩, rfl⟩
  have e0 : ((cfg1 a).win 1).index t (0 : Fin 2) = t.val / 4 := (idx1_1 a t).1
  have e1 : ((cfg1 a).win 1).index t (1 : Fin 2) = 0 := (idx1_1 a t).2
  refine ⟨t, flush1_1 a t (by omega), ?_⟩
  rw [mem_blk1_1]
  intro b
  match b with
  | ⟨0, _⟩ => show ((cfg1 a).win 1).index t (0 : Fin 2) * 8 ≤ (i 0).val ∧ (i 0).val < ((cfg1 a).win 1).index t (0 : Fin 2) * 8 + 8; omega
  | ⟨1, _⟩ => show ((cfg1 a).win 1).index t (1 : Fin 2) * 128 ≤ (i 1).val ∧ (i 1).val < ((cfg1 a).win 1).index t (1 : Fin 2) * 128 + 128; omega
theorem cover1_2 (i : S32x128.Idx) : ∃ t : Fin (cfg1 a).N, ((cfg1 a).win 2).flush t = true ∧ i ∈ (((cfg1 a).win 2).blk t).view.set := by
  have hi0 : (i 0).val < 32 := (i 0).isLt
  have hi1 : (i 1).val < 128 := (i 1).isLt
  have hN : (cfg1 a).N = 16 := N_1a a
  obtain ⟨t, ht⟩ : ∃ t : Fin (cfg1 a).N, t.val = 4 * ((i 0).val / 8) + 3 := ⟨⟨4 * ((i 0).val / 8) + 3, by omega⟩, rfl⟩
  have e0 : ((cfg1 a).win 2).index t (0 : Fin 2) = t.val / 4 := (idx1_2 a t).1
  have e1 : ((cfg1 a).win 2).index t (1 : Fin 2) = 0 := (idx1_2 a t).2
  refine ⟨t, flush1_2 a t (by omega), ?_⟩
  rw [mem_blk1_2]
  intro b
  match b with
  | ⟨0, _⟩ => show ((cfg1 a).win 2).index t (0 : Fin 2) * 8 ≤ (i 0).val ∧ (i 0).val < ((cfg1 a).win 2).index t (0 : Fin 2) * 8 + 8; omega
  | ⟨1, _⟩ => show ((cfg1 a).win 2).index t (1 : Fin 2) * 128 ≤ (i 1).val ∧ (i 1).val < ((cfg1 a).win 2).index t (1 : Fin 2) * 128 + 128; omega

end Cover

end Cert.KernelIdeal.Hand1

end
-- ==== Proof.KIPay1.lean ====
import proofs.«177773_j59631325938492_2_alg».proof.Proof.Gen.KernelIdeal.Skeleton
import Idealize.ShloMosaic.Lib.Pipeline.Value
import Idealize.ShloMosaic.Lib.ValueLayout
import Idealize.ShloMosaic.PureOps.Ideal.Laws

/-! # The second kernel's stored values at an index, at the ideal values

The input block `x` has shape `[16,1,3,2048]`: 16 rows, three channels, 2048 columns. Channel 1 gives a
contact gate `c(r,k) = logistic ((0.05 - x(r,0,1,k)) · 20)`; the contact weight at `(r,s)`, `s < 2047`, is the mean
`(c(r,s+1) + c(r,s)) · 0.5` of two neighbouring gates. The loss at `(r,s)` is the squared forward difference along
the columns of channel 0 plus that of channel 2, times the contact weight. One stored tile is the scratch tile plus the
total of the loss over the block, the other the scratch tile plus the total of the contact weight, each total
broadcast over the `[8,128]` tile; two more stored tiles are zero. -/

noncomputable section

namespace Cert.KernelIdeal.Hand1

open Cert.KernelIdeal Cert.KernelIdeal.Gen Idealize.ShloMosaic Idealize.SL.Sem
open Idealize.ShloMosaic.ValueIdx
open scoped BigOperators

/-! ## Totals -/

/-- A `multi_reduction <add>` over every axis but a leading unit one, of a `[16,2047]` vector given that leading unit
    axis by a shape cast, is the sum of the vector over all its indices: the shape cast re-indexes by a bijection. -/
theorem sum_all_16x2047 (v : FVec Ideal S16x2047 .f32) (j : S1.Idx) :
    multiReduction .add [1, 2] S1 (shapeCast S1x16x2047 v shapeCasts_S16x2047_S1x16x2047) 0x00000000#32
        reduces_S1x16x2047_S1 (.inl rfl) rfl j = ∑ y : S16x2047.Idx, v y :=
  (Ideal.multiReduction_add_total (shapeCast S1x16x2047 v shapeCasts_S16x2047_S1x16x2047) 0x00000000#32
      reduces_S1x16x2047_S1 (by decide) (.inl rfl) rfl j).trans
    (Equiv.sum_comp (Shape.reshapeEquiv shapeCasts_S16x2047_S1x16x2047) v)

/-- A value constant over the one-entry vector it is extracted from, broadcast, is that constant at every index. -/
theorem tail_const1 (r : FVec Ideal S1 .f32) (A : EReal) (hr : ∀ k, r k = A) (j : S8x128.Idx) :
    broadcast S8x128 (extractAt ![0, 0, 0] (shapeCast S1x1x1 r shapeCasts_S1_S1x1x1) inpos_S1x1x1_p0_0_0) j = A :=
  hr _

/-! ## Columns -/

/-- Column `s` of the `2047` forward differences, and the column after it, among the block's `2048` columns. -/
def cur (s : Fin 2047) : Fin 2048 := ⟨s.val, by omega⟩
def nxt (s : Fin 2047) : Fin 2048 := ⟨s.val + 1, by omega⟩

/-! ## The recast block and its channel slices -/

/-- The block without its unit axis reads the block. -/
theorem pay4_apply (x0 : FVec Ideal S16x1x3x2048 .f32) (r : Fin 16) (a : Fin 3) (k : Fin 2048) :
    k1_pay4 (F := Ideal) x0 (ix3 r a k) = x0 (ix4 r (0 : Fin 1) a k) := by
  unfold k1_pay4
  refine shapeCast_apply _ _ _ _ ?_
  rw [Shape.rowMajor_val_four, Shape.rowMajor_val_three]
  show ((r.val * 1 + 0) * 3 + a.val) * 2048 + k.val = (r.val * 3 + a.val) * 2048 + k.val
  omega

/-- A `[16,1,2047]` slice of the recast block at offsets `off`, with its unit axis dropped. -/
def rd (x0 : FVec Ideal S16x1x3x2048 .f32) (off : Fin 3 → Nat) (h : S16x3x2048.Slices off S16x1x2047) : FVec Ideal S16x2047 .f32 :=
  shapeCast S16x2047 (extractStridedSlice S16x1x2047 off (k1_pay4 (F := Ideal) x0) h) shapeCasts_S16x1x2047_S16x2047

/-- It reads the block at the channel and the column the offsets say. -/
theorem rd_apply (x0 : FVec Ideal S16x1x3x2048 .f32) (off : Fin 3 → Nat) (h : S16x3x2048.Slices off S16x1x2047)
    (r : Fin 16) (s : Fin 2047) (a : Fin 3) (k : Fin 2048) (h0 : off 0 = 0) (h1 : off 1 = a.val) (h2 : k.val = off 2 + s.val) :
    rd x0 off h (ix2 r s) = x0 (ix4 r (0 : Fin 1) a k) := by
  unfold rd
  refine (shapeCast_apply _ _ (ix2 r s) (ix3 r (0 : Fin 1) s) ?_).trans ?_
  · rw [Shape.rowMajor_val_three, Shape.rowMajor_val_two]
    show (r.val * 1 + 0) * 2047 + s.val = r.val * 2047 + s.val
    omega
  have e2 : extractStridedSlice S16x1x2047 off (k1_pay4 (F := Ideal) x0) h (ix3 r (0 : Fin 1) s) = k1_pay4 (F := Ideal) x0 (ix3 r a k) := by
    unfold extractStridedSlice
    refine congrArg (k1_pay4 (F := Ideal) x0) (funext fun ax => Fin.ext ?_)
    match ax with
    | ⟨0, _⟩ => show off 0 + r.val = r.val; omega
    | ⟨1, _⟩ => show off 1 + 0 = a.val; omega
    | ⟨2, _⟩ => show off 2 + s.val = k.val; omega
  rw [e2]
  exact pay4_apply x0 r a k

/-! ## The contact gate and the contact weight -/

/-- The contact gate at row `r`, column `k`. -/
def cg (x0 : FVec Ideal S16x1x3x2048 .f32) (r : Fin 16) (k : Fin 2048) : EReal :=
  Ideal.logistic ((Ideal.ofBits .f32 0x3D4CCCCD#32 - x0 (ix4 r (0 : Fin 1) (1 : Fin 3) k)) * Ideal.ofBits .f32 0x41A00000#32)

/-- The gate as the body forms it, a `[16,2048]` vector. -/
def gate (x0 : FVec Ideal S16x1x3x2048 .f32) : FVec Ideal S16x2048 .f32 :=
  logistic (mulf (subf (broadcast S16x2048 (Scalar.ofBits .f32 0x3D4CCCCD#32))
      (shapeCast S16x2048 (extractStridedSlice S16x1x2048 ![0, 1, 0] (k1_pay4 (F := Ideal) x0) slices_S16x3x2048_o0_1_0_S16x1x2048) shapeCasts_S16x1x2048_S16x2048))
    (broadcast S16x2048 (Scalar.ofBits .f32 0x41A00000#32)))

theorem gate_apply (x0 : FVec Ideal S16x1x3x2048 .f32) (r : Fin 16) (k : Fin 2048) : gate x0 (ix2 r k) = cg x0 r k := by
  have e : shapeCast S16x2048 (extractStridedSlice S16x1x2048 ![0, 1, 0] (k1_pay4 (F := Ideal) x0) slices_S16x3x2048_o0_1_0_S16x1x2048) shapeCasts_S16x1x2048_S16x2048 (ix2 r k)
      = x0 (ix4 r (0 : Fin 1) (1 : Fin 3) k) := by
    refine (shapeCast_apply _ _ (ix2 r k) (ix3 r (0 : Fin 1) k) ?_).trans ?_
    · rw [Shape.rowMajor_val_three, Shape.rowMajor_val_two]
      show (r.val * 1 + 0) * 2048 + k.val = r.val * 2048 + k.val
      omega
    refine (extractStridedSlice_apply _ (k1_pay4 (F := Ideal) x0) _ (ix3 r (0 : Fin 1) k) (ix3 r (1 : Fin 3) k) (fun ax => ?_)).trans (pay4_apply x0 r 1 k)
    match ax with
    | ⟨0, _⟩ => exact (Nat.zero_add _).symm
    | ⟨1, _⟩ => rfl
    | ⟨2, _⟩ => exact (Nat.zero_add _).symm
  show Ideal.logistic ((Ideal.ofBits .f32 0x3D4CCCCD#32
      - shapeCast S16x2048 (extractStridedSlice S16x1x2048 ![0, 1, 0] (k1_pay4 (F := Ideal) x0) slices_S16x3x2048_o0_1_0_S16x1x2048) shapeCasts_S16x1x2048_S16x2048 (ix2 r k))
      * Ideal.ofBits .f32 0x41A00000#32) = _
  rw [e]
  rfl

/-- The contact weight: the mean of two neighbouring gates. -/
theorem pay5_apply (x0 : FVec Ideal S16x1x3x2048 .f32) (r : Fin 16) (s : Fin 2047) :
    k1_pay5 (F := Ideal) x0 (ix2 r s) = (cg x0 r (nxt s) + cg x0 r (cur s)) * Ideal.ofBits .f32 0x3F000000#32 := by
  have e1 : extractStridedSlice S16x2047 ![0, 1] (gate x0) slices_S16x2048_o0_1_S16x2047 (ix2 r s) = gate x0 (ix2 r (nxt s)) :=
    extractStridedSlice_apply _ _ _ _ _ (fun ax => by
      match ax with
      | ⟨0, _⟩ => exact (Nat.zero_add _).symm
      | ⟨1, _⟩ => exact (Nat.add_comm _ _))
  have e0 : extractStridedSlice S16x2047 ![0, 0] (gate x0) slices_S16x2048_o0_0_S16x2047 (ix2 r s) = gate x0 (ix2 r (cur s)) :=
    extractStridedSlice_apply _ _ _ _ _ (fun ax => by
      match ax with
      | ⟨0, _⟩ => exact (Nat.zero_add _).symm
      | ⟨1, _⟩ => exact (Nat.zero_add _).symm)
  show (extractStridedSlice S16x2047 ![0, 1] (gate x0) slices_S16x2048_o0_1_S16x2047 (ix2 r s)
      + extractStridedSlice S16x2047 ![0, 0] (gate x0) slices_S16x2048_o0_0_S16x2047 (ix2 r s)) * Ideal.ofBits .f32 0x3F000000#32 = _
  rw [e1, e0, gate_apply, gate_apply]

/-! ## The loss and the two accumulating tiles -/

/-- The loss as the body forms it, a `[16,2047]` vector. -/
def loss (x0 : FVec Ideal S16x1x3x2048 .f32) : FVec Ideal S16x2047 .f32 :=
  mulf (addf
      (mulf (subf (rd x0 ![0, 0, 1] slices_S16x3x2048_o0_0_1_S16x1x2047) (rd x0 ![0, 0, 0] slices_S16x3x2048_o0_0_0_S16x1x2047))
        (subf (rd x0 ![0, 0, 1] slices_S16x3x2048_o0_0_1_S16x1x2047) (rd x0 ![0, 0, 0] slices_S16x3x2048_o0_0_0_S16x1x2047)))
      (mulf (subf (rd x0 ![0, 2, 1] slices_S16x3x2048_o0_2_1_S16x1x2047) (rd x0 ![0, 2, 0] slices_S16x3x2048_o0_2_0_S16x1x2047))
        (subf (rd x0 ![0, 2, 1] slices_S16x3x2048_o0_2_1_S16x1x2047) (rd x0 ![0, 2, 0] slices_S16x3x2048_o0_2_0_S16x1x2047))))
    (k1_pay5 (F := Ideal) x0)

/-- The loss at `(r,s)`: the squared forward differences of channels 0 and 2, times the contact weight. -/
def lossAt (x0 : FVec Ideal S16x1x3x2048 .f32) (r : Fin 16) (s : Fin 2047) : EReal :=
  ((x0 (ix4 r (0 : Fin 1) (0 : Fin 3) (nxt s)) - x0 (ix4 r (0 : Fin 1) (0 : Fin 3) (cur s)))
        * (x0 (ix4 r (0 : Fin 1) (0 : Fin 3) (nxt s)) - x0 (ix4 r (0 : Fin 1) (0 : Fin 3) (cur s)))
      + (x0 (ix4 r (0 : Fin 1) (2 : Fin 3) (nxt s)) - x0 (ix4 r (0 : Fin 1) (2 : Fin 3) (cur s)))
        * (x0 (ix4 r (0 : Fin 1) (2 : Fin 3) (nxt s)) - x0 (ix4 r (0 : Fin 1) (2 : Fin 3) (cur s))))
    * k1_pay5 (F := Ideal) x0 (ix2 r s)

theorem loss_apply (x0 : FVec Ideal S16x1x3x2048 .f32) (r : Fin 16) (s : Fin 2047) : loss x0 (ix2 r s) = lossAt x0 r s := by
  show ((rd x0 ![0, 0, 1] slices_S16x3x2048_o0_0_1_S16x1x2047 (ix2 r s) - rd x0 ![0, 0, 0] slices_S16x3x2048_o0_0_0_S16x1x2047 (ix2 r s))
        * (rd x0 ![0, 0, 1] slices_S16x3x2048_o0_0_1_S16x1x2047 (ix2 r s) - rd x0 ![0, 0, 0] slices_S16x3x2048_o0_0_0_S16x1x2047 (ix2 r s))
      + (rd x0 ![0, 2, 1] slices_S16x3x2048_o0_2_1_S16x1x2047 (ix2 r s) - rd x0 ![0, 2, 0] slices_S16x3x2048_o0_2_0_S16x1x2047 (ix2 r s))
        * (rd x0 ![0, 2, 1] slices_S16x3x2048_o0_2_1_S16x1x2047 (ix2 r s) - rd x0 ![0, 2, 0] slices_S16x3x2048_o0_2_0_S16x1x2047 (ix2 r s)))
      * k1_pay5 (F := Ideal) x0 (ix2 r s) = _
  rw [rd_apply x0 ![0, 0, 1] _ r s (0 : Fin 3) (nxt s) rfl rfl (Nat.add_comm _ _),
    rd_apply x0 ![0, 0, 0] _ r s (0 : Fin 3) (cur s) rfl rfl (Nat.zero_add _).symm,
    rd_apply x0 ![0, 2, 1] _ r s (2 : Fin 3) (nxt s) rfl rfl (Nat.add_comm _ _),
    rd_apply x0 ![0, 2, 0] _ r s (2 : Fin 3) (cur s) rfl rfl (Nat.zero_add _).symm]
  rfl

/-- The tile accumulating the loss: the scratch tile plus the block's total loss, at every entry. -/
theorem pay6_apply (x0 : FVec Ideal S16x1x3x2048 .f32) (acc : FVec Ideal S8x128 .f32) (j : S8x128.Idx) :
    k1_pay6 (F := Ideal) x0 acc j = acc j + ∑ y : S16x2047.Idx, lossAt x0 (y 0) (y 1) := by
  unfold k1_pay6
  dsimp only
  rw [shapeCast_self]
  refine congrArg (fun z => acc j + z) ?_
  refine Eq.trans (tail_const1 _ (∑ y : S16x2047.Idx, loss x0 y) ?_ j) (Finset.sum_congr rfl fun y _ => ?_)
  · intro k
    exact sum_all_16x2047 (loss x0) k
  obtain ⟨r, s, rfl⟩ : ∃ (r : Fin 16) (s : Fin 2047), y = ix2 r s := ⟨y 0, y 1, eq_ix2 y⟩
  exact loss_apply x0 r s

/-- The tile accumulating the contact weight: the scratch tile plus the total of the given `[16,2047]` vector, at every entry. -/
theorem pay1_apply (v26 : FVec Ideal S16x2047 .f32) (acc : FVec Ideal S8x128 .f32) (j : S8x128.Idx) :
    k1_pay1 (F := Ideal) v26 acc j = acc j + ∑ y : S16x2047.Idx, v26 y := by
  unfold k1_pay1
  dsimp only
  rw [shapeCast_self]
  refine congrArg (fun z => acc j + z) ?_
  refine tail_const1 _ (∑ y : S16x2047.Idx, v26 y) ?_ j
  intro k
  exact sum_all_16x2047 v26 k

/-- The two zero tiles. -/
theorem pay2_apply1 (j : S8x128.Idx) : k1_pay2 (F := Ideal) j = Ideal.ofBits .f32 0x00000000#32 := by
  unfold k1_pay2
  rw [shapeCast_self]
  rfl
theorem pay3_apply1 (j : S8x128.Idx) : k1_pay3 (F := Ideal) j = Ideal.ofBits .f32 0x00000000#32 := by
  unfold k1_pay3
  rw [shapeCast_self]
  rfl

end Cert.KernelIdeal.Hand1

end
-- ==== Proof.KIValue1.lean ====
import proofs.«177773_j59631325938492_2_alg».proof.Proof.KIBlocks1
import proofs.«177773_j59631325938492_2_alg».proof.Proof.KIPay1
import proofs.«177773_j59631325938492_2_alg».proof.Proof.MathBridge23
import Idealize.ShloMosaic.PureOps.Ideal.Laws

/-! # The second pallas_call's two output arrays as functions of the joints array, at the ideal values

Point t = 4 i + f of the 4 x 4 grid reads rows 16 i … 16 i + 15 of joint J f of the joints array [64,24,3,2048] (J the
prefetched table's four entries); at f = 3 it writes rows 8 i … 8 i + 7 of the two [32,128] output arrays. Every entry
of those rows of the first output is the zero word plus, joint after joint, the sum over the block's 16 x 2047 steps
of the step's cost; of the second output the same with the step's weight. So an entry q depends on q only through
q₀ / 8. -/

set_option maxRecDepth 16384

noncomputable section

namespace Cert.KernelIdeal.Hand1

open Cert.KernelIdeal Cert.KernelIdeal.Gen
open Idealize.ShloMosaic Idealize.ShloMosaic.TcCoe Idealize.SL.Sem
open Idealize.ShloMosaic.Pipeline (Dat Cfg Window)
open Cert.Math (stepLoss stepW contactW tileOf32 block_pos_lt sUp sLo)
open scoped BigOperators

/-! ## What a point adds to each tile -/

section AnyValues
variable {F : FTy → Type} [FloatOps F] (a : (pcfg1 (F := F)).Adm)
variable (V : (c : Dev nD) → (b : Ref sig .tc) → Buf (Elt F) ((c : Thread nD τ).loc b))

/-- Every entry of what point n adds to the first tile is the sum the kernel takes of the block's loss, -/
theorem addAt0_eq (c : Dev nD) (n : ℕ) (h : n < (cfg1 a).N) (j : S8x128.Idx) :
    addAt0 a V c n h j = totOf (lossVec (iblk1 a V c 0 ⟨n, h⟩)) := rfl
/-- and of what it adds to the second tile the sum of the block's contact weight. -/
theorem addAt1_eq (c : Dev nD) (n : ℕ) (h : n < (cfg1 a).N) (j : S8x128.Idx) :
    addAt1 a V c n h j = totOf (k1_pay5 (iblk1 a V c 0 ⟨n, h⟩)) := rfl

end AnyValues

/-- The one entry extracted from a one-entry vector whose entries all equal A is A. -/
theorem ext_const (r : FVec Ideal S1 .f32) (A : EReal) (hr : ∀ k, r k = A) :
    extractAt ![0, 0, 0] (shapeCast S1x1x1 r shapeCasts_S1_S1x1x1) inpos_S1x1x1_p0_0_0 = A := hr _

/-- The sum the kernel takes of a 16 x 2047 array, at the ideal values: the sum over its index set (the shape cast
    before the reduction only re-indexes, the reduction runs over every non-unit axis). -/
theorem totOf_ideal (w : FVec Ideal S16x2047 .f32) : totOf (F := Ideal) w = ∑ y : S16x2047.Idx, w y := by
  unfold totOf
  exact ext_const _ _ (fun k => sum_all_16x2047 w k)

/-- The loss vector of the accumulation is the loss vector read at an index. -/
theorem lossVec_eq_loss (x : Vec Ideal S16x1x3x2048 .f32) : lossVec (F := Ideal) x = loss x := rfl

/-- A block that reads the joints array at rows i r and joint jn has, at (r, s), the cost of the step s → s + 1 of row i r
    and joint jn … -/
theorem loss_eq_stepLoss (X : Vec Ideal S16x1x3x2048 .f32) (A2 : S64x24x3x2048.Idx → EReal) (i : Fin 16 → Fin 64) (jn : Fin 24)
    (hX : ∀ (r : Fin 16) (ch : Fin 3) (s : Fin 2048), X (ValueIdx.ix4 r (0 : Fin 1) ch s) = A2 (ValueIdx.ix4 (i r) jn ch s))
    (r : Fin 16) (s : Fin 2047) : lossVec (F := Ideal) X (ValueIdx.ix2 r s) = stepLoss A2 (i r) jn s := by
  refine ((congrFun (lossVec_eq_loss X) _).trans (loss_apply X r s)).trans ?_
  unfold lossAt
  rw [pay5_apply X r s]
  unfold cg stepLoss stepW contactW
  simp only [hX]
  rfl

/-- … and as contact weight the step's weight. -/
theorem pay5_eq_stepW (X : Vec Ideal S16x1x3x2048 .f32) (A2 : S64x24x3x2048.Idx → EReal) (i : Fin 16 → Fin 64) (jn : Fin 24)
    (hX : ∀ (r : Fin 16) (ch : Fin 3) (s : Fin 2048), X (ValueIdx.ix4 r (0 : Fin 1) ch s) = A2 (ValueIdx.ix4 (i r) jn ch s))
    (r : Fin 16) (s : Fin 2047) : k1_pay5 (F := Ideal) X (ValueIdx.ix2 r s) = stepW A2 (i r) jn s := by
  refine (pay5_apply X r s).trans ?_
  unfold cg stepW contactW
  simp only [hX]
  rfl

variable (a : (pcfg1 (F := Ideal)).Adm)
variable (V : (c : Dev nD) → (b : Ref sig .tc) → Buf (Elt Ideal) ((c : Thread nD τ).loc b))
variable (J : Fin 4 → Fin 24) (hJ : ∀ f, tblAt a.1 f = (J f).val)

include hJ in
/-- The block of point n, at its coordinates, is the joints array at the rows of q's row block and the joint of n's slot. -/
theorem blk_eq (c : Dev nD) (n : ℕ) (h : n < (cfg1 a).N) (f : Fin 4) (hf : n % 4 = f.val) (q : S32x128.Idx) (hq : (q 0).val / 8 = n / 4)
    (r : Fin 16) (ch : Fin 3) (s : Fin 2048) :
    iblk1 a V c 0 ⟨n, h⟩ (ValueIdx.ix4 r (0 : Fin 1) ch s)
      = V c main_arg2 (ValueIdx.ix4 (⟨16 * (tileOf32 q).val + r.val, block_pos_lt (n := 4) (B := 16) (tileOf32 q) r⟩ : Fin 64) (J f) ch s) := by
  refine iblk1_apply a V c ⟨n, h⟩ r 0 ch s _ ?_ ?_ rfl rfl
  · show 16 * ((q 0).val / 8) + r.val = 16 * (n / 4) + r.val
    rw [hq]
  · show (J f).val = tblAt a.1 ⟨n % 4, _⟩
    rw [← hJ f]
    exact congrArg (tblAt a.1) (Fin.ext hf.symm)

include hJ in
/-- What point n adds to the first tile: the sum of the step's cost over the block's rows and steps. -/
theorem addAt0_apply (c : Dev nD) (n : ℕ) (h : n < (cfg1 a).N) (f : Fin 4) (hf : n % 4 = f.val) (j : S8x128.Idx) (q : S32x128.Idx) (hq : (q 0).val / 8 = n / 4) :
    addAt0 a V c n h j
      = ∑ y : S16x2047.Idx, stepLoss (V c main_arg2) ⟨16 * (tileOf32 q).val + (y 0).val, block_pos_lt (n := 4) (B := 16) (tileOf32 q) (y 0)⟩ (J f) (y 1) := by
  rw [addAt0_eq, totOf_ideal]
  refine Finset.sum_congr rfl fun y _ => ?_
  obtain ⟨r, s, rfl⟩ : ∃ (r : Fin 16) (s : Fin 2047), y = ValueIdx.ix2 r s := ⟨y 0, y 1, ValueIdx.eq_ix2 y⟩
  exact loss_eq_stepLoss (iblk1 a V c 0 ⟨n, h⟩) (V c main_arg2)
    (fun r => ⟨16 * (tileOf32 q).val + r.val, block_pos_lt (n := 4) (B := 16) (tileOf32 q) r⟩) (J f)
    (fun r ch s => blk_eq a V J hJ c n h f hf q hq r ch s) r s

include hJ in
/-- What point n adds to the second tile: the sum of the step's weight over the block's rows and steps. -/
theorem addAt1_apply (c : Dev nD) (n : ℕ) (h : n < (cfg1 a).N) (f : Fin 4) (hf : n % 4 = f.val) (j : S8x128.Idx) (q : S32x128.Idx) (hq : (q 0).val / 8 = n / 4) :
    addAt1 a V c n h j
      = ∑ y : S16x2047.Idx, stepW (V c main_arg2) ⟨16 * (tileOf32 q).val + (y 0).val, block_pos_lt (n := 4) (B := 16) (tileOf32 q) (y 0)⟩ (J f) (y 1) := by
  rw [addAt1_eq, totOf_ideal]
  refine Finset.sum_congr rfl fun y _ => ?_
  obtain ⟨r, s, rfl⟩ : ∃ (r : Fin 16) (s : Fin 2047), y = ValueIdx.ix2 r s := ⟨y 0, y 1, ValueIdx.eq_ix2 y⟩
  exact pay5_eq_stepW (iblk1 a V c 0 ⟨n, h⟩) (V c main_arg2)
    (fun r => ⟨16 * (tileOf32 q).val + r.val, block_pos_lt (n := 4) (B := 16) (tileOf32 q) r⟩) (J f)
    (fun r ch s => blk_eq a V J hJ c n h f hf q hq r ch s) r s

/-! ## The two output arrays -/

/-- The first output array: at q, the zero word plus, joint after joint, the sum over the 16 rows of q's row block and the
    2047 steps of the step's cost. -/
def G1_1 (A2 : S64x24x3x2048.Idx → EReal) (J : Fin 4 → Fin 24) : S32x128.Idx → EReal := fun q =>
  (((Ideal.ofBits .f32 0x00000000#32
        + ∑ y : S16x2047.Idx, stepLoss A2 ⟨16 * (tileOf32 q).val + (y 0).val, block_pos_lt (n := 4) (B := 16) (tileOf32 q) (y 0)⟩ (J 0) (y 1))
      + ∑ y : S16x2047.Idx, stepLoss A2 ⟨16 * (tileOf32 q).val + (y 0).val, block_pos_lt (n := 4) (B := 16) (tileOf32 q) (y 0)⟩ (J 1) (y 1))
    + ∑ y : S16x2047.Idx, stepLoss A2 ⟨16 * (tileOf32 q).val + (y 0).val, block_pos_lt (n := 4) (B := 16) (tileOf32 q) (y 0)⟩ (J 2) (y 1))
  + ∑ y : S16x2047.Idx, stepLoss A2 ⟨16 * (tileOf32 q).val + (y 0).val, block_pos_lt (n := 4) (B := 16) (tileOf32 q) (y 0)⟩ (J 3) (y 1)
/-- The second output array: the same with the step's weight. -/
def G1_2 (A2 : S64x24x3x2048.Idx → EReal) (J : Fin 4 → Fin 24) : S32x128.Idx → EReal := fun q =>
  (((Ideal.ofBits .f32 0x00000000#32
        + ∑ y : S16x2047.Idx, stepW A2 ⟨16 * (tileOf32 q).val + (y 0).val, block_pos_lt (n := 4) (B := 16) (tileOf32 q) (y 0)⟩ (J 0) (y 1))
      + ∑ y : S16x2047.Idx, stepW A2 ⟨16 * (tileOf32 q).val + (y 0).val, block_pos_lt (n := 4) (B := 16) (tileOf32 q) (y 0)⟩ (J 1) (y 1))
    + ∑ y : S16x2047.Idx, stepW A2 ⟨16 * (tileOf32 q).val + (y 0).val, block_pos_lt (n := 4) (B := 16) (tileOf32 q) (y 0)⟩ (J 2) (y 1))
  + ∑ y : S16x2047.Idx, stepW A2 ⟨16 * (tileOf32 q).val + (y 0).val, block_pos_lt (n := 4) (B := 16) (tileOf32 q) (y 0)⟩ (J 3) (y 1)

theorem G1_1_apply (A2 : S64x24x3x2048.Idx → EReal) (J : Fin 4 → Fin 24) (q : S32x128.Idx) : G1_1 A2 J q =
  (((Ideal.ofBits .f32 0x00000000#32
        + ∑ y : S16x2047.Idx, stepLoss A2 ⟨16 * (tileOf32 q).val + (y 0).val, block_pos_lt (n := 4) (B := 16) (tileOf32 q) (y 0)⟩ (J 0) (y 1))
      + ∑ y : S16x2047.Idx, stepLoss A2 ⟨16 * (tileOf32 q).val + (y 0).val, block_pos_lt (n := 4) (B := 16) (tileOf32 q) (y 0)⟩ (J 1) (y 1))
    + ∑ y : S16x2047.Idx, stepLoss A2 ⟨16 * (tileOf32 q).val + (y 0).val, block_pos_lt (n := 4) (B := 16) (tileOf32 q) (y 0)⟩ (J 2) (y 1))
  + ∑ y : S16x2047.Idx, stepLoss A2 ⟨16 * (tileOf32 q).val + (y 0).val, block_pos_lt (n := 4) (B := 16) (tileOf32 q) (y 0)⟩ (J 3) (y 1) := rfl
theorem G1_2_apply (A2 : S64x24x3x2048.Idx → EReal) (J : Fin 4 → Fin 24) (q : S32x128.Idx) : G1_2 A2 J q =
  (((Ideal.ofBits .f32 0x00000000#32
        + ∑ y : S16x2047.Idx, stepW A2 ⟨16 * (tileOf32 q).val + (y 0).val, block_pos_lt (n := 4) (B := 16) (tileOf32 q) (y 0)⟩ (J 0) (y 1))
      + ∑ y : S16x2047.Idx, stepW A2 ⟨16 * (tileOf32 q).val + (y 0).val, block_pos_lt (n := 4) (B := 16) (tileOf32 q) (y 0)⟩ (J 1) (y 1))
    + ∑ y : S16x2047.Idx, stepW A2 ⟨16 * (tileOf32 q).val + (y 0).val, block_pos_lt (n := 4) (B := 16) (tileOf32 q) (y 0)⟩ (J 2) (y 1))
  + ∑ y : S16x2047.Idx, stepW A2 ⟨16 * (tileOf32 q).val + (y 0).val, block_pos_lt (n := 4) (B := 16) (tileOf32 q) (y 0)⟩ (J 3) (y 1) := rfl

/-- A total that starts at the zero tile and receives four addends, at an entry. -/
theorem four_adds (z p0 p1 p2 p3 : FVec Ideal S8x128 .f32) (j : S8x128.Idx) :
    addf (F := Ideal) (addf (F := Ideal) (addf (F := Ideal) (addf (F := Ideal) z p0) p1) p2) p3 j = (((z j + p0 j) + p1 j) + p2 j) + p3 j := rfl
theorem zeroTile_apply (j : S8x128.Idx) : zeroTile (F := Ideal) j = Ideal.ofBits .f32 0x00000000#32 := rfl

include hJ in
/-- The first total at the last point of a row block, at any entry of the tile, is the first output function at any
    entry of that row block of the array. -/
theorem chain0_value (c : Dev nD) (n : ℕ) (h : n < (cfg1 a).N) (h3 : n % 4 = 3) (j : S8x128.Idx) (q : S32x128.Idx) (hq : (q 0).val / 8 = n / 4) :
    chain0 a V c n h j = G1_1 (V c main_arg2) J q := by
  obtain ⟨m, rfl⟩ : ∃ m, n = m + 3 := ⟨n - 3, by omega⟩
  rw [chain0_last a V c m h (by omega), four_adds, zeroTile_apply, G1_1_apply,
    addAt0_apply a V J hJ c m _ 0 (by show m % 4 = 0; omega) j q (by omega),
    addAt0_apply a V J hJ c (m + 1) _ 1 (by show (m + 1) % 4 = 1; omega) j q (by omega),
    addAt0_apply a V J hJ c (m + 2) _ 2 (by show (m + 2) % 4 = 2; omega) j q (by omega),
    addAt0_apply a V J hJ c (m + 3) _ 3 (by show (m + 3) % 4 = 3; omega) j q (by omega)]

include hJ in
/-- The same for the second total and the second output function. -/
theorem chain1_value (c : Dev nD) (n : ℕ) (h : n < (cfg1 a).N) (h3 : n % 4 = 3) (j : S8x128.Idx) (q : S32x128.Idx) (hq : (q 0).val / 8 = n / 4) :
    chain1 a V c n h j = G1_2 (V c main_arg2) J q := by
  obtain ⟨m, rfl⟩ : ∃ m, n = m + 3 := ⟨n - 3, by omega⟩
  rw [chain1_last a V c m h (by omega), four_adds, zeroTile_apply, G1_2_apply,
    addAt1_apply a V J hJ c m _ 0 (by show m % 4 = 0; omega) j q (by omega),
    addAt1_apply a V J hJ c (m + 1) _ 1 (by show (m + 1) % 4 = 1; omega) j q (by omega),
    addAt1_apply a V J hJ c (m + 2) _ 2 (by show (m + 2) % 4 = 2; omega) j q (by omega),
    addAt1_apply a V J hJ c (m + 3) _ 3 (by show (m + 3) % 4 = 3; omega) j q (by omega)]

include hJ in
/-- WHAT A POINT WRITES BACK to the first output is its block of the first output function. -/
theorem flushed1_1_eq (c : Dev nD) (t : Fin (cfg1 a).N) (hf : ((cfg1 a).win 1).flush t = true) :
    (dat1 a V c).flushed 1 t = (((cfg1 a).win 1).blk t).view.read (Elt Ideal) (G1_1 (V c main_arg2) J) := by
  have h3 : t.val % 4 = 3 := by
    by_contra h; rw [noFlush1_1 a t h] at hf; exact Bool.false_ne_true hf
  show ((cfg1 a).win 1).cut ((cfg1 a).grid.coords t) ((dat1 a V c).after 1 t) = _
  rw [after1_1, (out_eq a V c t h3).1]
  refine cut_eq_read1_1 a t _ _ fun j => ?_
  exact chain0_value a V J hJ c t.val t.isLt h3 j _ (emb1_1_row a t j)

include hJ in
/-- WHAT A POINT WRITES BACK to the second output is its block of the second output function. -/
theorem flushed1_2_eq (c : Dev nD) (t : Fin (cfg1 a).N) (hf : ((cfg1 a).win 2).flush t = true) :
    (dat1 a V c).flushed 2 t = (((cfg1 a).win 2).blk t).view.read (Elt Ideal) (G1_2 (V c main_arg2) J) := by
  have h3 : t.val % 4 = 3 := by
    by_contra h; rw [noFlush1_2 a t h] at hf; exact Bool.false_ne_true hf
  show ((cfg1 a).win 2).cut ((cfg1 a).grid.coords t) ((dat1 a V c).after 2 t) = _
  rw [after1_2, (out_eq a V c t h3).2]
  refine cut_eq_read1_2 a t _ _ fun j => ?_
  exact chain1_value a V J hJ c t.val t.isLt h3 j _ (emb1_2_row a t j)

include hJ in
/-- THE FIRST OUTPUT ARRAY after the region. -/
theorem final1_1 (c : Dev nD) : (dat1 (F := Ideal) a V c).arrAt 1 (cfg1 a).N = G1_1 (V c main_arg2) J :=
  (dat1 a V c).arrAt_eq_of_cover 1 (G1_1 (V c main_arg2) J) (fun t hf => flushed1_1_eq a V J hJ c t hf) (cover1_1 a)

include hJ in
/-- THE SECOND OUTPUT ARRAY after the region. -/
theorem final1_2 (c : Dev nD) : (dat1 (F := Ideal) a V c).arrAt 2 (cfg1 a).N = G1_2 (V c main_arg2) J :=
  (dat1 a V c).arrAt_eq_of_cover 2 (G1_2 (V c main_arg2) J) (fun t hf => flushed1_2_eq a V J hJ c t hf) (cover1_2 a)

/-- The joints array is as the region found it: its window is staged and never written back. -/
theorem kept1_0 (c : Dev nD) : (dat1 (F := Ideal) a V c).arrAt 0 (cfg1 a).N = V c main_arg2 :=
  ((dat1 a V c).arrAt_in 0 rfl _).trans (A_eq1 a V c 0)

end Cert.KernelIdeal.Hand1

end
-- ==== Proof.BridgeK.lean ====
/-
  The total, over the names of the two kernels' value lemmas.

  The four output arrays are, entry by entry, the first kernel's two tile arrays of block sums and the second kernel's
  two tile arrays of accumulated joint sums; the tail of their four scaled sums is the tail of the reference's four sums.
-/
import proofs.«177773_j59631325938492_2_alg».proof.Proof.Bridge
import proofs.«177773_j59631325938492_2_alg».proof.Proof.KIValue1

noncomputable section

open scoped BigOperators

namespace Cert.Bridge

open Idealize.ShloMosaic Idealize.ShloMosaic.ValueIdx Cert.ReferenceIdeal.HandRun Cert.Math

/-- The second kernel's first output array, as its value lemma names it, is the accumulator tile of step costs. -/
theorem G1_1_eq_accTile (A2 : (⟨4, ![64, 24, 3, 2048]⟩ : Shape).Idx → EReal) (J : Fin 4 → Fin 24)
    (q : (⟨2, ![32, 128]⟩ : Shape).Idx) : Cert.KernelIdeal.Hand1.G1_1 A2 J q = accTile (stepLoss A2) J q := rfl

/-- The second kernel's second output array is the accumulator tile of step weights. -/
theorem G1_2_eq_accTile (A2 : (⟨4, ![64, 24, 3, 2048]⟩ : Shape).Idx → EReal) (J : Fin 4 → Fin 24)
    (q : (⟨2, ![32, 128]⟩ : Shape).Idx) : Cert.KernelIdeal.Hand1.G1_2 A2 J q = accTile (stepW A2) J q := rfl

/-- THE TOTAL over the value lemmas' names. -/
theorem total_eq_kd (A0 A1 : FVec Ideal (⟨4, ![64, 24, 6, 2048]⟩ : Shape) .f32)
    (A2 : FVec Ideal (⟨4, ![64, 24, 3, 2048]⟩ : Shape) .f32)
    (h0 : ∀ i, ∃ r : ℝ, A0 i = r) (h1 : ∀ i, ∃ r : ℝ, A1 i = r) (h2 : ∀ i, ∃ r : ℝ, A2 i = r)
    (B0 B1 : (⟨3, ![64, 144, 2048]⟩ : Shape).Idx → EReal)
    (hB0 : ∀ j, B0 j = A0 (e2048 j)) (hB1 : ∀ j, B1 j = A1 (e2048 j))
    (o0 o1 : FVec Ideal (⟨2, ![64, 128]⟩ : Shape) .f32) (o2 o3 : FVec Ideal (⟨2, ![32, 128]⟩ : Shape) .f32)
    (e0 : ∀ q, o0 q = Cert.KernelIdeal.Hand0.G2 B0 B1 q) (e1 : ∀ q, o1 q = Cert.KernelIdeal.Hand0.G3 B0 B1 q)
    (e2 : ∀ q, o2 q = Cert.KernelIdeal.Hand1.G1_1 A2 jointOf q) (e3 : ∀ q, o3 q = Cert.KernelIdeal.Hand1.G1_2 A2 jointOf q) :
    Cert.ReferenceIdeal.HandRun.tail (Cert.KernelIdeal.HandRun.ksumA (F := Ideal) o0) (Cert.KernelIdeal.HandRun.ksumA (F := Ideal) o1)
        (Cert.KernelIdeal.HandRun.ksumB (F := Ideal) o2) (Cert.KernelIdeal.HandRun.ksumB (F := Ideal) o3)
      = Cert.ReferenceIdeal.HandRun.tail (r0 A0 A1) (r1 A0 A1) (r2 A2) (r3 A2) :=
  total_eq_k A0 A1 A2 h0 h1 h2 B0 B1 hB0 hB1 o0 o1 o2 o3 e0 e1
    (fun q => (e2 q).trans (G1_1_eq_accTile A2 jointOf q)) (fun q => (e3 q).trans (G1_2_eq_accTile A2 jointOf q))

end Cert.Bridge

end
-- ==== Proof.KIResult.lean ====
/-
  The kernel program's result is the reference's result, on finite inputs.

  The final buffer of the kernel program is the scalar tail applied to four scaled sums of the regions' output arrays.
  The first region's arrays are the tiles of block sums of the reshaped arguments, the second region's the accumulated
  tiles of the foot terms of the joints array (which no operation before that region writes); the precondition makes
  every entry of the three arguments a real number; so the four scaled sums are the reference's four sums, and the two
  tails agree.
-/
import proofs.«177773_j59631325938492_2_alg».proof.Proof.Bridge
import proofs.«177773_j59631325938492_2_alg».proof.Proof.MathFinite
import proofs.«177773_j59631325938492_2_alg».proof.Defs
import proofs.«177773_j59631325938492_2_alg».proof.Proof.BridgeK

noncomputable section

namespace Cert.KernelIdeal.HandRun

open Cert.KernelIdeal Cert.KernelIdeal.Gen Cert.KernelIdeal.Hand0 Cert.KernelIdeal.Hand1
open Idealize.ShloMosaic Idealize.ShloMosaic.TcCoe Idealize.SL.Sem

variable (m : (ℓ : Loc nD τ sig) → Buf (Elt Ideal) ℓ) (ρ : Dev nD → PrngReg)

/-- The joints array reaches the second region as launched: no host operation writes it and the first region does not
    stage it. -/
theorem V3_arg2 (c : Dev nD) : V3 m ρ c main_arg2 = m ((c : Thread nD τ).loc main_arg2) :=
  calc W3 m ρ c (Proc.devRef .tc main_arg2)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

/-- The table the second region runs at holds the reference's four joint numbers. -/
theorem hJ_adm1 : ∀ f : Fin 4, tblAt (adm1 (F := Ideal)).1 f = (Cert.ReferenceIdeal.HandRun.jointOf f).val := by
  intro f; fin_cases f <;> rfl

/-- On finite inputs the kernel program's result buffer holds the reference's result of the same three arrays. -/
theorem result_eq (hpre : Cert.Pre_KernelIdeal m) (c : Dev nD) :
    W5 (F := Ideal) m ρ c (Proc.devRef .tc main_v19)
      = Cert.ReferenceIdeal.HandRun.result (F := Ideal) (m ((c : Thread nD τ).loc main_arg0)) (m ((c : Thread nD τ).loc main_arg1)) (m ((c : Thread nD τ).loc main_arg2)) := by
  obtain ⟨h0, h1, h2⟩ := Cert.Math.real_entries _ _ _ (hpre c)
  rw [W5_v19, Cert.ReferenceIdeal.HandRun.result_eq_tail]
  refine Cert.Bridge.total_eq_kd (m ((c : Thread nD τ).loc main_arg0)) (m ((c : Thread nD τ).loc main_arg1)) (m ((c : Thread nD τ).loc main_arg2)) h0 h1 h2
    (V1 m ρ c main_v0) (V1 m ρ c main_v1) ?_ ?_ _ _ _ _ ?_ ?_ ?_ ?_
  · intro j
    show W1 m ρ c (Proc.devRef .tc main_v0) j = _
    rw [W1_v0]; exact Cert.Math.shapeCast_64x144x2048_apply _ _ j
  · intro j
    show W1 m ρ c (Proc.devRef .tc main_v1) j = _
    rw [W1_v1]; exact Cert.Math.shapeCast_64x144x2048_apply _ _ j
  · intro q
    rw [show W2 m ρ c (Proc.devRef .tc main_v2_0) = (dat0 (V1 m ρ) c).arrAt 2 cfg0.N from W2_arr m ρ c 2, final0_2]
  · intro q
    rw [show W2 m ρ c (Proc.devRef .tc main_v2_1) = (dat0 (V1 m ρ) c).arrAt 3 cfg0.N from W2_arr m ρ c 3, final0_3]
  · intro q
    rw [show W4 m ρ c (Proc.devRef .tc main_v9_0) = (dat1 adm1 (V3 m ρ) c).arrAt 1 (cfg1 (adm1 (F := Ideal))).N from W4_arr m ρ c 1,
      final1_1 adm1 (V3 m ρ) Cert.ReferenceIdeal.HandRun.jointOf hJ_adm1 c, V3_arg2]
  · intro q
    rw [show W4 m ρ c (Proc.devRef .tc main_v9_1) = (dat1 adm1 (V3 m ρ) c).arrAt 2 (cfg1 (adm1 (F := Ideal))).N from W4_arr m ρ c 2,
      final1_2 adm1 (V3 m ρ) Cert.ReferenceIdeal.HandRun.jointOf hJ_adm1 c, V3_arg2]

end Cert.KernelIdeal.HandRun

end
-- ==== Proof.lean ====
/-
  Every claim of the certificate, assembled.

  The kernel program computes a motion loss in two kernel regions and a scalar tail on the host: the first region
  walks eight row blocks of the reshaped prediction and target arrays and leaves, per block, the sum of squared
  differences and the sum of squared frame-to-frame differences of the difference, each broadcast over a tile; the
  second walks four row blocks and four foot joints and leaves per row block the accumulated anti-sliding loss and
  contact weight. The host sums each tile array and divides by the tile size, 1024. The reference computes the same
  four totals directly. Each program's run is read back as a function of its three argument arrays; the three
  frames are those runs read at the arguments; and on finite inputs the four totals agree, by cutting each of the
  reference's sums into the kernel's blocks (regrouping a difference of differences, which needs every entry real).
-/
import proofs.«177773_j59631325938492_2_alg».proof.Defs
import proofs.«177773_j59631325938492_2_alg».proof.Proof.KHost
import proofs.«177773_j59631325938492_2_alg».proof.Proof.KIHost
import proofs.«177773_j59631325938492_2_alg».proof.Proof.RefRead
import proofs.«177773_j59631325938492_2_alg».proof.Proof.KIResult
import proofs.«177773_j59631325938492_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_k : Cert.frame_Kernel := fun m g _ =>
  (θ_run (Cert.Kernel.defs (F := Bits)) _ _).mono
    (fun r h c => ⟨(h c _ (Cert.Kernel.HandRun.mem_uc Cert.Kernel.main_arg0 (by decide))).trans (Cert.Kernel.HandRun.W5_arg0 m g c),
      (h c _ (Cert.Kernel.HandRun.mem_uc Cert.Kernel.main_arg1 (by decide))).trans (Cert.Kernel.HandRun.W5_arg1 m g c),
      (h c _ (Cert.Kernel.HandRun.mem_uc Cert.Kernel.main_arg2 (by decide))).trans (Cert.Kernel.HandRun.W5_arg2 m g c)⟩)
    (Cert.Kernel.HandRun.run_main (F := Bits) m g)

/-- So does its idealization. -/
theorem frame_ki : Cert.frame_KernelIdeal := fun m g _ =>
  (θ_run (Cert.KernelIdeal.defs (F := Ideal)) _ _).mono
    (fun r h c => ⟨(h c _ (Cert.KernelIdeal.HandRun.mem_uc Cert.KernelIdeal.main_arg0 (by decide))).trans (Cert.KernelIdeal.HandRun.W5_arg0 m g c),
      (h c _ (Cert.KernelIdeal.HandRun.mem_uc Cert.KernelIdeal.main_arg1 (by decide))).trans (Cert.KernelIdeal.HandRun.W5_arg1 m g c),
      (h c _ (Cert.KernelIdeal.HandRun.mem_uc Cert.KernelIdeal.main_arg2 (by decide))).trans (Cert.KernelIdeal.HandRun.W5_arg2 m g c)⟩)
    (Cert.KernelIdeal.HandRun.run_main (F := Ideal) m g)

/-- The reference is host operations only: its run, with the result dropped. -/
theorem frame_ri : Cert.frame_ReferenceIdeal := fun m g _ =>
  (θ_run (Cert.ReferenceIdeal.defs (F := Ideal)) _ _).mono (fun _ h c => (h c).2) (Cert.ReferenceIdeal.HandRun.run (F := Ideal) m g)

/-- The idealization rewrote no operation. -/
theorem preserves : Cert.preserves_Kernel_KernelIdeal := trivial

/-- At the ideal instance, from memories agreeing on the three arguments, both programs run to the end; the kernel
    program's result buffer holds the reference's result of those arguments (finite by the precondition), which is
    what the reference's result buffer holds. -/
theorem algebraic : Cert.algebraic_KernelIdeal_ReferenceIdeal := by
  intro m ρ m' ρ' hpre hagree
  refine ⟨fun c => Cert.KernelIdeal.HandRun.W5 (F := Ideal) m ρ c (Proc.devRef .tc Cert.KernelIdeal.main_v19), ?_, ?_⟩
  · exact (θ_run (Cert.KernelIdeal.defs (F := Ideal)) _ _).mono
      (fun r h c => ⟨h c _ (Cert.KernelIdeal.HandRun.mem_uc Cert.KernelIdeal.main_v19 (by decide)),
        (h c _ (Cert.KernelIdeal.HandRun.mem_uc Cert.KernelIdeal.main_arg0 (by decide))).trans (Cert.KernelIdeal.HandRun.W5_arg0 m ρ c),
        (h c _ (Cert.KernelIdeal.HandRun.mem_uc Cert.KernelIdeal.main_arg1 (by decide))).trans (Cert.KernelIdeal.HandRun.W5_arg1 m ρ c),
        (h c _ (Cert.KernelIdeal.HandRun.mem_uc Cert.KernelIdeal.main_arg2 (by decide))).trans (Cert.KernelIdeal.HandRun.W5_arg2 m ρ c)⟩)
      (Cert.KernelIdeal.HandRun.run_main (F := Ideal) m ρ)
  · refine (θ_run (Cert.ReferenceIdeal.defs (F := Ideal)) _ _).mono (fun r h c => ⟨(h c).1.trans ?_, (h c).2⟩)
      (Cert.ReferenceIdeal.HandRun.run (F := Ideal) m' ρ')
    rw [(hagree c).1, (hagree c).2.1, (hagree c).2.2]
    exact (Cert.KernelIdeal.HandRun.result_eq m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
